-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x64 : Shape := ⟨2, ![64, 64]⟩
abbrev S64x16 : Shape := ⟨2, ![64, 16]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S8192x64 .f32) (main_arg1 : FVec F S8192x8192 .f32) (main_arg2 : FVec F S64x64 .f32) (main_arg3 : FVec F S64x16 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S8192x64 : Shape := ⟨2, ![8192, 64]⟩
abbrev S8192x8192 : Shape := ⟨2, ![8192, 8192]⟩
abbrev S64x64 : Shape := ⟨2, ![64, 64]⟩
abbrev S64x16 : Shape := ⟨2, ![64, 16]⟩
abbrev S8192x1 : Shape := ⟨2, ![8192, 1]⟩
abbrev S2048x2048 : Shape := ⟨2, ![2048, 2048]⟩
abbrev S2048x1 : Shape := ⟨2, ![2048, 1]⟩
abbrev S2048 : Shape := ⟨1, ![2048]⟩
abbrev S2048x64 : Shape := ⟨2, ![2048, 64]⟩
abbrev S8192x16 : Shape := ⟨2, ![8192, 16]⟩
abbrev S2048x16 : Shape := ⟨2, ![2048, 16]⟩

abbrev nBuf : Space → Nat
  | .hbm => 13
  | .vmem => 27
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x64, .f32⟩
  | .hbm, ⟨3, _⟩ => ⟨S64x16, .f32⟩
  | .hbm, ⟨4, _⟩ => ⟨S8192x1, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S8192x16, .f32⟩
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x2048, .f32⟩
  | .local _ .vmem, ⟨6, _⟩ => ⟨S2048x2048, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x1, .f32⟩
  | .local _ .vmem, ⟨12, _⟩ => ⟨S2048x1, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x2048, .f32⟩
  | .local _ .vmem, ⟨17, _⟩ => ⟨S2048x2048, .f32⟩
  | .local _ .vmem, ⟨18, _⟩ => ⟨S2048x16, .f32⟩
  | .local _ .vmem, ⟨19, _⟩ => ⟨S2048x16, .f32⟩
  | .local _ .vmem, ⟨20, _⟩ => ⟨S2048x16, .f32⟩
  | .local _ .vmem, ⟨21, _⟩ => ⟨S2048x16, .f32⟩
  | .local _ .vmem, ⟨22, _⟩ => ⟨S2048x1, .f32⟩
  | .local _ .vmem, ⟨23, _⟩ => ⟨S2048x1, .f32⟩
  | .local _ .vmem, ⟨24, _⟩ => ⟨S2048x16, .f32⟩
  | .local _ .vmem, ⟨25, _⟩ => ⟨S2048x16, .f32⟩
  | .local _ .vmem, ⟨26, _⟩ => ⟨S2048x16, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  bcast_S8192x1_S8192x64_0_1 : S8192x1.BroadcastsInDim S8192x64 (![0, 1] : Fin 2 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  broadcasts_S2048x1_S2048x64 : S2048x1.Broadcasts S2048x64
  bcast_S8192x1_S8192x16_0_1 : S8192x1.BroadcastsInDim S8192x16 (![0, 1] : Fin 2 → Fin S8192x16.rank)
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  broadcasts_S2048x1_S2048x16 : S2048x1.Broadcasts S2048x16
  reduces_S2048x16_S2048 : S2048x16.Reduces [1] S2048
  dot_S8192x64_S64x64_S8192x64_1_0_0_1_n_n_wf : DotDims.WF S8192x64 S64x64 S8192x64 [1] [0] [0] [1] [] []
  dot_S2048x2048_S2048x64_S2048x64_1_0_0_1_n_n_wf : DotDims.WF S2048x2048 S2048x64 S2048x64 [1] [0] [0] [1] [] []
  dot_S8192x64_S64x16_S8192x16_1_0_0_1_n_n_wf : DotDims.WF S8192x64 S64x16 S8192x16 [1] [0] [0] [1] [] []
  dot_S2048x2048_S2048x16_S2048x16_1_0_0_1_n_n_wf : DotDims.WF S2048x2048 S2048x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .f32 = 32 ∨ (Rect.block (s := S8192x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S8192x64.size a
  hwx1_4 : ∀ i : grid1.Coords, EltTy.bits .f32 = 32 ∨ (Rect.block (s := S8192x64) S2048x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .f32 = 32 ∨ (Rect.block (s := S8192x8192) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x16.size a ≤ S8192x16.size a
  hwx2_1 : ∀ i : grid2.Coords, EltTy.bits .f32 = 32 ∨ (Rect.block (s := S8192x16) S2048x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S8192x16.size a
  hwx2_2 : ∀ i : grid2.Coords, EltTy.bits .f32 = 32 ∨ (Rect.block (s := S8192x16) S2048x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S8192x1.size a
  hwx2_3 : ∀ i : grid2.Coords, EltTy.bits .f32 = 32 ∨ (Rect.block (s := S8192x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S8192x16.size a
  hwx2_4 : ∀ i : grid2.Coords, EltTy.bits .f32 = 32 ∨ (Rect.block (s := S8192x16) S2048x16.size (cc2_transform_4 i) (hinb2_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2048x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S2048x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64x16 : Shape := ⟨2, ![64, 16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x16 : Shape := ⟨2, ![8192, 16]⟩

abbrev nBuf : Space → Nat
  | .hbm => 49
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x64, .f32⟩
  | .hbm, ⟨3, _⟩ => ⟨S64x16, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x64, .f32⟩
  | .hbm, ⟨29, _⟩ => ⟨S8192x64, .f32⟩
  | .hbm, ⟨30, _⟩ => ⟨S_, .f32⟩
  | .hbm, ⟨31, _⟩ => ⟨S8192x64, .f32⟩
  | .hbm, ⟨32, _⟩ => ⟨S8192x64, .f32⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x16, .f32⟩
  | .hbm, ⟨48, _⟩ => ⟨S8192x16, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_cst : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x64 : S_.BroadcastsInDim S8192x64 (![] : Fin 0 → Fin S8192x64.rank)
  reducesTo_S8192x16_S8192_d1 : S8192x16.ReducesTo [1] S8192
  bcast_S8192x1_S8192x16_0_1 : S8192x1.BroadcastsInDim S8192x16 (![0, 1] : Fin 2 → Fin S8192x16.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S8192x64_S64x16_S8192x16_1_0_0_1_n_n_wf : DotDims.WF S8192x64 S64x16 S8192x16 [1] [0] [0] [1] [] []
  dot_S8192x8192_S8192x16_S8192x16_1_0_0_1_n_n_wf : DotDims.WF S8192x8192 S8192x16 S8192x16 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.Kernel.R0Base.lean ====
/-
  Region 0 computes the scaling column: over the four column blocks j = 0..3 of a block row it adds up the row sums
  of the adjacency block in a scratch column (cleared at j = 0), and at j = 3 stores where(deg > 0, rsqrt deg, 0) with
  deg = sum + 1 into the output block. This module holds what the three control cases share: the two branch
  conditions in closed form over the 16 grid points (point t = 4 i + j), where the output window is idle and when
  it is written back, names for the staging and scratch memrefs, and the invariant between points.
-/
import proofs.«169160_j37220186587698_1_alg».proof.Proof.Gen.Kernel.Launch
import proofs.«169160_j37220186587698_1_alg».proof.Proof.Gen.Kernel.Skeleton
import proofs.«169160_j37220186587698_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered: every region's part is stated at this parameter
variable (V : (c : Dev nD) → (b : Ref sig .tc) → Buf (Elt F) ((c : Thread nD τ).loc b))

/-! ## The windows' blocks -/

/-- Block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- "first column block": the scratch column is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "last column block": the scaling column is computed and stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle, and when it is written back -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S2048x1 .f32 := (Memref.whole cc0_stg1_0 : Memref sig .tc .vmem S2048x1 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The scratch column carried from one column block to the next. -/
abbrev scM0_0 : Memref sig .tc .vmem S2048x1 .f32 := Memref.whole cc0_scratch0
abbrev VS0_0 : View sig .tc .vmem S2048x1 .f32 := scM0_0.view

/-- The scoped buffers of the other two regions, each whole at some contents: region 0 never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- The region's invariant as the launch hands it over: the scratch column at some contents, the other regions'
    scoped buffers, the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Frames

end
-- ==== Proof.Kernel.R0RunA.lean ====
/-
  Region 0's body at a FIRST column block (j = 0, points 0, 4, 8, 12): the scratch column is cleared, then the row
  sums of the adjacency block are added to it; nothing is stored into the output block, which comes back as found.
  The pieces the scratch column ends with are found by running the body.
-/
import proofs.«169160_j37220186587698_1_alg».proof.Proof.Kernel.R0Base

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the first-block case, on whole memrefs: the adjacency block at `x0`, the output block at `xi1` (handed
    back untouched), the scratch column at anything; it ends with the scratch column's pieces written. -/
noncomputable def kernelRun0_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frames

end
-- ==== Proof.Kernel.R0RunB.lean ====
/-
  Region 0's body at a MIDDLE column block (j = 1, 2): the row sums of the adjacency block are added to the scratch
  column, which holds what the block before left; nothing is stored into the output block.
-/
import proofs.«169160_j37220186587698_1_alg».proof.Proof.Kernel.R0RunA

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the middle-block case: the scratch column comes in at `xs0` and ends with its pieces written. -/
noncomputable def kernelRun0_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frames

end
-- ==== Proof.Kernel.R0RunC.lean ====
/-
  Region 0's body at the LAST column block (j = 3): the row sums are added to the scratch column, and the scaling
  column where(deg > 0, rsqrt deg, 0), deg = the completed sum + 1, is stored into the output block.
-/
import proofs.«169160_j37220186587698_1_alg».proof.Proof.Kernel.R0RunB

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the last-block case: the scratch column comes in at `xs0`; the output block (at anything) and the
    scratch column end with their pieces written. -/
noncomputable def kernelRun0_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Frames

end
-- ==== Proof.Kernel.R0Frame.lean ====
/-
  Region 0 put together. What the scratch column and the output block hold after each of the 16 points, by recursion
  on the point: at j = 0 the cleared column plus the block's row sums, at j = 1, 2 the column before plus the row sums,
  at j = 3 the same and the output block at where(deg > 0, rsqrt deg, 0). The invariant between two points holds the
  scratch column at exactly that value; with it the body meets its obligation at every point.
-/
import proofs.«169160_j37220186587698_1_alg».proof.Proof.Kernel.R0RunC

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In the first-block case nothing is stored into the output block: a placeholder nothing consults. -/
def out0_A_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i) (x0 : Vec F S2048x2048 .f32) : Vec F S2048x1 .f32 :=
  VO0_1.read (Elt F) (VO0_1.writes (Elt F) VO0_1.junk (kernelRun0_A c i arg2 harg2 arg3 harg3 arg4 harg4 hc0 hc1 x0).1)

/-- The first-block case's stores into the scratch column cover it. -/
theorem scover0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i) (x0 : Vec F S2048x2048 .f32) (y : S2048x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S2048x1.size (by sl_kernel_rfl) y

/-- The scratch column after a first block. -/
def sout0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i) (x0 : Vec F S2048x2048 .f32) : Vec F S2048x1 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i) (x0 : Vec F S2048x2048 .f32) (xs0 : Vec F S2048x1 .f32) : Vec F S2048x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i) (x0 : Vec F S2048x2048 .f32) (xs0 : Vec F S2048x1 .f32) (y : S2048x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S2048x1.size (by sl_kernel_rfl) y

/-- The scratch column after a middle block, from the column before. -/
def sout0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i) (x0 : Vec F S2048x2048 .f32) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).2.1)

/-- The last-block case's store covers the output block. -/
theorem cover0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- The output block after the last column block. -/
def out0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- The scratch column after the last column block. -/
def sout0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

/-! ## Point by point -/

/-- The output block and the scratch column after the body at position `n`: the case the position is in (n mod 4),
    run on the point's adjacency block and, past a first block, on the scratch column the position before left. -/
def outsAt0 (c : Dev nD) : (n : ℕ) → n < cfg0.N → Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over; after position `n` the scratch column at `outsAt0`'s
    second component, the other regions' scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The proof data -/

/-- Region 0's proof data at the entry contents `V`: the adjacency window's buffer at its block, the output window's
    at `outsAt0`'s first component, the invariant `PhiS0`; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the adjacency block is in its buffer; the position mod 4 says which case runs; the invariant
    hands over the scratch column at what the point before left (at anything before the first point) and takes it
    back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over, the scratch column's value forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Cert.Kernel.Frames

end
-- ==== Proof.Kernel.R1Base.lean ====
/-
  Region 1 is the first aggregation layer (64 features, rectified): over the four column blocks j = 0..3 of a block row it adds the
  products (adjacency block) · (scaled features' row block j) into a scratch block (cleared at j = 0), and at j = 3 stores
  the rectified block max(s · (acc + xs), 0) into the output block. The scaled features reach the body twice: once by the column-block
  index j (the product's right factor) and once by the row-block index i (the added-back term). This module holds
  what the three control cases share.
-/
import proofs.«169160_j37220186587698_1_alg».proof.Proof.Gen.Kernel.Launch
import proofs.«169160_j37220186587698_1_alg».proof.Proof.Gen.Kernel.Skeleton
import proofs.«169160_j37220186587698_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle, and when it is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

abbrev VO1_4 : View sig .tc .vmem S2048x64 .f32 := (Memref.whole cc1_stg4_0 : Memref sig .tc .vmem S2048x64 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
/-- The scratch block carried from one column block to the next. -/
abbrev scM1_0 : Memref sig .tc .vmem S2048x64 .f32 := Memref.whole cc1_scratch0
abbrev VS1_0 : View sig .tc .vmem S2048x64 .f32 := scM1_0.view

/-- The scoped buffers of the other two regions, each whole at some contents: region 1 never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- The region's invariant as the launch hands it over: the scratch block at some contents, the other regions'
    scoped buffers, the generator register at some state. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA rest1
  rw [Pipeline.scopedRest_eq_of_list spec1 c [cc1_scratch0, cc0_stg0_0, cc0_stg0_1, cc0_stg1_0, cc0_stg1_1, cc0_scratch0, cc2_stg0_0, cc2_stg0_1, cc2_stg1_0, cc2_stg1_1, cc2_stg2_0, cc2_stg2_1, cc2_stg3_0, cc2_stg3_1, cc2_stg4_0, cc2_stg4_1, cc2_scratch0] (by decide) (by decide)]
  simp only [scM1_0, owns_whole]; try rfl

end Cert.Kernel.Frames

end
-- ==== Proof.Kernel.R1RunA.lean ====
/-
  Region 1's body at a FIRST column block (j = 0): the scratch block is cleared, then the product of the adjacency
  block with the scaled features' column block is added to it; nothing is stored into the output block.
-/
import proofs.«169160_j37220186587698_1_alg».proof.Proof.Kernel.R1Base

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the first-block case, on whole memrefs: the four input blocks at `x0 … x3`, the output block at `xi4`
    (handed back untouched), the scratch block at anything; it ends with the scratch block's pieces written. -/
noncomputable def kernelRun1_A (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i)
    (x0 : Vec F S2048x2048 .f32) (x1 : Vec F S2048x64 .f32) (x2 : Vec F S2048x64 .f32) (x3 : Vec F S2048x1 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frames

end
-- ==== Proof.Kernel.R1RunB.lean ====
/-
  Region 1's body at a MIDDLE column block (j = 1, 2): the product of the adjacency block with the scaled features'
  column block is added to the scratch block, which holds what the block before left; no store into the output block.
-/
import proofs.«169160_j37220186587698_1_alg».proof.Proof.Kernel.R1RunA

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the middle-block case: the scratch block comes in at `xs0` and ends with its pieces written. -/
noncomputable def kernelRun1_B (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i)
    (x0 : Vec F S2048x2048 .f32) (x1 : Vec F S2048x64 .f32) (x2 : Vec F S2048x64 .f32) (x3 : Vec F S2048x1 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frames

end
-- ==== Proof.Kernel.R1RunC.lean ====
/-
  Region 1's body at the LAST column block (j = 3): the last product is added to the scratch block, and
  the rectified block max(s · (acc + xs), 0) is stored into the output block.
-/
import proofs.«169160_j37220186587698_1_alg».proof.Proof.Kernel.R1RunB

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the last-block case: the scratch block comes in at `xs0`; the output block (at anything) and the
    scratch block end with their pieces written. -/
noncomputable def kernelRun1_C (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i)
    (x0 : Vec F S2048x2048 .f32) (x1 : Vec F S2048x64 .f32) (x2 : Vec F S2048x64 .f32) (x3 : Vec F S2048x1 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Frames

end
-- ==== Proof.Kernel.R1Frame.lean ====
/-
  Region 1 put together: what the scratch block and the output block hold after each of the 16 points (by recursion on
  the point, the case being the position mod 4), the invariant that keeps the scratch block at exactly that value
  between two points, the proof data, and the body's obligation at every point.
-/
import proofs.«169160_j37220186587698_1_alg».proof.Proof.Kernel.R1RunC

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out1_A_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) : Vec F S2048x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) (y : S2048x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S2048x64.size (by sl_kernel_rfl) y

/-- The scratch block after a first column block. -/
def sout1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) : Vec F S2048x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

def out1_B_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) (y : S2048x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S2048x64.size (by sl_kernel_rfl) y

/-- The scratch block after a middle column block, from the block before. -/
def sout1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) (y : S2048x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S2048x64.size (by sl_kernel_rfl) y

/-- The output block after the last column block. -/
def out1_C_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) (y : S2048x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S2048x64.size (by sl_kernel_rfl) y

/-- The scratch block after the last column block. -/
def sout1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## Point by point -/

/-- The output block and the scratch block after the body at position `n`. -/
def outsAt1 (c : Dev nD) : (n : ℕ) → n < cfg1.N → Vec F S2048x64 .f32 × Vec F S2048x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- Region 1's proof data at the entry contents `V`. The scaled features' array is read by two windows, each holding
    half of it; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 6400000 in
/-- The body at any point: the four input blocks are in their buffers; the position mod 4 says which case runs; the
    invariant hands over the scratch block at what the point before left (at anything before the first point) and
    takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hr⟩, Hg⟩
  isplitl [HS0 Hr]
  · isplitl [HS0]
    · iexists _; iexact HS0
    iexact Hr
  iexact Hg

end Cert.Kernel.Frames

end
-- ==== Proof.Kernel.R1Arrays.lean ====
/-
  Region 1's arrays among the core's unscoped buffers. Four distinct buffers stand behind its five windows: the
  adjacency, the scaled features (read by two windows), the scaling column, and the output. At entry the scaled
  features' buffer, held whole, is dealt to its two windows by halves; at exit the halves, still at the same contents,
  are joined.
-/
import proofs.«169160_j37220186587698_1_alg».proof.Proof.Kernel.R1Frame

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window, each a whole buffer at the share the proof data gives it. -/
theorem arrays1_eq (c : Dev nD) (Fv : (w : Fin cfg1.W) → Buf (Elt F) ((cfg1.win w).arr.view.loc (c : Thread nD τ))) :
    ((dat1 V c).arrays Fv : sProp 𝕄)
      = iprop(((((c : Thread nD τ).loc main_arg1) ↦{fullShare} Fv 0)) ∗ ((((c : Thread nD τ).loc main_v3) ↦{fullShare.left} Fv 1))
          ∗ ((((c : Thread nD τ).loc main_v3) ↦{fullShare.right} Fv 2)) ∗ ((((c : Thread nD τ).loc main_v0) ↦{fullShare} Fv 3))
          ∗ ((((c : Thread nD τ).loc main_v4) ↦{fullShare} Fv 4))) := by
  have h : ((dat1 V c).arrays Fv : sProp 𝕄)
      = bigSep Finset.univ fun w => ((((c : Thread nD τ).loc (Pipeline.arrRef spec1 w)) ↦{(dat1 V c).share w} Fv w : sProp 𝕄)) := by
    unfold Dat.arrays
    exact bigSep_congr fun w _ => by rw [(arr_whole1 w).set_eq_univ]
  rw [h, bigSep_W1]
  rfl

/-- The four distinct buffers behind the windows, one by one. -/
theorem arrBufs1_eq (c : Dev nD) (Vb : (b : Ref sig .tc) → Buf (Elt F) ((c : Thread nD τ).loc b)) :
    (Pipeline.arrBufs (Ix := Unit) (Name := ℕ) (U := UR sig nD τ) (Lvl := ℕ) spec1 c Vb : sProp 𝕄)
      = iprop((((c : Thread nD τ).loc main_arg1) ↦{fullShare} Vb main_arg1) ∗ (((c : Thread nD τ).loc main_v3) ↦{fullShare} Vb main_v3)
          ∗ (((c : Thread nD τ).loc main_v0) ↦{fullShare} Vb main_v0) ∗ (((c : Thread nD τ).loc main_v4) ↦{fullShare} Vb main_v4)) := by
  unfold Pipeline.arrBufs
  exact bigSep_eq_bigSepL_of_eq [main_arg1, main_v3, main_v0, main_v4] (by decide) (by decide) _

/-- ENTRY: the core's unscoped buffers at `V` give the pipeline its arrays at `V` and leave the rest. -/
theorem arrays_in1 (c : Dev nD) :
    (unscopedBufs c (V c) : sProp 𝕄) ⊢ iprop((dat1 V c).arrays (dat1 V c).A ∗ Pipeline.unscopedRest spec1 c (V c)) := by
  rw [Pipeline.unscopedBufs_split₀ cfgs (1 : Fin 3) winFacts₀1.arr_unscoped c (V c)]
  refine sep_mono ?_ .rfl
  rw [arrays1_eq]
  show (Pipeline.arrBufs spec1 c (V c) : sProp 𝕄) ⊢ _
  rw [arrBufs1_eq]
  iintro ⟨H1, HX, H0, HO⟩
  ihave HX2 := (pointsTo_share (PosShare.mem_left_op_right fullShare)).1 $$ HX
  icases HX2 with ⟨HXl, HXr⟩
  isplitl [H1]; · iexact H1
  isplitl [HXl]; · iexact HXl
  isplitl [HXr]; · iexact HXr
  isplitl [H0]; · iexact H0
  iexact HO

/-- EXIT: the pipeline's arrays at contents `Fv` and the rest at `V` are the core's unscoped buffers at any valuation
    `V'` that has the arrays at `Fv` and agrees with `V` off them. -/
theorem arrays_out1 (c : Dev nD) (V' : (b : Ref sig .tc) → Buf (Elt F) ((c : Thread nD τ).loc b))
    (Fv : (w : Fin cfg1.W) → Buf (Elt F) ((cfg1.win w).arr.view.loc (c : Thread nD τ)))
    (hF : ∀ w, Fv w = V' (Pipeline.arrRef spec1 w))
    (hrest : ∀ b, b ∉ Finset.univ.image (Pipeline.arrRef spec1) → V' b = V c b) :
    iprop((dat1 V c).arrays Fv ∗ Pipeline.unscopedRest spec1 c (V c)) ⊢ (unscopedBufs c V' : sProp 𝕄) := by
  rw [Pipeline.unscopedBufs_split₀ cfgs (1 : Fin 3) winFacts₀1.arr_unscoped c V']
  refine sep_mono ?_ (Entails.of_eq ?_)
  · rw [arrays1_eq, hF 0, hF 1, hF 2, hF 3, hF 4]
    show _ ⊢ (Pipeline.arrBufs spec1 c V' : sProp 𝕄)
    rw [arrBufs1_eq]
    iintro ⟨H1, HXl, HXr, H0, HO⟩
    isplitl [H1]; · iexact H1
    isplitl [HXl HXr]
    · ihave HX := (pointsTo_share (PosShare.mem_left_op_right fullShare)).2 $$ [HXl HXr]
      · isplitl [HXl]; · iexact HXl
        iexact HXr
      iexact HX
    isplitl [H0]; · iexact H0
    iexact HO
  · unfold Pipeline.unscopedRest
    exact bigSep_congr fun b hb => by rw [hrest b (Finset.mem_sdiff.mp hb).2]

end Cert.Kernel.Frames

end
-- ==== Proof.Kernel.R2Base.lean ====
/-
  Region 2 is the second aggregation layer (16 classes, softmax over the classes): over the four column blocks j = 0..3 of a block row it adds the
  products (adjacency block) · (scaled features' row block j) into a scratch block (cleared at j = 0), and at j = 3 stores
  the block's row-wise softmax of s · (acc + xs) into the output block. The scaled features reach the body twice: once by the column-block
  index j (the product's right factor) and once by the row-block index i (the added-back term). This module holds
  what the three control cases share.
-/
import proofs.«169160_j37220186587698_1_alg».proof.Proof.Gen.Kernel.Launch
import proofs.«169160_j37220186587698_1_alg».proof.Proof.Gen.Kernel.Skeleton
import proofs.«169160_j37220186587698_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block of window `w` at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions over the grid -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle, and when it is written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-! ## The memrefs the body is called with -/

abbrev VO2_4 : View sig .tc .vmem S2048x16 .f32 := (Memref.whole cc2_stg4_0 : Memref sig .tc .vmem S2048x16 .f32).view
abbrev ms2_0 (t : Fin cfg2.N) : Memref sig .tc .vmem S2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x16 .f32 := win2_4.stage (cfg2.slots t 4)
abbrev hs2_4 (t : Fin cfg2.N) : (ms2_4 t).IsWhole := hstage2_4 ((cfg2.slots t 4).cast nbuf2_4)
/-- The scratch block carried from one column block to the next. -/
abbrev scM2_0 : Memref sig .tc .vmem S2048x16 .f32 := Memref.whole cc2_scratch0
abbrev VS2_0 : View sig .tc .vmem S2048x16 .f32 := scM2_0.view

/-- The scoped buffers of the other two regions, each whole at some contents: region 2 never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant as the launch hands it over: the scratch block at some contents, the other regions'
    scoped buffers, the generator register at some state. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA rest2
  rw [Pipeline.scopedRest_eq_of_list spec2 c [cc2_scratch0, cc0_stg0_0, cc0_stg0_1, cc0_stg1_0, cc0_stg1_1, cc0_scratch0, cc1_stg0_0, cc1_stg0_1, cc1_stg1_0, cc1_stg1_1, cc1_stg2_0, cc1_stg2_1, cc1_stg3_0, cc1_stg3_1, cc1_stg4_0, cc1_stg4_1, cc1_scratch0] (by decide) (by decide)]
  simp only [scM2_0, owns_whole]; try rfl

end Cert.Kernel.Frames

end
-- ==== Proof.Kernel.R2RunA.lean ====
/-
  Region 2's body at a FIRST column block (j = 0): the scratch block is cleared, then the product of the adjacency
  block with the scaled features' column block is added to it; nothing is stored into the output block.
-/
import proofs.«169160_j37220186587698_1_alg».proof.Proof.Kernel.R2Base

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the first-block case, on whole memrefs: the four input blocks at `x0 … x3`, the output block at `xi4`
    (handed back untouched), the scratch block at anything; it ends with the scratch block's pieces written. -/
noncomputable def kernelRun2_A (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i)
    (x0 : Vec F S2048x2048 .f32) (x1 : Vec F S2048x16 .f32) (x2 : Vec F S2048x16 .f32) (x3 : Vec F S2048x1 .f32) :
    Σ' (L4 : List (View.Piece (Elt F) S2048x16 .f32)), { LS0 : List (View.Piece (Elt F) S2048x16 .f32) //
      ∀ (xi4 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frames

end
-- ==== Proof.Kernel.R2RunB.lean ====
/-
  Region 2's body at a MIDDLE column block (j = 1, 2): the product of the adjacency block with the scaled features'
  column block is added to the scratch block, which holds what the block before left; no store into the output block.
-/
import proofs.«169160_j37220186587698_1_alg».proof.Proof.Kernel.R2RunA

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the middle-block case: the scratch block comes in at `xs0` and ends with its pieces written. -/
noncomputable def kernelRun2_B (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i)
    (x0 : Vec F S2048x2048 .f32) (x1 : Vec F S2048x16 .f32) (x2 : Vec F S2048x16 .f32) (x3 : Vec F S2048x1 .f32) (xs0 : Vec F S2048x16 .f32) :
    Σ' (L4 : List (View.Piece (Elt F) S2048x16 .f32)), { LS0 : List (View.Piece (Elt F) S2048x16 .f32) //
      ∀ (xi4 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frames

end
-- ==== Proof.Kernel.R2RunC.lean ====
/-
  Region 2's body at the LAST column block (j = 3): the last product is added to the scratch block, and
  the block's row-wise softmax of s · (acc + xs) is stored into the output block.
-/
import proofs.«169160_j37220186587698_1_alg».proof.Proof.Kernel.R2RunB

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the last-block case: the scratch block comes in at `xs0`; the output block (at anything) and the
    scratch block end with their pieces written. -/
noncomputable def kernelRun2_C (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i)
    (x0 : Vec F S2048x2048 .f32) (x1 : Vec F S2048x16 .f32) (x2 : Vec F S2048x16 .f32) (x3 : Vec F S2048x1 .f32) (xs0 : Vec F S2048x16 .f32) :
    Σ' (L4 : List (View.Piece (Elt F) S2048x16 .f32)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Frames

end
-- ==== Proof.Kernel.R2Frame.lean ====
/-
  Region 2 put together: what the scratch block and the output block hold after each of the 16 points (by recursion on
  the point, the case being the position mod 4), the invariant that keeps the scratch block at exactly that value
  between two points, the proof data, and the body's obligation at every point.
-/
import proofs.«169160_j37220186587698_1_alg».proof.Proof.Kernel.R2RunC

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out2_A_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) : Vec F S2048x16 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

theorem scover2_A_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) (y : S2048x16.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S2048x16.size (by sl_kernel_rfl) y

/-- The scratch block after a first column block. -/
def sout2_A_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) : Vec F S2048x16 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

def out2_B_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

theorem scover2_B_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) (y : S2048x16.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S2048x16.size (by sl_kernel_rfl) y

/-- The scratch block after a middle column block, from the block before. -/
def sout2_B_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

theorem cover2_C_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S2048x16.size (by sl_kernel_rfl) y

/-- The output block after the last column block. -/
def out2_C_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

theorem scover2_C_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S2048x16.size (by sl_kernel_rfl) y

/-- The scratch block after the last column block. -/
def sout2_C_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## Point by point -/

/-- The output block and the scratch block after the body at position `n`. -/
def outsAt2 (c : Dev nD) : (n : ℕ) → n < cfg2.N → Vec F S2048x16 .f32 × Vec F S2048x16 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The proof data -/

/-- Region 2's proof data at the entry contents `V`. The scaled features' array is read by two windows, each holding
    half of it; every other array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 6400000 in
/-- The body at any point: the four input blocks are in their buffers; the position mod 4 says which case runs; the
    invariant hands over the scratch block at what the point before left (at anything before the first point) and
    takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · have h1 : ¬t.val % 4 = 3 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hr⟩, Hg⟩
  isplitl [HS0 Hr]
  · isplitl [HS0]
    · iexists _; iexact HS0
    iexact Hr
  iexact Hg

end Cert.Kernel.Frames

end
-- ==== Proof.Kernel.R2Arrays.lean ====
/-
  Region 2's arrays among the core's unscoped buffers. Four distinct buffers stand behind its five windows: the
  adjacency, the scaled features (read by two windows), the scaling column, and the output. At entry the scaled
  features' buffer, held whole, is dealt to its two windows by halves; at exit the halves, still at the same contents,
  are joined.
-/
import proofs.«169160_j37220186587698_1_alg».proof.Proof.Kernel.R2Frame

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window, each a whole buffer at the share the proof data gives it. -/
theorem arrays2_eq (c : Dev nD) (Fv : (w : Fin cfg2.W) → Buf (Elt F) ((cfg2.win w).arr.view.loc (c : Thread nD τ))) :
    ((dat2 V c).arrays Fv : sProp 𝕄)
      = iprop(((((c : Thread nD τ).loc main_arg1) ↦{fullShare} Fv 0)) ∗ ((((c : Thread nD τ).loc main_v7) ↦{fullShare.left} Fv 1))
          ∗ ((((c : Thread nD τ).loc main_v7) ↦{fullShare.right} Fv 2)) ∗ ((((c : Thread nD τ).loc main_v0) ↦{fullShare} Fv 3))
          ∗ ((((c : Thread nD τ).loc main_v8) ↦{fullShare} Fv 4))) := by
  have h : ((dat2 V c).arrays Fv : sProp 𝕄)
      = bigSep Finset.univ fun w => ((((c : Thread nD τ).loc (Pipeline.arrRef spec2 w)) ↦{(dat2 V c).share w} Fv w : sProp 𝕄)) := by
    unfold Dat.arrays
    exact bigSep_congr fun w _ => by rw [(arr_whole2 w).set_eq_univ]
  rw [h, bigSep_W2]
  rfl

/-- The four distinct buffers behind the windows, one by one. -/
theorem arrBufs2_eq (c : Dev nD) (Vb : (b : Ref sig .tc) → Buf (Elt F) ((c : Thread nD τ).loc b)) :
    (Pipeline.arrBufs (Ix := Unit) (Name := ℕ) (U := UR sig nD τ) (Lvl := ℕ) spec2 c Vb : sProp 𝕄)
      = iprop((((c : Thread nD τ).loc main_arg1) ↦{fullShare} Vb main_arg1) ∗ (((c : Thread nD τ).loc main_v7) ↦{fullShare} Vb main_v7)
          ∗ (((c : Thread nD τ).loc main_v0) ↦{fullShare} Vb main_v0) ∗ (((c : Thread nD τ).loc main_v8) ↦{fullShare} Vb main_v8)) := by
  unfold Pipeline.arrBufs
  exact bigSep_eq_bigSepL_of_eq [main_arg1, main_v7, main_v0, main_v8] (by decide) (by decide) _

/-- ENTRY: the core's unscoped buffers at `V` give the pipeline its arrays at `V` and leave the rest. -/
theorem arrays_in2 (c : Dev nD) :
    (unscopedBufs c (V c) : sProp 𝕄) ⊢ iprop((dat2 V c).arrays (dat2 V c).A ∗ Pipeline.unscopedRest spec2 c (V c)) := by
  rw [Pipeline.unscopedBufs_split₀ cfgs (2 : Fin 3) winFacts₀2.arr_unscoped c (V c)]
  refine sep_mono ?_ .rfl
  rw [arrays2_eq]
  show (Pipeline.arrBufs spec2 c (V c) : sProp 𝕄) ⊢ _
  rw [arrBufs2_eq]
  iintro ⟨H1, HX, H0, HO⟩
  ihave HX2 := (pointsTo_share (PosShare.mem_left_op_right fullShare)).1 $$ HX
  icases HX2 with ⟨HXl, HXr⟩
  isplitl [H1]; · iexact H1
  isplitl [HXl]; · iexact HXl
  isplitl [HXr]; · iexact HXr
  isplitl [H0]; · iexact H0
  iexact HO

/-- EXIT: the pipeline's arrays at contents `Fv` and the rest at `V` are the core's unscoped buffers at any valuation
    `V'` that has the arrays at `Fv` and agrees with `V` off them. -/
theorem arrays_out2 (c : Dev nD) (V' : (b : Ref sig .tc) → Buf (Elt F) ((c : Thread nD τ).loc b))
    (Fv : (w : Fin cfg2.W) → Buf (Elt F) ((cfg2.win w).arr.view.loc (c : Thread nD τ)))
    (hF : ∀ w, Fv w = V' (Pipeline.arrRef spec2 w))
    (hrest : ∀ b, b ∉ Finset.univ.image (Pipeline.arrRef spec2) → V' b = V c b) :
    iprop((dat2 V c).arrays Fv ∗ Pipeline.unscopedRest spec2 c (V c)) ⊢ (unscopedBufs c V' : sProp 𝕄) := by
  rw [Pipeline.unscopedBufs_split₀ cfgs (2 : Fin 3) winFacts₀2.arr_unscoped c V']
  refine sep_mono ?_ (Entails.of_eq ?_)
  · rw [arrays2_eq, hF 0, hF 1, hF 2, hF 3, hF 4]
    show _ ⊢ (Pipeline.arrBufs spec2 c V' : sProp 𝕄)
    rw [arrBufs2_eq]
    iintro ⟨H1, HXl, HXr, H0, HO⟩
    isplitl [H1]; · iexact H1
    isplitl [HXl HXr]
    · ihave HX := (pointsTo_share (PosShare.mem_left_op_right fullShare)).2 $$ [HXl HXr]
      · isplitl [HXl]; · iexact HXl
        iexact HXr
      iexact HX
    isplitl [H0]; · iexact H0
    iexact HO
  · unfold Pipeline.unscopedRest
    exact bigSep_congr fun b hb => by rw [hrest b (Finset.mem_sdiff.mp hb).2]

end Cert.Kernel.Frames

end
-- ==== Proof.Kernel.Run.lean ====
/-
  The whole program as five segments: region 0 (the scaling column), the host lines that form the scaled first-layer
  features, region 1, the host lines that form the scaled second-layer features, region 2. Between two segments every
  unscoped buffer is held at named contents: the launch memory, then each region's output array replaced by what the
  pipeline's write-backs leave, then each host stretch applied. Regions 1 and 2 read the scaled features through two
  windows; the array is dealt to them by halves at entry and joined again at exit.
-/
import proofs.«169160_j37220186587698_1_alg».proof.Proof.Kernel.R0Frame
import proofs.«169160_j37220186587698_1_alg».proof.Proof.Kernel.R1Arrays
import proofs.«169160_j37220186587698_1_alg».proof.Proof.Kernel.R2Arrays
import proofs.«169160_j37220186587698_1_alg».proof.Proof.Gen.Kernel.Regions

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev E0 : (c : Dev nD) → (b : Ref sig .tc) → Buf (Elt F) ((c : Thread nD τ).loc b) := fun c b => W0 m c b
/-- After region 0: its output array at what the write-backs leave. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the first host stretch (region 1's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After region 1: the hidden-layer array at what the write-backs leave. -/
def W3 (c : Dev nD) : Valuation τ sig (Elt F) :=
  Function.update (W2 m c) (Proc.devRef .tc main_v4) ((dat1 (E2 m) c).arrAt 4 cfg1.N)
abbrev E3 : (c : Dev nD) → (b : Ref sig .tc) → Buf (Elt F) ((c : Thread nD τ).loc b) := fun c b => W3 m c b
/-- After the second host stretch (region 2's entry). -/
abbrev W4 : Dev nD → Valuation τ sig (Elt F) := fun c => StableHlo.after hostOps2 (W3 m c)
abbrev E4 : (c : Dev nD) → (b : Ref sig .tc) → Buf (Elt F) ((c : Thread nD τ).loc b) := fun c b => W4 m c b
/-- After region 2: the result array at what the write-backs leave. -/
def W5 (c : Dev nD) : Valuation τ sig (Elt F) :=
  Function.update (W4 m c) (Proc.devRef .tc main_v8) ((dat2 (E4 m) c).arrAt 4 cfg2.N)
abbrev E5 : (c : Dev nD) → (b : Ref sig .tc) → Buf (Elt F) ((c : Thread nD τ).loc b) := fun c b => W5 m c b

theorem hne1 (c : Dev nD) (b : Ref sig .tc) (hb : b ≠ main_v4) : W3 m c (Proc.devRef .tc b) = W2 m c (Proc.devRef .tc b) := by
  unfold W3; exact Function.update_of_ne (StableHlo.devRef_ne_of_ne hb) _ _

theorem W3_out (c : Dev nD) : W3 m c (Proc.devRef .tc main_v4) = (dat1 (E2 m) c).arrAt 4 cfg1.N := by
  unfold W3; exact Function.update_self _ _ _

/-- At region 1's exit each of its arrays holds what the pipeline leaves — an input what it held, the output the
    folded write-backs — -/
theorem hF1 (c : Dev nD) (w : Fin cfg1.W) : (dat1 (E2 m) c).arrAt w cfg1.N = E3 m c (Pipeline.arrRef spec1 w) := by
  match w with
  | ⟨0, _⟩ => exact (((dat1 (E2 m) c).arrAt_in 0 rfl _).trans (A_eq1 (E2 m) c 0)).trans (hne1 m c main_arg1 (by decide)).symm
  | ⟨1, _⟩ => exact (((dat1 (E2 m) c).arrAt_in 1 rfl _).trans (A_eq1 (E2 m) c 1)).trans (hne1 m c main_v3 (by decide)).symm
  | ⟨2, _⟩ => exact (((dat1 (E2 m) c).arrAt_in 2 rfl _).trans (A_eq1 (E2 m) c 2)).trans (hne1 m c main_v3 (by decide)).symm
  | ⟨3, _⟩ => exact (((dat1 (E2 m) c).arrAt_in 3 rfl _).trans (A_eq1 (E2 m) c 3)).trans (hne1 m c main_v0 (by decide)).symm
  | ⟨4, _⟩ => exact (W3_out m c).symm
/-- and every other buffer what it held at entry. -/
theorem hrest1 (c : Dev nD) : ∀ b, b ∉ Finset.univ.image (Pipeline.arrRef spec1) → E3 m c b = E2 m c b :=
  fun b hb => hne1 m c b fun e => hb (e ▸ Finset.mem_image.mpr ⟨4, Finset.mem_univ _, rfl⟩)

theorem hne2 (c : Dev nD) (b : Ref sig .tc) (hb : b ≠ main_v8) : W5 m c (Proc.devRef .tc b) = W4 m c (Proc.devRef .tc b) := by
  unfold W5; exact Function.update_of_ne (StableHlo.devRef_ne_of_ne hb) _ _

theorem W5_out (c : Dev nD) : W5 m c (Proc.devRef .tc main_v8) = (dat2 (E4 m) c).arrAt 4 cfg2.N := by
  unfold W5; exact Function.update_self _ _ _

/-- At region 2's exit each of its arrays holds what the pipeline leaves — an input what it held, the output the
    folded write-backs — -/
theorem hF2 (c : Dev nD) (w : Fin cfg2.W) : (dat2 (E4 m) c).arrAt w cfg2.N = E5 m c (Pipeline.arrRef spec2 w) := by
  match w with
  | ⟨0, _⟩ => exact (((dat2 (E4 m) c).arrAt_in 0 rfl _).trans (A_eq2 (E4 m) c 0)).trans (hne2 m c main_arg1 (by decide)).symm
  | ⟨1, _⟩ => exact (((dat2 (E4 m) c).arrAt_in 1 rfl _).trans (A_eq2 (E4 m) c 1)).trans (hne2 m c main_v7 (by decide)).symm
  | ⟨2, _⟩ => exact (((dat2 (E4 m) c).arrAt_in 2 rfl _).trans (A_eq2 (E4 m) c 2)).trans (hne2 m c main_v7 (by decide)).symm
  | ⟨3, _⟩ => exact (((dat2 (E4 m) c).arrAt_in 3 rfl _).trans (A_eq2 (E4 m) c 3)).trans (hne2 m c main_v0 (by decide)).symm
  | ⟨4, _⟩ => exact (W5_out m c).symm
/-- and every other buffer what it held at entry. -/
theorem hrest2 (c : Dev nD) : ∀ b, b ∉ Finset.univ.image (Pipeline.arrRef spec2) → E5 m c b = E4 m c b :=
  fun b hb => hne2 m c b fun e => hb (e ▸ Finset.mem_image.mpr ⟨4, Finset.mem_univ _, rfl⟩)

/-! ## No segment writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := hne2 m c main_arg0 (by decide)
    _ = W3 m c (Proc.devRef .tc main_arg0) := StableHlo.after_of_writes_sub hostOps2 _ hostOps2_writes (by decide : main_arg0 ∉ hostOps2_W)
    _ = W2 m c (Proc.devRef .tc main_arg0) := hne1 m c main_arg0 (by decide)
    _ = W1 m c (Proc.devRef .tc main_arg0) := StableHlo.after_of_writes_sub hostOps1 _ hostOps1_writes (by decide : main_arg0 ∉ hostOps1_W)
    _ = W0 m c (Proc.devRef .tc main_arg0) := W1_of_ne m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := hne2 m c main_arg1 (by decide)
    _ = W3 m c (Proc.devRef .tc main_arg1) := StableHlo.after_of_writes_sub hostOps2 _ hostOps2_writes (by decide : main_arg1 ∉ hostOps2_W)
    _ = W2 m c (Proc.devRef .tc main_arg1) := hne1 m c main_arg1 (by decide)
    _ = W1 m c (Proc.devRef .tc main_arg1) := StableHlo.after_of_writes_sub hostOps1 _ hostOps1_writes (by decide : main_arg1 ∉ hostOps1_W)
    _ = W0 m c (Proc.devRef .tc main_arg1) := (W1_arr m c 0).trans (((dat0 (E0 m) c).arrAt_in 0 rfl _).trans (A_eq0 (E0 m) c 0))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := hne2 m c main_arg2 (by decide)
    _ = W3 m c (Proc.devRef .tc main_arg2) := StableHlo.after_of_writes_sub hostOps2 _ hostOps2_writes (by decide : main_arg2 ∉ hostOps2_W)
    _ = W2 m c (Proc.devRef .tc main_arg2) := hne1 m c main_arg2 (by decide)
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := hne2 m c main_arg3 (by decide)
    _ = W3 m c (Proc.devRef .tc main_arg3) := StableHlo.after_of_writes_sub hostOps2 _ hostOps2_writes (by decide : main_arg3 ∉ hostOps2_W)
    _ = W2 m c (Proc.devRef .tc main_arg3) := hne1 m c main_arg3 (by decide)
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- The result array ends at what region 2's write-backs leave. -/
theorem W5_main_v8 (c : Dev nD) : W5 m c (Proc.devRef .tc main_v8) = (dat2 (E4 m) c).arrAt 4 cfg2.N := by
  unfold W5; exact Function.update_self _ _ _

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
  | ⟨2, _⟩ => fun c => dat2 (E4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays_in1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := arrays_out1 (E2 m) c (E3 m c) ((dat1 (E2 m) c).arrAt · cfg1.N) (hF1 m c) (hrest1 m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := arrays_in2 (E4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E4 m) c)
    unfold Pipeline.ΦA
    iintro ⟨Hp, -, Hr⟩
    isplitl [Hr]; · iexact Hr
    iexact Hp
  hout c := by
    rw [Pipeline.ownSems0_none]
    refine BIBase.Entails.trans (hout2 (E4 m) c) ?_
    unfold Pipeline.ΦA
    iintro ⟨Hr, Hp⟩
    isplitl [Hp]; · iexact Hp
    isplitr; · iempintro
    iexact Hr
  hexit c := by
    have hjoin := arrays_out2 (E4 m) c (E5 m c) ((dat2 (E4 m) c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has the result array at what region 2's write-backs leave and the four argument
    arrays as launched. -/
theorem run_all : θ_run defs (onTc (τ := τ) (main (F := F))) ⟨m, fun _ => 0, ρ⟩ (fun r => ∀ c : Dev nD,
      r.2.mem ((c.tc : Thread nD τ).loc main_v8) = (dat2 (E4 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v8 (by decide))).trans (W5_main_v8 m c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c)⟩)

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Frames

end
-- ==== Proof.KernelIdeal.R0Base.lean ====
/-
  Region 0 computes the scaling column: over the four column blocks j = 0..3 of a block row it adds up the row sums
  of the adjacency block in a scratch column (cleared at j = 0), and at j = 3 stores where(deg > 0, rsqrt deg, 0) with
  deg = sum + 1 into the output block. This module holds what the three control cases share: the two branch
  conditions in closed form over the 16 grid points (point t = 4 i + j), where the output window is idle and when
  it is written back, names for the staging and scratch memrefs, and the invariant between points.
-/
import proofs.«169160_j37220186587698_1_alg».proof.Proof.Gen.KernelIdeal.Launch
import proofs.«169160_j37220186587698_1_alg».proof.Proof.Gen.KernelIdeal.Skeleton
import proofs.«169160_j37220186587698_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered: every region's part is stated at this parameter
variable (V : (c : Dev nD) → (b : Ref sig .tc) → Buf (Elt F) ((c : Thread nD τ).loc b))

/-! ## The windows' blocks -/

/-- Block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- "first column block": the scratch column is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "last column block": the scaling column is computed and stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle, and when it is written back -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S2048x1 .f32 := (Memref.whole cc0_stg1_0 : Memref sig .tc .vmem S2048x1 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The scratch column carried from one column block to the next. -/
abbrev scM0_0 : Memref sig .tc .vmem S2048x1 .f32 := Memref.whole cc0_scratch0
abbrev VS0_0 : View sig .tc .vmem S2048x1 .f32 := scM0_0.view

/-- The scoped buffers of the other two regions, each whole at some contents: region 0 never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- The region's invariant as the launch hands it over: the scratch column at some contents, the other regions'
    scoped buffers, the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Frames

end
-- ==== Proof.KernelIdeal.R0RunA.lean ====
/-
  Region 0's body at a FIRST column block (j = 0, points 0, 4, 8, 12): the scratch column is cleared, then the row
  sums of the adjacency block are added to it; nothing is stored into the output block, which comes back as found.
  The pieces the scratch column ends with are found by running the body.
-/
import proofs.«169160_j37220186587698_1_alg».proof.Proof.KernelIdeal.R0Base

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the first-block case, on whole memrefs: the adjacency block at `x0`, the output block at `xi1` (handed
    back untouched), the scratch column at anything; it ends with the scratch column's pieces written. -/
noncomputable def kernelRun0_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frames

end
-- ==== Proof.KernelIdeal.R0RunB.lean ====
/-
  Region 0's body at a MIDDLE column block (j = 1, 2): the row sums of the adjacency block are added to the scratch
  column, which holds what the block before left; nothing is stored into the output block.
-/
import proofs.«169160_j37220186587698_1_alg».proof.Proof.KernelIdeal.R0RunA

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the middle-block case: the scratch column comes in at `xs0` and ends with its pieces written. -/
noncomputable def kernelRun0_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frames

end
-- ==== Proof.KernelIdeal.R0RunC.lean ====
/-
  Region 0's body at the LAST column block (j = 3): the row sums are added to the scratch column, and the scaling
  column where(deg > 0, rsqrt deg, 0), deg = the completed sum + 1, is stored into the output block.
-/
import proofs.«169160_j37220186587698_1_alg».proof.Proof.KernelIdeal.R0RunB

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the last-block case: the scratch column comes in at `xs0`; the output block (at anything) and the
    scratch column end with their pieces written. -/
noncomputable def kernelRun0_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frames

end
-- ==== Proof.KernelIdeal.R0Frame.lean ====
/-
  Region 0 put together. What the scratch column and the output block hold after each of the 16 points, by recursion
  on the point: at j = 0 the cleared column plus the block's row sums, at j = 1, 2 the column before plus the row sums,
  at j = 3 the same and the output block at where(deg > 0, rsqrt deg, 0). The invariant between two points holds the
  scratch column at exactly that value; with it the body meets its obligation at every point.
-/
import proofs.«169160_j37220186587698_1_alg».proof.Proof.KernelIdeal.R0RunC

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In the first-block case nothing is stored into the output block: a placeholder nothing consults. -/
def out0_A_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i) (x0 : Vec F S2048x2048 .f32) : Vec F S2048x1 .f32 :=
  VO0_1.read (Elt F) (VO0_1.writes (Elt F) VO0_1.junk (kernelRun0_A c i arg2 harg2 arg3 harg3 arg4 harg4 hc0 hc1 x0).1)

/-- The first-block case's stores into the scratch column cover it. -/
theorem scover0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i) (x0 : Vec F S2048x2048 .f32) (y : S2048x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S2048x1.size (by sl_kernel_rfl) y

/-- The scratch column after a first block. -/
def sout0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i) (x0 : Vec F S2048x2048 .f32) : Vec F S2048x1 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i) (x0 : Vec F S2048x2048 .f32) (xs0 : Vec F S2048x1 .f32) : Vec F S2048x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i) (x0 : Vec F S2048x2048 .f32) (xs0 : Vec F S2048x1 .f32) (y : S2048x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S2048x1.size (by sl_kernel_rfl) y

/-- The scratch column after a middle block, from the column before. -/
def sout0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i) (x0 : Vec F S2048x2048 .f32) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).2.1)

/-- The last-block case's store covers the output block. -/
theorem cover0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- The output block after the last column block. -/
def out0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- The scratch column after the last column block. -/
def sout0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i) (x0 : Vec F S2048x2048 .f32) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

/-! ## Point by point -/

/-- The output block and the scratch column after the body at position `n`: the case the position is in (n mod 4),
    run on the point's adjacency block and, past a first block, on the scratch column the position before left. -/
def outsAt0 (c : Dev nD) : (n : ℕ) → n < cfg0.N → Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over; after position `n` the scratch column at `outsAt0`'s
    second component, the other regions' scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The proof data -/

/-- Region 0's proof data at the entry contents `V`: the adjacency window's buffer at its block, the output window's
    at `outsAt0`'s first component, the invariant `PhiS0`; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the adjacency block is in its buffer; the position mod 4 says which case runs; the invariant
    hands over the scratch column at what the point before left (at anything before the first point) and takes it
    back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over, the scratch column's value forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Cert.KernelIdeal.Frames

end
-- ==== Proof.KernelIdeal.R1Base.lean ====
/-
  Region 1 is the first aggregation layer (64 features, rectified): over the four column blocks j = 0..3 of a block row it adds the
  products (adjacency block) · (scaled features' row block j) into a scratch block (cleared at j = 0), and at j = 3 stores
  the rectified block max(s · (acc + xs), 0) into the output block. The scaled features reach the body twice: once by the column-block
  index j (the product's right factor) and once by the row-block index i (the added-back term). This module holds
  what the three control cases share.
-/
import proofs.«169160_j37220186587698_1_alg».proof.Proof.Gen.KernelIdeal.Launch
import proofs.«169160_j37220186587698_1_alg».proof.Proof.Gen.KernelIdeal.Skeleton
import proofs.«169160_j37220186587698_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle, and when it is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

abbrev VO1_4 : View sig .tc .vmem S2048x64 .f32 := (Memref.whole cc1_stg4_0 : Memref sig .tc .vmem S2048x64 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
/-- The scratch block carried from one column block to the next. -/
abbrev scM1_0 : Memref sig .tc .vmem S2048x64 .f32 := Memref.whole cc1_scratch0
abbrev VS1_0 : View sig .tc .vmem S2048x64 .f32 := scM1_0.view

/-- The scoped buffers of the other two regions, each whole at some contents: region 1 never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- The region's invariant as the launch hands it over: the scratch block at some contents, the other regions'
    scoped buffers, the generator register at some state. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA rest1
  rw [Pipeline.scopedRest_eq_of_list spec1 c [cc1_scratch0, cc0_stg0_0, cc0_stg0_1, cc0_stg1_0, cc0_stg1_1, cc0_scratch0, cc2_stg0_0, cc2_stg0_1, cc2_stg1_0, cc2_stg1_1, cc2_stg2_0, cc2_stg2_1, cc2_stg3_0, cc2_stg3_1, cc2_stg4_0, cc2_stg4_1, cc2_scratch0] (by decide) (by decide)]
  simp only [scM1_0, owns_whole]; try rfl

end Cert.KernelIdeal.Frames

end
-- ==== Proof.KernelIdeal.R1RunA.lean ====
/-
  Region 1's body at a FIRST column block (j = 0): the scratch block is cleared, then the product of the adjacency
  block with the scaled features' column block is added to it; nothing is stored into the output block.
-/
import proofs.«169160_j37220186587698_1_alg».proof.Proof.KernelIdeal.R1Base

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the first-block case, on whole memrefs: the four input blocks at `x0 … x3`, the output block at `xi4`
    (handed back untouched), the scratch block at anything; it ends with the scratch block's pieces written. -/
noncomputable def kernelRun1_A (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i)
    (x0 : Vec F S2048x2048 .f32) (x1 : Vec F S2048x64 .f32) (x2 : Vec F S2048x64 .f32) (x3 : Vec F S2048x1 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frames

end
-- ==== Proof.KernelIdeal.R1RunB.lean ====
/-
  Region 1's body at a MIDDLE column block (j = 1, 2): the product of the adjacency block with the scaled features'
  column block is added to the scratch block, which holds what the block before left; no store into the output block.
-/
import proofs.«169160_j37220186587698_1_alg».proof.Proof.KernelIdeal.R1RunA

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the middle-block case: the scratch block comes in at `xs0` and ends with its pieces written. -/
noncomputable def kernelRun1_B (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i)
    (x0 : Vec F S2048x2048 .f32) (x1 : Vec F S2048x64 .f32) (x2 : Vec F S2048x64 .f32) (x3 : Vec F S2048x1 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frames

end
-- ==== Proof.KernelIdeal.R1RunC.lean ====
/-
  Region 1's body at the LAST column block (j = 3): the last product is added to the scratch block, and
  the rectified block max(s · (acc + xs), 0) is stored into the output block.
-/
import proofs.«169160_j37220186587698_1_alg».proof.Proof.KernelIdeal.R1RunB

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the last-block case: the scratch block comes in at `xs0`; the output block (at anything) and the
    scratch block end with their pieces written. -/
noncomputable def kernelRun1_C (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i)
    (x0 : Vec F S2048x2048 .f32) (x1 : Vec F S2048x64 .f32) (x2 : Vec F S2048x64 .f32) (x3 : Vec F S2048x1 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Frames

end
-- ==== Proof.KernelIdeal.R1Frame.lean ====
/-
  Region 1 put together: what the scratch block and the output block hold after each of the 16 points (by recursion on
  the point, the case being the position mod 4), the invariant that keeps the scratch block at exactly that value
  between two points, the proof data, and the body's obligation at every point.
-/
import proofs.«169160_j37220186587698_1_alg».proof.Proof.KernelIdeal.R1RunC

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out1_A_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) : Vec F S2048x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) (y : S2048x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S2048x64.size (by sl_kernel_rfl) y

/-- The scratch block after a first column block. -/
def sout1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) : Vec F S2048x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

def out1_B_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) (y : S2048x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S2048x64.size (by sl_kernel_rfl) y

/-- The scratch block after a middle column block, from the block before. -/
def sout1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) (y : S2048x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S2048x64.size (by sl_kernel_rfl) y

/-- The output block after the last column block. -/
def out1_C_4 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) (y : S2048x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S2048x64.size (by sl_kernel_rfl) y

/-- The scratch block after the last column block. -/
def sout1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## Point by point -/

/-- The output block and the scratch block after the body at position `n`. -/
def outsAt1 (c : Dev nD) : (n : ℕ) → n < cfg1.N → Vec F S2048x64 .f32 × Vec F S2048x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- Region 1's proof data at the entry contents `V`. The scaled features' array is read by two windows, each holding
    half of it; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 6400000 in
/-- The body at any point: the four input blocks are in their buffers; the position mod 4 says which case runs; the
    invariant hands over the scratch block at what the point before left (at anything before the first point) and
    takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hr⟩, Hg⟩
  isplitl [HS0 Hr]
  · isplitl [HS0]
    · iexists _; iexact HS0
    iexact Hr
  iexact Hg

end Cert.KernelIdeal.Frames

end
-- ==== Proof.KernelIdeal.R1Arrays.lean ====
/-
  Region 1's arrays among the core's unscoped buffers. Four distinct buffers stand behind its five windows: the
  adjacency, the scaled features (read by two windows), the scaling column, and the output. At entry the scaled
  features' buffer, held whole, is dealt to its two windows by halves; at exit the halves, still at the same contents,
  are joined.
-/
import proofs.«169160_j37220186587698_1_alg».proof.Proof.KernelIdeal.R1Frame

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window, each a whole buffer at the share the proof data gives it. -/
theorem arrays1_eq (c : Dev nD) (Fv : (w : Fin cfg1.W) → Buf (Elt F) ((cfg1.win w).arr.view.loc (c : Thread nD τ))) :
    ((dat1 V c).arrays Fv : sProp 𝕄)
      = iprop(((((c : Thread nD τ).loc main_arg1) ↦{fullShare} Fv 0)) ∗ ((((c : Thread nD τ).loc main_v3) ↦{fullShare.left} Fv 1))
          ∗ ((((c : Thread nD τ).loc main_v3) ↦{fullShare.right} Fv 2)) ∗ ((((c : Thread nD τ).loc main_v0) ↦{fullShare} Fv 3))
          ∗ ((((c : Thread nD τ).loc main_v4) ↦{fullShare} Fv 4))) := by
  have h : ((dat1 V c).arrays Fv : sProp 𝕄)
      = bigSep Finset.univ fun w => ((((c : Thread nD τ).loc (Pipeline.arrRef spec1 w)) ↦{(dat1 V c).share w} Fv w : sProp 𝕄)) := by
    unfold Dat.arrays
    exact bigSep_congr fun w _ => by rw [(arr_whole1 w).set_eq_univ]
  rw [h, bigSep_W1]
  rfl

/-- The four distinct buffers behind the windows, one by one. -/
theorem arrBufs1_eq (c : Dev nD) (Vb : (b : Ref sig .tc) → Buf (Elt F) ((c : Thread nD τ).loc b)) :
    (Pipeline.arrBufs (Ix := Unit) (Name := ℕ) (U := UR sig nD τ) (Lvl := ℕ) spec1 c Vb : sProp 𝕄)
      = iprop((((c : Thread nD τ).loc main_arg1) ↦{fullShare} Vb main_arg1) ∗ (((c : Thread nD τ).loc main_v3) ↦{fullShare} Vb main_v3)
          ∗ (((c : Thread nD τ).loc main_v0) ↦{fullShare} Vb main_v0) ∗ (((c : Thread nD τ).loc main_v4) ↦{fullShare} Vb main_v4)) := by
  unfold Pipeline.arrBufs
  exact bigSep_eq_bigSepL_of_eq [main_arg1, main_v3, main_v0, main_v4] (by decide) (by decide) _

/-- ENTRY: the core's unscoped buffers at `V` give the pipeline its arrays at `V` and leave the rest. -/
theorem arrays_in1 (c : Dev nD) :
    (unscopedBufs c (V c) : sProp 𝕄) ⊢ iprop((dat1 V c).arrays (dat1 V c).A ∗ Pipeline.unscopedRest spec1 c (V c)) := by
  rw [Pipeline.unscopedBufs_split₀ cfgs (1 : Fin 3) winFacts₀1.arr_unscoped c (V c)]
  refine sep_mono ?_ .rfl
  rw [arrays1_eq]
  show (Pipeline.arrBufs spec1 c (V c) : sProp 𝕄) ⊢ _
  rw [arrBufs1_eq]
  iintro ⟨H1, HX, H0, HO⟩
  ihave HX2 := (pointsTo_share (PosShare.mem_left_op_right fullShare)).1 $$ HX
  icases HX2 with ⟨HXl, HXr⟩
  isplitl [H1]; · iexact H1
  isplitl [HXl]; · iexact HXl
  isplitl [HXr]; · iexact HXr
  isplitl [H0]; · iexact H0
  iexact HO

/-- EXIT: the pipeline's arrays at contents `Fv` and the rest at `V` are the core's unscoped buffers at any valuation
    `V'` that has the arrays at `Fv` and agrees with `V` off them. -/
theorem arrays_out1 (c : Dev nD) (V' : (b : Ref sig .tc) → Buf (Elt F) ((c : Thread nD τ).loc b))
    (Fv : (w : Fin cfg1.W) → Buf (Elt F) ((cfg1.win w).arr.view.loc (c : Thread nD τ)))
    (hF : ∀ w, Fv w = V' (Pipeline.arrRef spec1 w))
    (hrest : ∀ b, b ∉ Finset.univ.image (Pipeline.arrRef spec1) → V' b = V c b) :
    iprop((dat1 V c).arrays Fv ∗ Pipeline.unscopedRest spec1 c (V c)) ⊢ (unscopedBufs c V' : sProp 𝕄) := by
  rw [Pipeline.unscopedBufs_split₀ cfgs (1 : Fin 3) winFacts₀1.arr_unscoped c V']
  refine sep_mono ?_ (Entails.of_eq ?_)
  · rw [arrays1_eq, hF 0, hF 1, hF 2, hF 3, hF 4]
    show _ ⊢ (Pipeline.arrBufs spec1 c V' : sProp 𝕄)
    rw [arrBufs1_eq]
    iintro ⟨H1, HXl, HXr, H0, HO⟩
    isplitl [H1]; · iexact H1
    isplitl [HXl HXr]
    · ihave HX := (pointsTo_share (PosShare.mem_left_op_right fullShare)).2 $$ [HXl HXr]
      · isplitl [HXl]; · iexact HXl
        iexact HXr
      iexact HX
    isplitl [H0]; · iexact H0
    iexact HO
  · unfold Pipeline.unscopedRest
    exact bigSep_congr fun b hb => by rw [hrest b (Finset.mem_sdiff.mp hb).2]

end Cert.KernelIdeal.Frames

end
-- ==== Proof.KernelIdeal.R2Base.lean ====
/-
  Region 2 is the second aggregation layer (16 classes, softmax over the classes): over the four column blocks j = 0..3 of a block row it adds the
  products (adjacency block) · (scaled features' row block j) into a scratch block (cleared at j = 0), and at j = 3 stores
  the block's row-wise softmax of s · (acc + xs) into the output block. The scaled features reach the body twice: once by the column-block
  index j (the product's right factor) and once by the row-block index i (the added-back term). This module holds
  what the three control cases share.
-/
import proofs.«169160_j37220186587698_1_alg».proof.Proof.Gen.KernelIdeal.Launch
import proofs.«169160_j37220186587698_1_alg».proof.Proof.Gen.KernelIdeal.Skeleton
import proofs.«169160_j37220186587698_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block of window `w` at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions over the grid -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle, and when it is written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-! ## The memrefs the body is called with -/

abbrev VO2_4 : View sig .tc .vmem S2048x16 .f32 := (Memref.whole cc2_stg4_0 : Memref sig .tc .vmem S2048x16 .f32).view
abbrev ms2_0 (t : Fin cfg2.N) : Memref sig .tc .vmem S2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x16 .f32 := win2_4.stage (cfg2.slots t 4)
abbrev hs2_4 (t : Fin cfg2.N) : (ms2_4 t).IsWhole := hstage2_4 ((cfg2.slots t 4).cast nbuf2_4)
/-- The scratch block carried from one column block to the next. -/
abbrev scM2_0 : Memref sig .tc .vmem S2048x16 .f32 := Memref.whole cc2_scratch0
abbrev VS2_0 : View sig .tc .vmem S2048x16 .f32 := scM2_0.view

/-- The scoped buffers of the other two regions, each whole at some contents: region 2 never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant as the launch hands it over: the scratch block at some contents, the other regions'
    scoped buffers, the generator register at some state. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA rest2
  rw [Pipeline.scopedRest_eq_of_list spec2 c [cc2_scratch0, cc0_stg0_0, cc0_stg0_1, cc0_stg1_0, cc0_stg1_1, cc0_scratch0, cc1_stg0_0, cc1_stg0_1, cc1_stg1_0, cc1_stg1_1, cc1_stg2_0, cc1_stg2_1, cc1_stg3_0, cc1_stg3_1, cc1_stg4_0, cc1_stg4_1, cc1_scratch0] (by decide) (by decide)]
  simp only [scM2_0, owns_whole]; try rfl

end Cert.KernelIdeal.Frames

end
-- ==== Proof.KernelIdeal.R2RunA.lean ====
/-
  Region 2's body at a FIRST column block (j = 0): the scratch block is cleared, then the product of the adjacency
  block with the scaled features' column block is added to it; nothing is stored into the output block.
-/
import proofs.«169160_j37220186587698_1_alg».proof.Proof.KernelIdeal.R2Base

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the first-block case, on whole memrefs: the four input blocks at `x0 … x3`, the output block at `xi4`
    (handed back untouched), the scratch block at anything; it ends with the scratch block's pieces written. -/
noncomputable def kernelRun2_A (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i)
    (x0 : Vec F S2048x2048 .f32) (x1 : Vec F S2048x16 .f32) (x2 : Vec F S2048x16 .f32) (x3 : Vec F S2048x1 .f32) :
    Σ' (L4 : List (View.Piece (Elt F) S2048x16 .f32)), { LS0 : List (View.Piece (Elt F) S2048x16 .f32) //
      ∀ (xi4 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frames

end
-- ==== Proof.KernelIdeal.R2RunB.lean ====
/-
  Region 2's body at a MIDDLE column block (j = 1, 2): the product of the adjacency block with the scaled features'
  column block is added to the scratch block, which holds what the block before left; no store into the output block.
-/
import proofs.«169160_j37220186587698_1_alg».proof.Proof.KernelIdeal.R2RunA

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the middle-block case: the scratch block comes in at `xs0` and ends with its pieces written. -/
noncomputable def kernelRun2_B (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i)
    (x0 : Vec F S2048x2048 .f32) (x1 : Vec F S2048x16 .f32) (x2 : Vec F S2048x16 .f32) (x3 : Vec F S2048x1 .f32) (xs0 : Vec F S2048x16 .f32) :
    Σ' (L4 : List (View.Piece (Elt F) S2048x16 .f32)), { LS0 : List (View.Piece (Elt F) S2048x16 .f32) //
      ∀ (xi4 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frames

end
-- ==== Proof.KernelIdeal.R2RunC.lean ====
/-
  Region 2's body at the LAST column block (j = 3): the last product is added to the scratch block, and
  the block's row-wise softmax of s · (acc + xs) is stored into the output block.
-/
import proofs.«169160_j37220186587698_1_alg».proof.Proof.KernelIdeal.R2RunB

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the last-block case: the scratch block comes in at `xs0`; the output block (at anything) and the
    scratch block end with their pieces written. -/
noncomputable def kernelRun2_C (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i)
    (x0 : Vec F S2048x2048 .f32) (x1 : Vec F S2048x16 .f32) (x2 : Vec F S2048x16 .f32) (x3 : Vec F S2048x1 .f32) (xs0 : Vec F S2048x16 .f32) :
    Σ' (L4 : List (View.Piece (Elt F) S2048x16 .f32)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Frames

end
-- ==== Proof.KernelIdeal.R2Frame.lean ====
/-
  Region 2 put together: what the scratch block and the output block hold after each of the 16 points (by recursion on
  the point, the case being the position mod 4), the invariant that keeps the scratch block at exactly that value
  between two points, the proof data, and the body's obligation at every point.
-/
import proofs.«169160_j37220186587698_1_alg».proof.Proof.KernelIdeal.R2RunC

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out2_A_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) : Vec F S2048x16 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

theorem scover2_A_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) (y : S2048x16.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S2048x16.size (by sl_kernel_rfl) y

/-- The scratch block after a first column block. -/
def sout2_A_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) : Vec F S2048x16 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

def out2_B_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

theorem scover2_B_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) (y : S2048x16.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S2048x16.size (by sl_kernel_rfl) y

/-- The scratch block after a middle column block, from the block before. -/
def sout2_B_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

theorem cover2_C_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S2048x16.size (by sl_kernel_rfl) y

/-- The output block after the last column block. -/
def out2_C_4 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

theorem scover2_C_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S2048x16.size (by sl_kernel_rfl) y

/-- The scratch block after the last column block. -/
def sout2_C_0 (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) : Vec F S2048x16 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## Point by point -/

/-- The output block and the scratch block after the body at position `n`. -/
def outsAt2 (c : Dev nD) : (n : ℕ) → n < cfg2.N → Vec F S2048x16 .f32 × Vec F S2048x16 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The proof data -/

/-- Region 2's proof data at the entry contents `V`. The scaled features' array is read by two windows, each holding
    half of it; every other array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 6400000 in
/-- The body at any point: the four input blocks are in their buffers; the position mod 4 says which case runs; the
    invariant hands over the scratch block at what the point before left (at anything before the first point) and
    takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · have h1 : ¬t.val % 4 = 3 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hr⟩, Hg⟩
  isplitl [HS0 Hr]
  · isplitl [HS0]
    · iexists _; iexact HS0
    iexact Hr
  iexact Hg

end Cert.KernelIdeal.Frames

end
-- ==== Proof.KernelIdeal.R2Arrays.lean ====
/-
  Region 2's arrays among the core's unscoped buffers. Four distinct buffers stand behind its five windows: the
  adjacency, the scaled features (read by two windows), the scaling column, and the output. At entry the scaled
  features' buffer, held whole, is dealt to its two windows by halves; at exit the halves, still at the same contents,
  are joined.
-/
import proofs.«169160_j37220186587698_1_alg».proof.Proof.KernelIdeal.R2Frame

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window, each a whole buffer at the share the proof data gives it. -/
theorem arrays2_eq (c : Dev nD) (Fv : (w : Fin cfg2.W) → Buf (Elt F) ((cfg2.win w).arr.view.loc (c : Thread nD τ))) :
    ((dat2 V c).arrays Fv : sProp 𝕄)
      = iprop(((((c : Thread nD τ).loc main_arg1) ↦{fullShare} Fv 0)) ∗ ((((c : Thread nD τ).loc main_v7) ↦{fullShare.left} Fv 1))
          ∗ ((((c : Thread nD τ).loc main_v7) ↦{fullShare.right} Fv 2)) ∗ ((((c : Thread nD τ).loc main_v0) ↦{fullShare} Fv 3))
          ∗ ((((c : Thread nD τ).loc main_v8) ↦{fullShare} Fv 4))) := by
  have h : ((dat2 V c).arrays Fv : sProp 𝕄)
      = bigSep Finset.univ fun w => ((((c : Thread nD τ).loc (Pipeline.arrRef spec2 w)) ↦{(dat2 V c).share w} Fv w : sProp 𝕄)) := by
    unfold Dat.arrays
    exact bigSep_congr fun w _ => by rw [(arr_whole2 w).set_eq_univ]
  rw [h, bigSep_W2]
  rfl

/-- The four distinct buffers behind the windows, one by one. -/
theorem arrBufs2_eq (c : Dev nD) (Vb : (b : Ref sig .tc) → Buf (Elt F) ((c : Thread nD τ).loc b)) :
    (Pipeline.arrBufs (Ix := Unit) (Name := ℕ) (U := UR sig nD τ) (Lvl := ℕ) spec2 c Vb : sProp 𝕄)
      = iprop((((c : Thread nD τ).loc main_arg1) ↦{fullShare} Vb main_arg1) ∗ (((c : Thread nD τ).loc main_v7) ↦{fullShare} Vb main_v7)
          ∗ (((c : Thread nD τ).loc main_v0) ↦{fullShare} Vb main_v0) ∗ (((c : Thread nD τ).loc main_v8) ↦{fullShare} Vb main_v8)) := by
  unfold Pipeline.arrBufs
  exact bigSep_eq_bigSepL_of_eq [main_arg1, main_v7, main_v0, main_v8] (by decide) (by decide) _

/-- ENTRY: the core's unscoped buffers at `V` give the pipeline its arrays at `V` and leave the rest. -/
theorem arrays_in2 (c : Dev nD) :
    (unscopedBufs c (V c) : sProp 𝕄) ⊢ iprop((dat2 V c).arrays (dat2 V c).A ∗ Pipeline.unscopedRest spec2 c (V c)) := by
  rw [Pipeline.unscopedBufs_split₀ cfgs (2 : Fin 3) winFacts₀2.arr_unscoped c (V c)]
  refine sep_mono ?_ .rfl
  rw [arrays2_eq]
  show (Pipeline.arrBufs spec2 c (V c) : sProp 𝕄) ⊢ _
  rw [arrBufs2_eq]
  iintro ⟨H1, HX, H0, HO⟩
  ihave HX2 := (pointsTo_share (PosShare.mem_left_op_right fullShare)).1 $$ HX
  icases HX2 with ⟨HXl, HXr⟩
  isplitl [H1]; · iexact H1
  isplitl [HXl]; · iexact HXl
  isplitl [HXr]; · iexact HXr
  isplitl [H0]; · iexact H0
  iexact HO

/-- EXIT: the pipeline's arrays at contents `Fv` and the rest at `V` are the core's unscoped buffers at any valuation
    `V'` that has the arrays at `Fv` and agrees with `V` off them. -/
theorem arrays_out2 (c : Dev nD) (V' : (b : Ref sig .tc) → Buf (Elt F) ((c : Thread nD τ).loc b))
    (Fv : (w : Fin cfg2.W) → Buf (Elt F) ((cfg2.win w).arr.view.loc (c : Thread nD τ)))
    (hF : ∀ w, Fv w = V' (Pipeline.arrRef spec2 w))
    (hrest : ∀ b, b ∉ Finset.univ.image (Pipeline.arrRef spec2) → V' b = V c b) :
    iprop((dat2 V c).arrays Fv ∗ Pipeline.unscopedRest spec2 c (V c)) ⊢ (unscopedBufs c V' : sProp 𝕄) := by
  rw [Pipeline.unscopedBufs_split₀ cfgs (2 : Fin 3) winFacts₀2.arr_unscoped c V']
  refine sep_mono ?_ (Entails.of_eq ?_)
  · rw [arrays2_eq, hF 0, hF 1, hF 2, hF 3, hF 4]
    show _ ⊢ (Pipeline.arrBufs spec2 c V' : sProp 𝕄)
    rw [arrBufs2_eq]
    iintro ⟨H1, HXl, HXr, H0, HO⟩
    isplitl [H1]; · iexact H1
    isplitl [HXl HXr]
    · ihave HX := (pointsTo_share (PosShare.mem_left_op_right fullShare)).2 $$ [HXl HXr]
      · isplitl [HXl]; · iexact HXl
        iexact HXr
      iexact HX
    isplitl [H0]; · iexact H0
    iexact HO
  · unfold Pipeline.unscopedRest
    exact bigSep_congr fun b hb => by rw [hrest b (Finset.mem_sdiff.mp hb).2]

end Cert.KernelIdeal.Frames

end
-- ==== Proof.KernelIdeal.Run.lean ====
/-
  The whole program as five segments: region 0 (the scaling column), the host lines that form the scaled first-layer
  features, region 1, the host lines that form the scaled second-layer features, region 2. Between two segments every
  unscoped buffer is held at named contents: the launch memory, then each region's output array replaced by what the
  pipeline's write-backs leave, then each host stretch applied. Regions 1 and 2 read the scaled features through two
  windows; the array is dealt to them by halves at entry and joined again at exit.
-/
import proofs.«169160_j37220186587698_1_alg».proof.Proof.KernelIdeal.R0Frame
import proofs.«169160_j37220186587698_1_alg».proof.Proof.KernelIdeal.R1Arrays
import proofs.«169160_j37220186587698_1_alg».proof.Proof.KernelIdeal.R2Arrays
import proofs.«169160_j37220186587698_1_alg».proof.Proof.Gen.KernelIdeal.Regions

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev E0 : (c : Dev nD) → (b : Ref sig .tc) → Buf (Elt F) ((c : Thread nD τ).loc b) := fun c b => W0 m c b
/-- After region 0: its output array at what the write-backs leave. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the first host stretch (region 1's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After region 1: the hidden-layer array at what the write-backs leave. -/
def W3 (c : Dev nD) : Valuation τ sig (Elt F) :=
  Function.update (W2 m c) (Proc.devRef .tc main_v4) ((dat1 (E2 m) c).arrAt 4 cfg1.N)
abbrev E3 : (c : Dev nD) → (b : Ref sig .tc) → Buf (Elt F) ((c : Thread nD τ).loc b) := fun c b => W3 m c b
/-- After the second host stretch (region 2's entry). -/
abbrev W4 : Dev nD → Valuation τ sig (Elt F) := fun c => StableHlo.after hostOps2 (W3 m c)
abbrev E4 : (c : Dev nD) → (b : Ref sig .tc) → Buf (Elt F) ((c : Thread nD τ).loc b) := fun c b => W4 m c b
/-- After region 2: the result array at what the write-backs leave. -/
def W5 (c : Dev nD) : Valuation τ sig (Elt F) :=
  Function.update (W4 m c) (Proc.devRef .tc main_v8) ((dat2 (E4 m) c).arrAt 4 cfg2.N)
abbrev E5 : (c : Dev nD) → (b : Ref sig .tc) → Buf (Elt F) ((c : Thread nD τ).loc b) := fun c b => W5 m c b

theorem hne1 (c : Dev nD) (b : Ref sig .tc) (hb : b ≠ main_v4) : W3 m c (Proc.devRef .tc b) = W2 m c (Proc.devRef .tc b) := by
  unfold W3; exact Function.update_of_ne (StableHlo.devRef_ne_of_ne hb) _ _

theorem W3_out (c : Dev nD) : W3 m c (Proc.devRef .tc main_v4) = (dat1 (E2 m) c).arrAt 4 cfg1.N := by
  unfold W3; exact Function.update_self _ _ _

/-- At region 1's exit each of its arrays holds what the pipeline leaves — an input what it held, the output the
    folded write-backs — -/
theorem hF1 (c : Dev nD) (w : Fin cfg1.W) : (dat1 (E2 m) c).arrAt w cfg1.N = E3 m c (Pipeline.arrRef spec1 w) := by
  match w with
  | ⟨0, _⟩ => exact (((dat1 (E2 m) c).arrAt_in 0 rfl _).trans (A_eq1 (E2 m) c 0)).trans (hne1 m c main_arg1 (by decide)).symm
  | ⟨1, _⟩ => exact (((dat1 (E2 m) c).arrAt_in 1 rfl _).trans (A_eq1 (E2 m) c 1)).trans (hne1 m c main_v3 (by decide)).symm
  | ⟨2, _⟩ => exact (((dat1 (E2 m) c).arrAt_in 2 rfl _).trans (A_eq1 (E2 m) c 2)).trans (hne1 m c main_v3 (by decide)).symm
  | ⟨3, _⟩ => exact (((dat1 (E2 m) c).arrAt_in 3 rfl _).trans (A_eq1 (E2 m) c 3)).trans (hne1 m c main_v0 (by decide)).symm
  | ⟨4, _⟩ => exact (W3_out m c).symm
/-- and every other buffer what it held at entry. -/
theorem hrest1 (c : Dev nD) : ∀ b, b ∉ Finset.univ.image (Pipeline.arrRef spec1) → E3 m c b = E2 m c b :=
  fun b hb => hne1 m c b fun e => hb (e ▸ Finset.mem_image.mpr ⟨4, Finset.mem_univ _, rfl⟩)

theorem hne2 (c : Dev nD) (b : Ref sig .tc) (hb : b ≠ main_v8) : W5 m c (Proc.devRef .tc b) = W4 m c (Proc.devRef .tc b) := by
  unfold W5; exact Function.update_of_ne (StableHlo.devRef_ne_of_ne hb) _ _

theorem W5_out (c : Dev nD) : W5 m c (Proc.devRef .tc main_v8) = (dat2 (E4 m) c).arrAt 4 cfg2.N := by
  unfold W5; exact Function.update_self _ _ _

/-- At region 2's exit each of its arrays holds what the pipeline leaves — an input what it held, the output the
    folded write-backs — -/
theorem hF2 (c : Dev nD) (w : Fin cfg2.W) : (dat2 (E4 m) c).arrAt w cfg2.N = E5 m c (Pipeline.arrRef spec2 w) := by
  match w with
  | ⟨0, _⟩ => exact (((dat2 (E4 m) c).arrAt_in 0 rfl _).trans (A_eq2 (E4 m) c 0)).trans (hne2 m c main_arg1 (by decide)).symm
  | ⟨1, _⟩ => exact (((dat2 (E4 m) c).arrAt_in 1 rfl _).trans (A_eq2 (E4 m) c 1)).trans (hne2 m c main_v7 (by decide)).symm
  | ⟨2, _⟩ => exact (((dat2 (E4 m) c).arrAt_in 2 rfl _).trans (A_eq2 (E4 m) c 2)).trans (hne2 m c main_v7 (by decide)).symm
  | ⟨3, _⟩ => exact (((dat2 (E4 m) c).arrAt_in 3 rfl _).trans (A_eq2 (E4 m) c 3)).trans (hne2 m c main_v0 (by decide)).symm
  | ⟨4, _⟩ => exact (W5_out m c).symm
/-- and every other buffer what it held at entry. -/
theorem hrest2 (c : Dev nD) : ∀ b, b ∉ Finset.univ.image (Pipeline.arrRef spec2) → E5 m c b = E4 m c b :=
  fun b hb => hne2 m c b fun e => hb (e ▸ Finset.mem_image.mpr ⟨4, Finset.mem_univ _, rfl⟩)

/-! ## No segment writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := hne2 m c main_arg0 (by decide)
    _ = W3 m c (Proc.devRef .tc main_arg0) := StableHlo.after_of_writes_sub hostOps2 _ hostOps2_writes (by decide : main_arg0 ∉ hostOps2_W)
    _ = W2 m c (Proc.devRef .tc main_arg0) := hne1 m c main_arg0 (by decide)
    _ = W1 m c (Proc.devRef .tc main_arg0) := StableHlo.after_of_writes_sub hostOps1 _ hostOps1_writes (by decide : main_arg0 ∉ hostOps1_W)
    _ = W0 m c (Proc.devRef .tc main_arg0) := W1_of_ne m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := hne2 m c main_arg1 (by decide)
    _ = W3 m c (Proc.devRef .tc main_arg1) := StableHlo.after_of_writes_sub hostOps2 _ hostOps2_writes (by decide : main_arg1 ∉ hostOps2_W)
    _ = W2 m c (Proc.devRef .tc main_arg1) := hne1 m c main_arg1 (by decide)
    _ = W1 m c (Proc.devRef .tc main_arg1) := StableHlo.after_of_writes_sub hostOps1 _ hostOps1_writes (by decide : main_arg1 ∉ hostOps1_W)
    _ = W0 m c (Proc.devRef .tc main_arg1) := (W1_arr m c 0).trans (((dat0 (E0 m) c).arrAt_in 0 rfl _).trans (A_eq0 (E0 m) c 0))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := hne2 m c main_arg2 (by decide)
    _ = W3 m c (Proc.devRef .tc main_arg2) := StableHlo.after_of_writes_sub hostOps2 _ hostOps2_writes (by decide : main_arg2 ∉ hostOps2_W)
    _ = W2 m c (Proc.devRef .tc main_arg2) := hne1 m c main_arg2 (by decide)
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := hne2 m c main_arg3 (by decide)
    _ = W3 m c (Proc.devRef .tc main_arg3) := StableHlo.after_of_writes_sub hostOps2 _ hostOps2_writes (by decide : main_arg3 ∉ hostOps2_W)
    _ = W2 m c (Proc.devRef .tc main_arg3) := hne1 m c main_arg3 (by decide)
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- The result array ends at what region 2's write-backs leave. -/
theorem W5_main_v8 (c : Dev nD) : W5 m c (Proc.devRef .tc main_v8) = (dat2 (E4 m) c).arrAt 4 cfg2.N := by
  unfold W5; exact Function.update_self _ _ _

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
  | ⟨2, _⟩ => fun c => dat2 (E4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays_in1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := arrays_out1 (E2 m) c (E3 m c) ((dat1 (E2 m) c).arrAt · cfg1.N) (hF1 m c) (hrest1 m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := arrays_in2 (E4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E4 m) c)
    unfold Pipeline.ΦA
    iintro ⟨Hp, -, Hr⟩
    isplitl [Hr]; · iexact Hr
    iexact Hp
  hout c := by
    rw [Pipeline.ownSems0_none]
    refine BIBase.Entails.trans (hout2 (E4 m) c) ?_
    unfold Pipeline.ΦA
    iintro ⟨Hr, Hp⟩
    isplitl [Hp]; · iexact Hp
    isplitr; · iempintro
    iexact Hr
  hexit c := by
    have hjoin := arrays_out2 (E4 m) c (E5 m c) ((dat2 (E4 m) c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has the result array at what region 2's write-backs leave and the four argument
    arrays as launched. -/
theorem run_all : θ_run defs (onTc (τ := τ) (main (F := F))) ⟨m, fun _ => 0, ρ⟩ (fun r => ∀ c : Dev nD,
      r.2.mem ((c.tc : Thread nD τ).loc main_v8) = (dat2 (E4 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v8 (by decide))).trans (W5_main_v8 m c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c)⟩)

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Frames

end
-- ==== Proof.RefModules.lean ====
/-
  The reference program's run and its stages read at an index are generated modules; this file only
  brings them into the build so that the modules about the reference can import one name.
-/
import proofs.«169160_j37220186587698_1_alg».proof.Proof.Gen.ReferenceIdeal.Run
import proofs.«169160_j37220186587698_1_alg».proof.Proof.Gen.ReferenceIdeal.Read
-- ==== Proof.ClaimsFrames.lean ====
/-
  The three frame conjuncts and the (empty) idealization ledger.

  Each of the two kernel programs is three accumulate-over-column-blocks regions separated by two short host stretches;
  its frame is the run of those five segments with the result dropped. The reference has no kernel region: its frame is
  its straight-line run with the result dropped.
-/
import proofs.«169160_j37220186587698_1_alg».proof.Defs
import proofs.«169160_j37220186587698_1_alg».proof.Proof.Kernel.Run
import proofs.«169160_j37220186587698_1_alg».proof.Proof.KernelIdeal.Run
import proofs.«169160_j37220186587698_1_alg».proof.Proof.RefModules

noncomputable section

open Idealize.ShloMosaic Idealize.ShloMosaic.TcCoe Idealize.SL.Sem

namespace Cert.Proof.Claims

variable [Cert.Kernel.Facts] [Cert.KernelIdeal.Facts] [Cert.ReferenceIdeal.Facts] [Cert.Pre_finite_inputs.Facts]

theorem frame_kernel : Cert.frame_Kernel := fun m ρ _ => Cert.Kernel.Frames.frame_all (F := Bits) m ρ

theorem frame_kernelIdeal : Cert.frame_KernelIdeal := fun m ρ _ => Cert.KernelIdeal.Frames.frame_all (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

end Cert.Proof.Claims

end
-- ==== Proof.DeviceRegion0Pieces.lean ====
/-
  What region 0's three control cases leave, as values. Clearing the scratch column and adding a block's row sums leaves
  the row sums over the cleared column; a later block adds its row sums to the column it found; the last block also
  stores the scaling column computed from the completed column. Each is one payload of the body applied to the
  block and to the column found.
-/
import proofs.«169160_j37220186587698_1_alg».proof.Proof.KernelIdeal.R0Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.DeviceValue

open Cert.KernelIdeal Cert.KernelIdeal.Gen Cert.KernelIdeal.Frames

variable {F : FTy → Type} [FloatOps F]

theorem hz2 : (![0, 0] : Fin 2 → Nat) = fun _ => 0 := funext fun a => by fin_cases a <;> rfl

/-- A middle block: the column found plus the block's row sums. -/
theorem scratch0_B (c : Dev nD) (i : grid0.Coords) (a2 : Memref sig .tc .vmem S2048x2048 .f32) (h2 : a2.IsWhole) (a3 : Memref sig .tc .vmem S2048x1 .f32) (h3 : a3.IsWhole) (a4 : Memref sig .tc .vmem S2048x1 .f32) (h4 : a4.IsWhole) (hc0 : ¬cond0_0 i) (hc1 : ¬cond0_1 i) (x0 : Vec F S2048x2048 .f32) (xs0 : Vec F S2048x1 .f32) :
    sout0_B_0 c i a2 h2 a3 h3 a4 h4 hc0 hc1 x0 xs0 = k0_pay2 xs0 x0 := by
  unfold sout0_B_0
  rw [View.read_writes_eq_canon _ _ _ (scover0_B_0 c i a2 h2 a3 h3 a4 h4 hc0 hc1 x0 xs0)]
  unfold kernelRun0_B
  dsimp only
  try sl_unfold_words
  rw [View.canon_unit_zero hz2]
  simp only [View.readAt_eq_ld, h2.read_unread, h4.read_unread, View.ld_unit_zero (S := S2048x1) hz2, View.ld_unit_zero (S := S2048x2048) hz2]

/-- The first block: the cleared column plus the block's row sums. -/
theorem scratch0_A (c : Dev nD) (i : grid0.Coords) (a2 : Memref sig .tc .vmem S2048x2048 .f32) (h2 : a2.IsWhole) (a3 : Memref sig .tc .vmem S2048x1 .f32) (h3 : a3.IsWhole) (a4 : Memref sig .tc .vmem S2048x1 .f32) (h4 : a4.IsWhole) (hc0 : cond0_0 i) (hc1 : ¬cond0_1 i) (x0 : Vec F S2048x2048 .f32) :
    sout0_A_0 c i a2 h2 a3 h3 a4 h4 hc0 hc1 x0 = k0_pay2 (k0_pay1 (F := F)) x0 := by
  unfold sout0_A_0
  rw [View.read_writes_eq_canon _ _ _ (scover0_A_0 c i a2 h2 a3 h3 a4 h4 hc0 hc1 x0)]
  unfold kernelRun0_A
  dsimp only
  try sl_unfold_words
  rw [View.canon_cons_unit_zero (S := S2048x1) hz2, View.readCov_unit_zero (S := S2048x1) _ hz2]
  simp only [View.readAt_eq_ld, h2.read_unread, View.ld_unit_zero (S := S2048x1) hz2, View.ld_unit_zero (S := S2048x2048) hz2]

/-- The last block: the scratch column as in a middle block, -/
theorem scratch0_C (c : Dev nD) (i : grid0.Coords) (a2 : Memref sig .tc .vmem S2048x2048 .f32) (h2 : a2.IsWhole) (a3 : Memref sig .tc .vmem S2048x1 .f32) (h3 : a3.IsWhole) (a4 : Memref sig .tc .vmem S2048x1 .f32) (h4 : a4.IsWhole) (hc0 : ¬cond0_0 i) (hc1 : cond0_1 i) (x0 : Vec F S2048x2048 .f32) (xs0 : Vec F S2048x1 .f32) :
    sout0_C_0 c i a2 h2 a3 h3 a4 h4 hc0 hc1 x0 xs0 = k0_pay2 xs0 x0 := by
  unfold sout0_C_0
  rw [View.read_writes_eq_canon _ _ _ (scover0_C_0 c i a2 h2 a3 h3 a4 h4 hc0 hc1 x0 xs0)]
  unfold kernelRun0_C
  dsimp only
  try sl_unfold_words
  rw [View.canon_unit_zero hz2]
  simp only [View.readAt_eq_ld, h2.read_unread, h4.read_unread, View.ld_unit_zero (S := S2048x1) hz2, View.ld_unit_zero (S := S2048x2048) hz2]

/-- and the output block at the scaling column of the completed scratch column. -/
theorem out0_C (c : Dev nD) (i : grid0.Coords) (a2 : Memref sig .tc .vmem S2048x2048 .f32) (h2 : a2.IsWhole) (a3 : Memref sig .tc .vmem S2048x1 .f32) (h3 : a3.IsWhole) (a4 : Memref sig .tc .vmem S2048x1 .f32) (h4 : a4.IsWhole) (hc0 : ¬cond0_0 i) (hc1 : cond0_1 i) (x0 : Vec F S2048x2048 .f32) (xs0 : Vec F S2048x1 .f32) :
    out0_C_1 c i a2 h2 a3 h3 a4 h4 hc0 hc1 x0 xs0 = k0_pay3 (k0_pay2 xs0 x0) := by
  unfold out0_C_1
  rw [View.read_writes_eq_canon _ _ _ (cover0_C_1 c i a2 h2 a3 h3 a4 h4 hc0 hc1 x0 xs0)]
  unfold kernelRun0_C
  dsimp only
  try sl_unfold_words
  rw [View.canon_unit_zero hz2, View.readCov_unit_zero (S := S2048x1) _ hz2]
  simp only [View.readAt_eq_ld, h2.read_unread, h4.read_unread, View.ld_unit_zero (S := S2048x1) hz2, View.ld_unit_zero (S := S2048x2048) hz2]

end Cert.DeviceValue

end
-- ==== Proof.Spec.lean ====
/-
  What the two-layer graph convolution computes, entry by entry, on the extended reals.

  The graph has 8192 nodes; adj is its adjacency matrix, H the node features (64 per node), W1 (64 by 64) and
  W2 (64 by 16) the weights of the two layers. With a self loop added at every node, the degree of node i is
  (sum over c of adj(i,c)) + 1, and s_i is its reciprocal square root where the degree is positive and 0 elsewhere.
  One propagation step of a feature matrix X is
      L(X)(i,f) = s_i * ((sum over c of adj(i,c) * (s_c * X(c,f))) + s_i * X(i,f)),
  which is the product of the symmetrically normalised adjacency matrix (with self loops) and X, arranged so that the
  normalised matrix is never formed. The result is
      softmax over the 16 classes of L(max(L(H W1), 0) W2),
  the softmax taken with the row maximum subtracted before the exponential.

  Every scalar piece is the operation of the extended reals that both the vector spelling and the host spelling of
  the same arithmetic denote; the small lemmas after each definition say so.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-! ## The words of 1 and of minus infinity -/

/-- The binary32 word of 1.0 denotes 1. -/
theorem ofBits_one : Ideal.ofBits .f32 0x3F800000#32 = 1 := by
  simp [Ideal.ofBits, Ideal.ieee, -EReal.coe_mul]; norm_num

/-- The binary32 word of minus infinity denotes the bottom element. -/
theorem ofBits_negInf : Ideal.ofBits .f32 0xFF800000#32 = ⊥ := by simp [Ideal.ofBits, Ideal.ieee]

/-! ## The scaling vector -/

/-- x ↦ 1/√x where x is positive, 0 elsewhere: the comparison with 0 selecting between the reciprocal square root
    and 0. -/
def rsqrtPos (x : EReal) : EReal := Scalar.select (Ideal.cmp .ogt x 0) (Ideal.rsqrt x) 0

/-- The host's spelling: compare with the word of 0, the host's reciprocal square root, select against the word of 0. -/
theorem rsqrtPos_host (x : Ideal .f32) :
    Scalar.select (FloatOps.cmpf .ogt x (Ideal.ofBits .f32 0x00000000#32)) (FloatOps.hostUnary .rsqrt x)
      (Ideal.ofBits .f32 0x00000000#32) = rsqrtPos x := by
  rw [Ideal.ofBits_zero_f32]; rfl

/-- The vector unit's spelling: the same with the vector reciprocal square root. -/
theorem rsqrtPos_device (x : Ideal .f32) :
    Scalar.select (FloatOps.cmpf .ogt x (Ideal.ofBits .f32 0x00000000#32)) (FloatOps.rsqrt x)
      (Ideal.ofBits .f32 0x00000000#32) = rsqrtPos x := by
  rw [Ideal.ofBits_zero_f32]; rfl

/-- Where x is positive, rsqrtPos x is the reciprocal square root. -/
theorem rsqrtPos_of_pos {x : EReal} (h : 0 < x) : rsqrtPos x = Ideal.rsqrt x := by
  simp [rsqrtPos, Scalar.select, Ideal.cmp, h]

/-- Where x is not positive, rsqrtPos x is 0. -/
theorem rsqrtPos_of_not_pos {x : EReal} (h : ¬ 0 < x) : rsqrtPos x = 0 := by
  simp [rsqrtPos, Scalar.select, Ideal.cmp, h]

/-- s_i: the reciprocal square root of the degree of node i, the degree being the sum of row i of the adjacency
    matrix plus 1 for the self loop; 0 where that degree is not positive. -/
def scale (adj : (⟨2, ![8192, 8192]⟩ : Shape).Idx → EReal) (i : Fin 8192) : EReal :=
  rsqrtPos ((∑ c : Fin 8192, adj (ix2 i c)) + 1)

/-! ## One propagation step -/

/-- L(X)(i,f) = s_i * ((sum over c of adj(i,c) * (s_c * X(c,f))) + s_i * X(i,f)), at the row i and the column f. -/
def layerAt {n : ℕ} (adj : (⟨2, ![8192, 8192]⟩ : Shape).Idx → EReal) (s : Fin 8192 → EReal)
    (X : (⟨2, ![8192, n]⟩ : Shape).Idx → EReal) (i : Fin 8192) (f : Fin n) : EReal :=
  s i * ((∑ c : Fin 8192, adj (ix2 i c) * (s c * X (ix2 c f))) + s i * X (ix2 i f))

/-- The propagation step as a matrix: its entry at an index is layerAt at the index's two coordinates. -/
def layer {n : ℕ} (adj : (⟨2, ![8192, 8192]⟩ : Shape).Idx → EReal) (s : Fin 8192 → EReal)
    (X : (⟨2, ![8192, n]⟩ : Shape).Idx → EReal) : (⟨2, ![8192, n]⟩ : Shape).Idx → EReal :=
  fun j => layerAt adj s X ⟨(j 0).val, (j 0).isLt⟩ ⟨(j 1).val, (j 1).isLt⟩

theorem layer_ix2 {n : ℕ} (adj : (⟨2, ![8192, 8192]⟩ : Shape).Idx → EReal) (s : Fin 8192 → EReal)
    (X : (⟨2, ![8192, n]⟩ : Shape).Idx → EReal) (i : Fin 8192) (f : Fin n) :
    layer adj s X (ix2 i f)
      = s i * ((∑ c : Fin 8192, adj (ix2 i c) * (s c * X (ix2 c f))) + s i * X (ix2 i f)) := rfl

/-! ## The dense products with the weights -/

/-- (X W)(i,f) = sum over k of X(i,k) * W(k,f), the inner extent 64. -/
def timesAt {n : ℕ} (X : (⟨2, ![8192, 64]⟩ : Shape).Idx → EReal) (W : (⟨2, ![64, n]⟩ : Shape).Idx → EReal)
    (i : Fin 8192) (f : Fin n) : EReal :=
  ∑ k : Fin 64, X (ix2 i k) * W (ix2 k f)

/-- The product as a matrix. -/
def times {n : ℕ} (X : (⟨2, ![8192, 64]⟩ : Shape).Idx → EReal) (W : (⟨2, ![64, n]⟩ : Shape).Idx → EReal) :
    (⟨2, ![8192, n]⟩ : Shape).Idx → EReal :=
  fun j => timesAt X W ⟨(j 0).val, (j 0).isLt⟩ ⟨(j 1).val, (j 1).isLt⟩

theorem times_ix2 {n : ℕ} (X : (⟨2, ![8192, 64]⟩ : Shape).Idx → EReal) (W : (⟨2, ![64, n]⟩ : Shape).Idx → EReal)
    (i : Fin 8192) (f : Fin n) : times X W (ix2 i f) = ∑ k : Fin 64, X (ix2 i k) * W (ix2 k f) := rfl

/-! ## The two layers -/

/-- The hidden features: the first propagation step of H W1, negative entries replaced by 0. -/
def hidden (H : (⟨2, ![8192, 64]⟩ : Shape).Idx → EReal) (adj : (⟨2, ![8192, 8192]⟩ : Shape).Idx → EReal)
    (W1 : (⟨2, ![64, 64]⟩ : Shape).Idx → EReal) : (⟨2, ![8192, 64]⟩ : Shape).Idx → EReal :=
  fun j => max (layer adj (scale adj) (times H W1) j) 0

theorem hidden_ix2 (H : (⟨2, ![8192, 64]⟩ : Shape).Idx → EReal) (adj : (⟨2, ![8192, 8192]⟩ : Shape).Idx → EReal)
    (W1 : (⟨2, ![64, 64]⟩ : Shape).Idx → EReal) (i : Fin 8192) (f : Fin 64) :
    hidden H adj W1 (ix2 i f) = max (layer adj (scale adj) (times H W1) (ix2 i f)) 0 := rfl

/-- The class scores before the softmax: the second propagation step of (hidden features) W2. -/
def logits (H : (⟨2, ![8192, 64]⟩ : Shape).Idx → EReal) (adj : (⟨2, ![8192, 8192]⟩ : Shape).Idx → EReal)
    (W1 : (⟨2, ![64, 64]⟩ : Shape).Idx → EReal) (W2 : (⟨2, ![64, 16]⟩ : Shape).Idx → EReal) :
    (⟨2, ![8192, 16]⟩ : Shape).Idx → EReal :=
  layer adj (scale adj) (times (hidden H adj W1) W2)

/-! ## The softmax over the 16 classes -/

/-- The maximum of row i: the running maximum, from minus infinity, of its 16 entries. -/
def rowMax (Z : (⟨2, ![8192, 16]⟩ : Shape).Idx → EReal) (i : Fin 8192) : EReal :=
  (Finset.univ : Finset (Fin 16)).fold max ⊥ (fun k => Z (ix2 i k))

/-- exp (Z(i,f) - max of row i) divided by the sum over the row of the same exponentials. -/
def softmaxAt (Z : (⟨2, ![8192, 16]⟩ : Shape).Idx → EReal) (i : Fin 8192) (f : Fin 16) : EReal :=
  Ideal.div (Ideal.exp (Z (ix2 i f) - rowMax Z i)) (∑ k : Fin 16, Ideal.exp (Z (ix2 i k) - rowMax Z i))

/-- The softmax as a matrix. -/
def softmax (Z : (⟨2, ![8192, 16]⟩ : Shape).Idx → EReal) : (⟨2, ![8192, 16]⟩ : Shape).Idx → EReal :=
  fun j => softmaxAt Z ⟨(j 0).val, (j 0).isLt⟩ ⟨(j 1).val, (j 1).isLt⟩

theorem softmax_ix2 (Z : (⟨2, ![8192, 16]⟩ : Shape).Idx → EReal) (i : Fin 8192) (f : Fin 16) :
    softmax Z (ix2 i f)
      = Ideal.div (Ideal.exp (Z (ix2 i f) - rowMax Z i)) (∑ k : Fin 16, Ideal.exp (Z (ix2 i k) - rowMax Z i)) := rfl

/-- The host's spelling of the exponential and of the quotient, and the vector unit's, are these. -/
theorem exp_host (x : Ideal .f32) : FloatOps.hostUnary .exp x = Ideal.exp x := rfl
theorem exp_device (x : Ideal .f32) : FloatOps.exp x = Ideal.exp x := rfl
theorem div_host (x y : Ideal .f32) : FloatOps.hostDivf x y = Ideal.div x y := rfl
theorem div_device (x y : Ideal .f32) : FloatOps.divf x y = Ideal.div x y := rfl

/-- The maximum with the word of 0, in either order of spelling, is the maximum with 0. -/
theorem relu_word (x : Ideal .f32) : FloatOps.maximumf x (Ideal.ofBits .f32 0x00000000#32) = max x 0 := by
  rw [Ideal.ofBits_zero_f32]; rfl

/-! ## The result -/

/-- The result: the softmax of the class scores. -/
def out (H : (⟨2, ![8192, 64]⟩ : Shape).Idx → EReal) (adj : (⟨2, ![8192, 8192]⟩ : Shape).Idx → EReal)
    (W1 : (⟨2, ![64, 64]⟩ : Shape).Idx → EReal) (W2 : (⟨2, ![64, 16]⟩ : Shape).Idx → EReal) :
    (⟨2, ![8192, 16]⟩ : Shape).Idx → EReal :=
  softmax (logits H adj W1 W2)

end Cert.Spec

end
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.LibColumnCast.lean ====
/-
  A vector of length a cast to a column of shape [a, 1] (what a sum over the last axis that keeps that axis produces),
  read at an index given by coordinates.
-/
import Idealize.ShloMosaic.Lib.ValueIdx
import Idealize.ShloMosaic.Lib.Pipeline.Value

namespace Cert.Lib.ColumnCast

open Idealize.ShloMosaic Idealize.ShloMosaic.ValueIdx

/-- A vector of length a cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.ColumnCast
-- ==== Proof.DevicePayload0.lean ====
/-
  The degree pass, block by block, on the extended reals.

  For a block of 2048 rows: the accumulator column starts at 0; each column tile adds, to row r of the accumulator, the
  sum of row r of the 2048 by 2048 tile; and at the last tile the column holds the row sums, to which 1 is added (the
  self loop) and of which the guarded reciprocal square root is taken.
-/
import proofs.«169160_j37220186587698_1_alg».proof.Proof.Gen.KernelIdeal.Skeleton
import proofs.«169160_j37220186587698_1_alg».proof.Proof.Spec
import proofs.«169160_j37220186587698_1_alg».proof.Proof.LibAxisReductions
import proofs.«169160_j37220186587698_1_alg».proof.Proof.LibColumnCast
import Idealize.ShloMosaic.Lib.Pipeline.Value

noncomputable section

namespace Cert.DeviceValue

open Cert.KernelIdeal Cert.KernelIdeal.Gen Idealize.ShloMosaic Idealize.ShloMosaic.ValueIdx
open scoped BigOperators

/-- The accumulator column's first value: 0 at every entry. -/
theorem k0_pay1_eq (j : S2048x1.Idx) : k0_pay1 (F := Ideal) j = 0 := by
  unfold k0_pay1
  refine (congrFun (shapeCast_self _ _) j).trans ?_
  exact Ideal.ofBits_zero_f32

/-- One column tile: row r of the accumulator gains the sum of row r of the tile. -/
theorem k0_pay2_eq (v3 : Vec Ideal S2048x1 .f32) (v4 : Vec Ideal S2048x2048 .f32) (r : Fin 2048) :
    k0_pay2 (F := Ideal) v3 v4 (ix2 r (0 : Fin 1)) = v3 (ix2 r (0 : Fin 1)) + ∑ k : Fin 2048, v4 (ix2 r k) := by
  unfold k0_pay2
  refine (congrFun (shapeCast_self _ _) _).trans ?_
  refine congrArg (v3 (ix2 r (0 : Fin 1)) + ·) ?_
  refine (Cert.Lib.ColumnCast.shapeCast_a_a1_apply _ _ r 0).trans ?_
  exact Cert.Lib.AxisReductions.sum_cols_apply v4 _ _ _ _ r

/-- The last step: the guarded reciprocal square root of the row sum plus 1. -/
theorem k0_pay3_eq (v14 : Vec Ideal S2048x1 .f32) (r : Fin 2048) :
    k0_pay3 (F := Ideal) v14 (ix2 r (0 : Fin 1)) = Cert.Spec.rsqrtPos (v14 (ix2 r (0 : Fin 1)) + 1) := by
  unfold k0_pay3
  have h1 : FloatOps.addf (v14 (ix2 r (0 : Fin 1))) (Ideal.ofBits .f32 0x3F800000#32) = v14 (ix2 r (0 : Fin 1)) + 1 := by
    rw [Cert.Spec.ofBits_one]; rfl
  refine Eq.trans ?_ (congrArg Cert.Spec.rsqrtPos h1)
  exact Cert.Spec.rsqrtPos_device _

end Cert.DeviceValue

end
-- ==== Proof.LibBlockSums.lean ====
/-
  Re-indexings of a finite sum: over the indices of a rank-three shape, and over a range cut into equal blocks.

  An index of a shape `[a, b, c]` is its three coordinates, so a sum over all its indices, in any commutative monoid,
  is the triple sum over the coordinates.  A number below `n · k` is `t · k + r` for exactly one block `t < n` and one
  offset `r < k`, so a sum over `Fin (n · k)` is the sum over the blocks of the sums over the offsets.
-/
import Idealize.ShloMosaic.Lib.ValueIdx

namespace Cert.LibBlockSums

open Idealize.ShloMosaic Idealize.ShloMosaic.ValueIdx

/-- A rank-three index set is the product of its three coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over the indices of a shape `[a, b, c]` is the triple sum over the coordinates. -/
theorem sum_idx3 {M : Type*} [AddCommMonoid M] {a b c : Nat} (f : (⟨3, ![a, b, c]⟩ : Shape).Idx → M) :
    ∑ i, f i = ∑ x : Fin a, ∑ y : Fin b, ∑ z : Fin c, f (ix3 x y z) := by
  rw [← Equiv.sum_comp (idxEquiv3 (a := a) (b := b) (c := c)).symm f, Fintype.sum_prod_type]
  refine Finset.sum_congr rfl fun x _ => ?_
  rw [Fintype.sum_prod_type]
  rfl

/-- With a unit last axis the innermost sum has one term. -/
theorem sum_idx3_unit_last {M : Type*} [AddCommMonoid M] {a b : Nat} (f : (⟨3, ![a, b, 1]⟩ : Shape).Idx → M) :
    ∑ i, f i = ∑ x : Fin a, ∑ y : Fin b, f (ix3 x y 0) := by
  rw [sum_idx3]
  exact Finset.sum_congr rfl fun x _ => Finset.sum_congr rfl fun y _ => Fin.sum_univ_one _

/-- With a unit first axis the outermost sum has one term. -/
theorem sum_idx3_unit_first {M : Type*} [AddCommMonoid M] {b c : Nat} (f : (⟨3, ![1, b, c]⟩ : Shape).Idx → M) :
    ∑ i, f i = ∑ y : Fin b, ∑ z : Fin c, f (ix3 0 y z) := by
  rw [sum_idx3]
  exact Fin.sum_univ_one _

/-- With a unit first axis a rank-two sum is the sum over the second coordinate. -/
theorem sum_idx2_unit_first {M : Type*} [AddCommMonoid M] {b : Nat} (f : (⟨2, ![1, b]⟩ : Shape).Idx → M) :
    ∑ i, f i = ∑ y : Fin b, f (ix2 0 y) := by
  rw [sum_idx2]
  exact Fin.sum_univ_one _

/-- Entry `r` of block `t`, of `n` blocks of `k` entries each. -/
def blockEntry {n k : Nat} (t : Fin n) (r : Fin k) : Fin (n * k) :=
  ⟨t.val * k + r.val, by
    have ht := t.isLt; have hr := r.isLt
    calc t.val * k + r.val < t.val * k + k := by omega
      _ = (t.val + 1) * k := by ring
      _ ≤ n * k := Nat.mul_le_mul_right k (by omega)⟩

/-- A sum over `n · k` entries is the sum over the `n` blocks of the sums over each block's `k` entries. -/
theorem sum_blocks {M : Type*} [AddCommMonoid M] (n k : Nat) (g : Fin (n * k) → M) :
    ∑ b, g b = ∑ t : Fin n, ∑ r : Fin k, g (blockEntry t r) := by
  rw [← Equiv.sum_comp (finProdFinEquiv (m := n) (n := k)) g, Fintype.sum_prod_type]
  refine Finset.sum_congr rfl fun t _ => Finset.sum_congr rfl fun r _ => congrArg g (Fin.ext ?_)
  show r.val + k * t.val = t.val * k + r.val
  ring

end Cert.LibBlockSums
-- ==== Proof.DeviceSums.lean ====
/-
  A sum over 8192 entries taken in four consecutive tiles of 2048.

  A number below 8192 is 2048 * j + k for exactly one tile j < 4 and one offset k < 2048, so adding up, from 0, the four
  tile sums gives the whole sum. Stated in any commutative monoid, and for any naming of entry k of tile j.
-/
import proofs.«169160_j37220186587698_1_alg».proof.Proof.LibBlockSums
import Mathlib.Algebra.BigOperators.Fin

namespace Cert.DeviceValue

open scoped BigOperators

/-- Entry k of tile j. -/
def tileEntry (j : Fin 4) (k : Fin 2048) : Fin 8192 :=
  ⟨2048 * j.val + k.val, by have := j.isLt; have := k.isLt; omega⟩

/-- The four tile sums add up to the whole sum, however entry k of tile j is named. -/
theorem sum_four_tiles {M : Type*} [AddCommMonoid M] (g : Fin 8192 → M) (e : Fin 4 → Fin 2048 → Fin 8192)
    (he : ∀ j k, (e j k).val = 2048 * j.val + k.val) :
    ((∑ k, g (e 0 k)) + ∑ k, g (e 1 k)) + (∑ k, g (e 2 k)) + ∑ k, g (e 3 k) = ∑ c, g c := by
  have hb : ∀ j : Fin 4, ∑ k, g (e j k) = ∑ k : Fin 2048, g (Cert.LibBlockSums.blockEntry (n := 4) j k) := fun j =>
    Finset.sum_congr rfl fun k _ => congrArg g (Fin.ext (by
      rw [he]; show 2048 * j.val + k.val = j.val * 2048 + k.val; omega))
  rw [hb 0, hb 1, hb 2, hb 3]
  exact ((Cert.LibBlockSums.sum_blocks 4 2048 g).trans (Fin.sum_univ_four _)).symm

/-- The same, started from 0 as an accumulator is. -/
theorem sum_four_tiles_from_zero {M : Type*} [AddCommMonoid M] (g : Fin 8192 → M) (e : Fin 4 → Fin 2048 → Fin 8192)
    (he : ∀ j k, (e j k).val = 2048 * j.val + k.val) :
    (((0 + ∑ k, g (e 0 k)) + ∑ k, g (e 1 k)) + ∑ k, g (e 2 k)) + ∑ k, g (e 3 k) = ∑ c, g c := by
  rw [zero_add]; exact sum_four_tiles g e he

/-- With entry k of tile j named 2048 * j + k. -/
theorem sum_tiles {M : Type*} [AddCommMonoid M] (g : Fin 8192 → M) :
    ((∑ k, g (tileEntry 0 k)) + ∑ k, g (tileEntry 1 k)) + (∑ k, g (tileEntry 2 k)) + ∑ k, g (tileEntry 3 k)
      = ∑ c, g c :=
  sum_four_tiles g tileEntry fun _ _ => rfl

theorem sum_tiles_from_zero {M : Type*} [AddCommMonoid M] (g : Fin 8192 → M) :
    (((0 + ∑ k, g (tileEntry 0 k)) + ∑ k, g (tileEntry 1 k)) + ∑ k, g (tileEntry 2 k)) + ∑ k, g (tileEntry 3 k)
      = ∑ c, g c :=
  sum_four_tiles_from_zero g tileEntry fun _ _ => rfl

end Cert.DeviceValue
-- ==== Proof.DeviceRegion0.lean ====
/-
  Region 0's output array after the run is the scaling column: entry i is where(deg_i > 0, 1/√deg_i, 0) with
  deg_i = (the sum of row i of the adjacency matrix) + 1.

  Point t = 4 i + j of the grid handles the adjacency block of block row i and block column j. Over j = 0..3 the scratch
  column collects, from 0, the four partial row sums of rows 2048 i + r; they add up to the whole row sum. At j = 3 the
  output block i receives the scaling column of those rows and is written back; the four block rows cover the array.
-/
import proofs.«169160_j37220186587698_1_alg».proof.Proof.DeviceRegion0Pieces
import proofs.«169160_j37220186587698_1_alg».proof.Proof.DevicePayload0
import proofs.«169160_j37220186587698_1_alg».proof.Proof.DeviceSums

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DeviceValue

open Cert.KernelIdeal Cert.KernelIdeal.Gen Cert.KernelIdeal.Frames

variable (V : (c : Dev nD) → (b : Ref sig .tc) → Buf (Elt Ideal) ((c : Thread nD τ).loc b))

/-- Block indices of the two windows at point t = 4 i + j: the adjacency block (i, j), the output block (i, 0). -/
theorem idx0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- Point 4 i + j. -/
def pt0 (i j : Fin 4) : Fin cfg0.N := ⟨4 * i.val + j.val, by rw [show cfg0.N = 16 from N_0]; omega⟩

/-- Entry (r, k) of the adjacency block at point t is entry (2048 (t / 4) + r, 2048 (t % 4) + k) of the matrix. -/
theorem adjBlock0 (c : Dev nD) (t : Fin cfg0.N) (r k : Fin 2048) (I J : Fin 8192)
    (hI : I.val = 2048 * (t.val / 4) + r.val) (hJ : J.val = 2048 * (t.val % 4) + k.val) :
    (iblk0 V c 0 t : Vec Ideal S2048x2048 .f32) (ix2 r k) = (V c main_arg1 : S8192x8192.Idx → EReal) (ix2 I J) := by
  obtain ⟨e0, e1, -, -⟩ := idx0 t
  unfold iblk0
  rw [View.read_apply]
  show V c main_arg1 _ = V c main_arg1 _
  congr 1
  funext a
  apply Fin.ext
  match a with
  | ⟨0, _⟩ => show win0_0.index t 0 * 2048 + 1 * r.val = I.val; rw [e0, hI]; omega
  | ⟨1, _⟩ => show win0_0.index t 1 * 2048 + 1 * k.val = J.val; rw [e1, hJ]; omega

theorem outsAt0_congr (c : Dev nD) {n n' : ℕ} (h : n = n') (hn : n < cfg0.N) (hn' : n' < cfg0.N) :
    outsAt0 V c n hn = outsAt0 V c n' hn' := by subst h; rfl

/-- The scratch column after the blocks j = 0, 1, 2, 3 of block row i, and the output block stored at j = 3. -/
theorem scratchAt0_0 (c : Dev nD) (i : Fin 4) :
    (outsAt0 V c (pt0 i 0).val (pt0 i 0).isLt).2 = k0_pay2 (k0_pay1 (F := Ideal)) (iblk0 V c 0 (pt0 i 0)) := by
  rw [outsAt0_A V c (pt0 i 0) (by simp only [pt0]; omega) (by simp only [pt0]; omega)]
  dsimp only
  rw [scratch0_A]

theorem scratchAt0_1 (c : Dev nD) (i : Fin 4) :
    (outsAt0 V c (pt0 i 1).val (pt0 i 1).isLt).2
      = k0_pay2 (k0_pay2 (k0_pay1 (F := Ideal)) (iblk0 V c 0 (pt0 i 0))) (iblk0 V c 0 (pt0 i 1)) := by
  rw [outsAt0_B V c (pt0 i 1) (by simp only [pt0]; omega) (by simp only [pt0]; omega)]
  dsimp only
  rw [scratch0_B, outsAt0_congr V c (show (pt0 i 1).val - 1 = (pt0 i 0).val by simp only [pt0]; omega) _ (pt0 i 0).isLt, scratchAt0_0]

theorem scratchAt0_2 (c : Dev nD) (i : Fin 4) :
    (outsAt0 V c (pt0 i 2).val (pt0 i 2).isLt).2
      = k0_pay2 (k0_pay2 (k0_pay2 (k0_pay1 (F := Ideal)) (iblk0 V c 0 (pt0 i 0))) (iblk0 V c 0 (pt0 i 1))) (iblk0 V c 0 (pt0 i 2)) := by
  rw [outsAt0_B V c (pt0 i 2) (by simp only [pt0]; omega) (by simp only [pt0]; omega)]
  dsimp only
  rw [scratch0_B, outsAt0_congr V c (show (pt0 i 2).val - 1 = (pt0 i 1).val by simp only [pt0]; omega) _ (pt0 i 1).isLt, scratchAt0_1]

theorem outAt0_3 (c : Dev nD) (i : Fin 4) :
    (outsAt0 V c (pt0 i 3).val (pt0 i 3).isLt).1
      = k0_pay3 (k0_pay2 (k0_pay2 (k0_pay2 (k0_pay2 (k0_pay1 (F := Ideal)) (iblk0 V c 0 (pt0 i 0))) (iblk0 V c 0 (pt0 i 1))) (iblk0 V c 0 (pt0 i 2))) (iblk0 V c 0 (pt0 i 3))) := by
  rw [outsAt0_C V c (pt0 i 3) (by simp only [pt0]; omega) (by simp only [pt0]; omega)]
  dsimp only
  rw [out0_C, outsAt0_congr V c (show (pt0 i 3).val - 1 = (pt0 i 2).val by simp only [pt0]; omega) _ (pt0 i 2).isLt, scratchAt0_2]

/-- The scaling column, as the contents of the [8192, 1] array. -/
def G0 (a : S8192x8192.Idx → EReal) : S8192x1.Idx → EReal := fun j => Cert.Spec.scale a ⟨(j 0).val, idx2_lt0 j⟩

/-- Row r of the output block of block row i is the scaling entry of row 2048 i + r. -/
theorem outAt0_apply (c : Dev nD) (i : Fin 4) (r : Fin 2048) (I : Fin 8192) (hI : I.val = 2048 * i.val + r.val) :
    (outsAt0 V c (pt0 i 3).val (pt0 i 3).isLt).1 (ix2 r (0 : Fin 1)) = Cert.Spec.scale (V c main_arg1) I := by
  rw [outAt0_3, k0_pay3_eq, k0_pay2_eq, k0_pay2_eq, k0_pay2_eq, k0_pay2_eq, k0_pay1_eq]
  unfold Cert.Spec.scale
  have hsum := sum_four_tiles_from_zero (M := EReal) (fun cc : Fin 8192 => (V c main_arg1 : S8192x8192.Idx → EReal) (ix2 I cc)) tileEntry (fun _ _ => rfl)
  rw [← hsum]
  refine congrArg (fun x : EReal => Cert.Spec.rsqrtPos (x + 1)) ?_
  refine congrArg₂ (fun x y : EReal => x + y) (congrArg₂ (fun x y : EReal => x + y) (congrArg₂ (fun x y : EReal => x + y) (congrArg (fun x : EReal => 0 + x) ?_) ?_) ?_) ?_
  all_goals exact Finset.sum_congr rfl fun k _ => adjBlock0 V c _ r k I _ (by rw [hI]; simp only [pt0]; omega) (by simp only [pt0, tileEntry]; omega)

/-- An index of the array is in point t's output block iff each coordinate is in the block's range on its axis. -/
theorem mem_blk0 (t : Fin cfg0.N) (i : S8192x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- What a point that writes the output block back writes is that block of the scaling column. -/
theorem flushed0_eq (c : Dev nD) (t : Fin cfg0.N) (hf : (cfg0.win 1).flush t = true) :
    (dat0 V c).flushed 1 t = ((cfg0.win 1).blk t).view.read (Elt Ideal) (G0 (V c main_arg1)) := by
  have hN : cfg0.N = 16 := N_0
  have h3 : t.val % 4 = 3 := (flush0_1 t).mp hf
  obtain ⟨i, rfl⟩ : ∃ i : Fin 4, t = pt0 i 3 := ⟨⟨t.val / 4, by have := t.isLt; omega⟩, Fin.ext (by simp only [pt0]; omega)⟩
  show (cfg0.win 1).cut (grid0.coords (pt0 i 3)) ((dat0 V c).after 1 (pt0 i 3)) = _
  rw [after0_1]
  obtain ⟨-, -, e2, e3⟩ := idx0 (pt0 i 3)
  funext y
  obtain ⟨r, u, rfl⟩ : ∃ (r : Fin 2048) (u : Fin 1), y = ix2 r u := ⟨y 0, y 1, eq_ix2 y⟩
  obtain rfl : u = 0 := Subsingleton.elim _ _
  rw [View.read_apply]
  have hI : (⟨2048 * i.val + r.val, by omega⟩ : Fin 8192).val = 2048 * i.val + r.val := rfl
  refine (outAt0_apply V c i r _ hI).trans ?_
  unfold G0
  congr 1
  apply Fin.ext
  show 2048 * i.val + r.val = win0_1.index (pt0 i 3) 0 * 2048 + 1 * r.val
  rw [e2]; simp only [pt0]; omega

/-- Region 0's output array ends holding the scaling column. -/
theorem final0 (c : Dev nD) : (dat0 V c).arrAt 1 cfg0.N = G0 (V c main_arg1) :=
  (dat0 V c).arrAt_eq_of_cover 1 (G0 (V c main_arg1)) (flushed0_eq V c) fun idx => by
    have h0 : (idx 0).val < 8192 := idx2_lt0 idx
    have h1 : (idx 1).val < 1 := (idx 1).isLt
    refine ⟨pt0 ⟨(idx 0).val / 2048, by omega⟩ 3, (flush0_1 _).mpr (by simp only [pt0]; omega), ?_⟩
    obtain ⟨-, -, e2, e3⟩ := idx0 (pt0 ⟨(idx 0).val / 2048, by omega⟩ 3)
    rw [mem_blk0]
    intro a
    match a with
    | ⟨0, _⟩ => show win0_1.index _ 0 * 2048 ≤ (idx 0).val ∧ (idx 0).val < win0_1.index _ 0 * 2048 + 2048
                rw [e2]; simp only [pt0]; omega
    | ⟨1, _⟩ => show win0_1.index _ 1 * 1 ≤ (idx 1).val ∧ (idx 1).val < win0_1.index _ 1 * 1 + 1
                rw [e3]; omega

end Cert.DeviceValue

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.DeviceHost.lean ====
/-
  The two host stretches between the passes, on the extended reals.

  Before each aggregation pass the host multiplies the features with the layer's weights (a plain product with inner
  extent 64) and scales row i of the product by s_i, the scaling vector being held as a column of shape [8192, 1].
  Entry (i,f) of what it writes is s_i times the sum over k of X(i,k) * W(k,f). Nothing else is written.
-/
import proofs.«169160_j37220186587698_1_alg».proof.Proof.Gen.KernelIdeal.Regions
import proofs.«169160_j37220186587698_1_alg».proof.Proof.Spec
import proofs.«169160_j37220186587698_1_alg».proof.Proof.LibPlainProduct
import Idealize.ShloMosaic.Lib.Pipeline.Value
import Idealize.ShloMosaic.Lib.StableHlo.Run

noncomputable section

namespace Cert.DeviceValue

open Cert.KernelIdeal Cert.KernelIdeal.Gen Idealize.ShloMosaic Idealize.ShloMosaic.ValueIdx Idealize.ShloMosaic.StableHlo
open scoped BigOperators

/-! ## A scaled product, entry by entry -/

/-- A column [8192, 1] spread over n columns reads, at (i,f), the column's entry i. -/
theorem spread_apply {n : ℕ} (hn : n ≠ 1) (x : FVec Ideal ⟨2, ![8192, 1]⟩ .f32)
    (h : (⟨2, ![8192, 1]⟩ : Shape).BroadcastsInDim ⟨2, ![8192, n]⟩ (![0, 1] : Fin 2 → Fin 2)) (i : Fin 8192) (f : Fin n) :
    broadcastInDim ⟨2, ![8192, n]⟩ ![0, 1] h x (ix2 i f) = x (ix2 i (0 : Fin 1)) :=
  broadcastInDim_apply _ h x (ix2 i f) (ix2 i (0 : Fin 1)) (fun a => match a with
    | ⟨0, _⟩ => by show i.val = if (8192 : Nat) = 1 then 0 else i.val; rw [if_neg (by decide)]
    | ⟨1, _⟩ => by show 0 = if (1 : Nat) = 1 then 0 else f.val; rw [if_pos rfl])

/-! ## The stretch before the first pass -/

/-- What the first stretch leaves in its last buffer, as one term of the scaling column s, the features X and the
    weights Wt it finds. -/
theorem hostOps1_v3_term (W : Valuation τ sig (Elt Ideal)) (s : FVec Ideal S8192x1 .f32) (X : FVec Ideal S8192x64 .f32)
    (Wt : FVec Ideal S64x64 .f32) (hs : W (Proc.devRef .tc main_v0) = s) (hX : W (Proc.devRef .tc main_arg0) = X)
    (hW : W (Proc.devRef .tc main_arg2) = Wt) :
    (StableHlo.after (hostOps1 (F := Ideal)) W (Proc.devRef .tc main_v3) : FVec Ideal S8192x64 .f32)
      = mulf (broadcastInDim S8192x64 ![0, 1] bcast_S8192x1_S8192x64_0_1 s)
          (Host.dotGeneral (F := Ideal) (φ₁ := .f32) (φ₂ := .f32) dot_S8192x64_S64x64_S8192x64_1_0_0_1_n_n none X Wt) := by
  subst hs hX hW
  after_results

/-- Entry (i,f): s_i times the sum over k of X(i,k) * Wt(k,f). -/
theorem hostOps1_v3_apply (W : Valuation τ sig (Elt Ideal)) (s : FVec Ideal S8192x1 .f32) (X : FVec Ideal S8192x64 .f32)
    (Wt : FVec Ideal S64x64 .f32) (hs : W (Proc.devRef .tc main_v0) = s) (hX : W (Proc.devRef .tc main_arg0) = X)
    (hW : W (Proc.devRef .tc main_arg2) = Wt) (i : Fin 8192) (f : Fin 64) :
    (StableHlo.after (hostOps1 (F := Ideal)) W (Proc.devRef .tc main_v3) : FVec Ideal S8192x64 .f32) (ix2 i f)
      = s (ix2 i (0 : Fin 1)) * ∑ k : Fin 64, X (ix2 i k) * Wt (ix2 k f) := by
  refine (congrFun (hostOps1_v3_term W s X Wt hs hX hW) (ix2 i f)).trans ?_
  show broadcastInDim S8192x64 ![0, 1] bcast_S8192x1_S8192x64_0_1 s (ix2 i f)
      * Host.dotGeneral (F := Ideal) (φ₁ := .f32) (φ₂ := .f32) dot_S8192x64_S64x64_S8192x64_1_0_0_1_n_n none X Wt (ix2 i f) = _
  rw [spread_apply (by decide) s bcast_S8192x1_S8192x64_0_1 i f]
  refine congrArg (s (ix2 i (0 : Fin 1)) * ·) ?_
  exact Cert.Lib.PlainProduct.dotGeneral_apply (d := dot_S8192x64_S64x64_S8192x64_1_0_0_1_n_n)
    ⟨rfl, rfl, rfl, rfl, rfl, rfl⟩ rfl rfl none _ X Wt i f

/-- The same with the product named as in the specification. -/
theorem hostOps1_v3_apply_times (W : Valuation τ sig (Elt Ideal)) (s : FVec Ideal S8192x1 .f32) (X : FVec Ideal S8192x64 .f32)
    (Wt : FVec Ideal S64x64 .f32) (hs : W (Proc.devRef .tc main_v0) = s) (hX : W (Proc.devRef .tc main_arg0) = X)
    (hW : W (Proc.devRef .tc main_arg2) = Wt) (i : Fin 8192) (f : Fin 64) :
    (StableHlo.after (hostOps1 (F := Ideal)) W (Proc.devRef .tc main_v3) : FVec Ideal S8192x64 .f32) (ix2 i f)
      = s (ix2 i (0 : Fin 1)) * Cert.Spec.times X Wt (ix2 i f) :=
  hostOps1_v3_apply W s X Wt hs hX hW i f

/-- The first stretch writes only its own three buffers. -/
theorem hostOps1_keeps (W : Valuation τ sig (Elt Ideal)) (r : Ref sig .tc) (h : r ∉ (hostOps1_W : List (Ref sig .tc))) :
    StableHlo.after (hostOps1 (F := Ideal)) W (Proc.devRef .tc r) = W (Proc.devRef .tc r) :=
  StableHlo.after_of_writes_sub hostOps1 W hostOps1_writes h

theorem hostOps1_arg0 (W : Valuation τ sig (Elt Ideal)) :
    StableHlo.after (hostOps1 (F := Ideal)) W (Proc.devRef .tc main_arg0) = W (Proc.devRef .tc main_arg0) :=
  hostOps1_keeps W main_arg0 (by decide)
theorem hostOps1_arg1 (W : Valuation τ sig (Elt Ideal)) :
    StableHlo.after (hostOps1 (F := Ideal)) W (Proc.devRef .tc main_arg1) = W (Proc.devRef .tc main_arg1) :=
  hostOps1_keeps W main_arg1 (by decide)
theorem hostOps1_arg2 (W : Valuation τ sig (Elt Ideal)) :
    StableHlo.after (hostOps1 (F := Ideal)) W (Proc.devRef .tc main_arg2) = W (Proc.devRef .tc main_arg2) :=
  hostOps1_keeps W main_arg2 (by decide)
theorem hostOps1_arg3 (W : Valuation τ sig (Elt Ideal)) :
    StableHlo.after (hostOps1 (F := Ideal)) W (Proc.devRef .tc main_arg3) = W (Proc.devRef .tc main_arg3) :=
  hostOps1_keeps W main_arg3 (by decide)
theorem hostOps1_v0 (W : Valuation τ sig (Elt Ideal)) :
    StableHlo.after (hostOps1 (F := Ideal)) W (Proc.devRef .tc main_v0) = W (Proc.devRef .tc main_v0) :=
  hostOps1_keeps W main_v0 (by decide)

/-! ## The stretch before the second pass -/

/-- What the second stretch leaves in its last buffer, as one term of the scaling column s, the features X and the
    weights Wt it finds. -/
theorem hostOps2_v7_term (W : Valuation τ sig (Elt Ideal)) (s : FVec Ideal S8192x1 .f32) (X : FVec Ideal S8192x64 .f32)
    (Wt : FVec Ideal S64x16 .f32) (hs : W (Proc.devRef .tc main_v0) = s) (hX : W (Proc.devRef .tc main_v4) = X)
    (hW : W (Proc.devRef .tc main_arg3) = Wt) :
    (StableHlo.after (hostOps2 (F := Ideal)) W (Proc.devRef .tc main_v7) : FVec Ideal S8192x16 .f32)
      = mulf (broadcastInDim S8192x16 ![0, 1] bcast_S8192x1_S8192x16_0_1 s)
          (Host.dotGeneral (F := Ideal) (φ₁ := .f32) (φ₂ := .f32) dot_S8192x64_S64x16_S8192x16_1_0_0_1_n_n none X Wt) := by
  subst hs hX hW
  after_results

/-- Entry (i,f): s_i times the sum over k of X(i,k) * Wt(k,f). -/
theorem hostOps2_v7_apply (W : Valuation τ sig (Elt Ideal)) (s : FVec Ideal S8192x1 .f32) (X : FVec Ideal S8192x64 .f32)
    (Wt : FVec Ideal S64x16 .f32) (hs : W (Proc.devRef .tc main_v0) = s) (hX : W (Proc.devRef .tc main_v4) = X)
    (hW : W (Proc.devRef .tc main_arg3) = Wt) (i : Fin 8192) (f : Fin 16) :
    (StableHlo.after (hostOps2 (F := Ideal)) W (Proc.devRef .tc main_v7) : FVec Ideal S8192x16 .f32) (ix2 i f)
      = s (ix2 i (0 : Fin 1)) * ∑ k : Fin 64, X (ix2 i k) * Wt (ix2 k f) := by
  refine (congrFun (hostOps2_v7_term W s X Wt hs hX hW) (ix2 i f)).trans ?_
  show broadcastInDim S8192x16 ![0, 1] bcast_S8192x1_S8192x16_0_1 s (ix2 i f)
      * Host.dotGeneral (F := Ideal) (φ₁ := .f32) (φ₂ := .f32) dot_S8192x64_S64x16_S8192x16_1_0_0_1_n_n none X Wt (ix2 i f) = _
  rw [spread_apply (by decide) s bcast_S8192x1_S8192x16_0_1 i f]
  refine congrArg (s (ix2 i (0 : Fin 1)) * ·) ?_
  exact Cert.Lib.PlainProduct.dotGeneral_apply (d := dot_S8192x64_S64x16_S8192x16_1_0_0_1_n_n)
    ⟨rfl, rfl, rfl, rfl, rfl, rfl⟩ rfl rfl none _ X Wt i f

/-- The same with the product named as in the specification. -/
theorem hostOps2_v7_apply_times (W : Valuation τ sig (Elt Ideal)) (s : FVec Ideal S8192x1 .f32) (X : FVec Ideal S8192x64 .f32)
    (Wt : FVec Ideal S64x16 .f32) (hs : W (Proc.devRef .tc main_v0) = s) (hX : W (Proc.devRef .tc main_v4) = X)
    (hW : W (Proc.devRef .tc main_arg3) = Wt) (i : Fin 8192) (f : Fin 16) :
    (StableHlo.after (hostOps2 (F := Ideal)) W (Proc.devRef .tc main_v7) : FVec Ideal S8192x16 .f32) (ix2 i f)
      = s (ix2 i (0 : Fin 1)) * Cert.Spec.times X Wt (ix2 i f) :=
  hostOps2_v7_apply W s X Wt hs hX hW i f

/-- The second stretch writes only its own three buffers. -/
theorem hostOps2_keeps (W : Valuation τ sig (Elt Ideal)) (r : Ref sig .tc) (h : r ∉ (hostOps2_W : List (Ref sig .tc))) :
    StableHlo.after (hostOps2 (F := Ideal)) W (Proc.devRef .tc r) = W (Proc.devRef .tc r) :=
  StableHlo.after_of_writes_sub hostOps2 W hostOps2_writes h

theorem hostOps2_arg0 (W : Valuation τ sig (Elt Ideal)) :
    StableHlo.after (hostOps2 (F := Ideal)) W (Proc.devRef .tc main_arg0) = W (Proc.devRef .tc main_arg0) :=
  hostOps2_keeps W main_arg0 (by decide)
theorem hostOps2_arg1 (W : Valuation τ sig (Elt Ideal)) :
    StableHlo.after (hostOps2 (F := Ideal)) W (Proc.devRef .tc main_arg1) = W (Proc.devRef .tc main_arg1) :=
  hostOps2_keeps W main_arg1 (by decide)
theorem hostOps2_arg2 (W : Valuation τ sig (Elt Ideal)) :
    StableHlo.after (hostOps2 (F := Ideal)) W (Proc.devRef .tc main_arg2) = W (Proc.devRef .tc main_arg2) :=
  hostOps2_keeps W main_arg2 (by decide)
theorem hostOps2_arg3 (W : Valuation τ sig (Elt Ideal)) :
    StableHlo.after (hostOps2 (F := Ideal)) W (Proc.devRef .tc main_arg3) = W (Proc.devRef .tc main_arg3) :=
  hostOps2_keeps W main_arg3 (by decide)
theorem hostOps2_v0 (W : Valuation τ sig (Elt Ideal)) :
    StableHlo.after (hostOps2 (F := Ideal)) W (Proc.devRef .tc main_v0) = W (Proc.devRef .tc main_v0) :=
  hostOps2_keeps W main_v0 (by decide)
theorem hostOps2_v4 (W : Valuation τ sig (Elt Ideal)) :
    StableHlo.after (hostOps2 (F := Ideal)) W (Proc.devRef .tc main_v4) = W (Proc.devRef .tc main_v4) :=
  hostOps2_keeps W main_v4 (by decide)

end Cert.DeviceValue

end
-- ==== Proof.BoundaryValues.lean ====
/-
  What the idealized kernel's buffers hold between its segments, in terms of the four argument arrays H, adj, W1, W2:
  after region 0 the scaling column s = Spec.scale adj; after the first host stretch the scaled first-layer features
  s_i · (H · W1)(i, f); the argument arrays and the scaling column are never written again.
-/
import proofs.«169160_j37220186587698_1_alg».proof.Proof.KernelIdeal.Run
import proofs.«169160_j37220186587698_1_alg».proof.Proof.DeviceRegion0
import proofs.«169160_j37220186587698_1_alg».proof.Proof.DeviceHost

noncomputable section

open Idealize.ShloMosaic Idealize.ShloMosaic.TcCoe Idealize.SL.Sem Idealize.ShloMosaic.ValueIdx
open scoped BigOperators

namespace Cert.DeviceValue

open Cert.KernelIdeal Cert.KernelIdeal.Gen Cert.KernelIdeal.Frames

variable (m : (ℓ : Loc nD τ sig) → Buf (Elt Ideal) ℓ) (c : Dev nD)

/-- The four argument arrays at launch. -/
abbrev argH : FVec Ideal S8192x64 .f32 := m ((c : Thread nD τ).loc main_arg0)
abbrev argAdj : FVec Ideal S8192x8192 .f32 := m ((c : Thread nD τ).loc main_arg1)
abbrev argW1 : FVec Ideal S64x64 .f32 := m ((c : Thread nD τ).loc main_arg2)
abbrev argW2 : FVec Ideal S64x16 .f32 := m ((c : Thread nD τ).loc main_arg3)

/-! ## After region 0 -/

theorem W1_v0 : W1 m c (Proc.devRef .tc main_v0) = G0 (argAdj m c) :=
  (W1_arr m c 1).trans (final0 (E0 m) c)
theorem W1_arg0 : W1 m c (Proc.devRef .tc main_arg0) = argH m c := W1_of_ne m c main_arg0 (by decide)
theorem W1_arg1 : W1 m c (Proc.devRef .tc main_arg1) = argAdj m c :=
  (W1_arr m c 0).trans (((dat0 (E0 m) c).arrAt_in 0 rfl _).trans (A_eq0 (E0 m) c 0))
theorem W1_arg2 : W1 m c (Proc.devRef .tc main_arg2) = argW1 m c := W1_of_ne m c main_arg2 (by decide)
theorem W1_arg3 : W1 m c (Proc.devRef .tc main_arg3) = argW2 m c := W1_of_ne m c main_arg3 (by decide)

/-! ## After the first host stretch -/

theorem W2_v0 : W2 m c (Proc.devRef .tc main_v0) = G0 (argAdj m c) := (hostOps1_v0 (W1 m c)).trans (W1_v0 m c)
theorem W2_arg1 : W2 m c (Proc.devRef .tc main_arg1) = argAdj m c := (hostOps1_arg1 (W1 m c)).trans (W1_arg1 m c)
theorem W2_arg3 : W2 m c (Proc.devRef .tc main_arg3) = argW2 m c := (hostOps1_arg3 (W1 m c)).trans (W1_arg3 m c)

/-- The scaled first-layer features. -/
theorem W2_v3_apply (i : Fin 8192) (f : Fin 64) :
    (W2 m c (Proc.devRef .tc main_v3) : FVec Ideal S8192x64 .f32) (ix2 i f)
      = Cert.Spec.scale (argAdj m c) i * Cert.Spec.times (argH m c) (argW1 m c) (ix2 i f) :=
  (hostOps1_v3_apply_times (W1 m c) _ _ _ (W1_v0 m c) (W1_arg0 m c) (W1_arg2 m c) i f).trans rfl

end Cert.DeviceValue

end
-- ==== Proof.JoinSpec.lean ====
/-
  From a layer written over the stored arrays to the specification's layer. The kernel's aggregation reads the scaling
  column s (an [8192, 1] array) and the already scaled features xs(c, f) = s_c · X(c, f); substituting both gives
  s_i · (Σ_c adj(i, c) · (s_c · X(c, f)) + s_i · X(i, f)), the specification's propagation step.
-/
import proofs.«169160_j37220186587698_1_alg».proof.Proof.Spec

noncomputable section

open Idealize.ShloMosaic Idealize.ShloMosaic.ValueIdx
open scoped BigOperators

namespace Cert.DeviceValue

/-- An array whose entries are the aggregation of the scaled features is the specification's propagation step. -/
theorem layer_of {n : ℕ} (a : (⟨2, ![8192, 8192]⟩ : Shape).Idx → EReal) (xs : (⟨2, ![8192, n]⟩ : Shape).Idx → EReal)
    (s : (⟨2, ![8192, 1]⟩ : Shape).Idx → EReal) (X : (⟨2, ![8192, n]⟩ : Shape).Idx → EReal)
    (hs : ∀ i : Fin 8192, s (ix2 i (0 : Fin 1)) = Cert.Spec.scale a i)
    (hxs : ∀ (i : Fin 8192) (f : Fin n), xs (ix2 i f) = Cert.Spec.scale a i * X (ix2 i f))
    (Z : (⟨2, ![8192, n]⟩ : Shape).Idx → EReal)
    (hZ : ∀ (i : Fin 8192) (f : Fin n), Z (ix2 i f) = s (ix2 i (0 : Fin 1)) * ((∑ c : Fin 8192, a (ix2 i c) * xs (ix2 c f)) + xs (ix2 i f))) :
    Z = Cert.Spec.layer a (Cert.Spec.scale a) X := by
  funext j
  obtain ⟨i, f, rfl⟩ : ∃ (i : Fin 8192) (f : Fin n), j = ix2 i f := ⟨j 0, j 1, eq_ix2 j⟩
  rw [hZ, Cert.Spec.layer_ix2, hs, hxs]
  congr 2
  exact Finset.sum_congr rfl fun c _ => by rw [hxs]

/-- The rectified aggregation of the scaled first-layer features is the specification's hidden layer. -/
theorem hidden_of (a : (⟨2, ![8192, 8192]⟩ : Shape).Idx → EReal) (xs : (⟨2, ![8192, 64]⟩ : Shape).Idx → EReal)
    (s : (⟨2, ![8192, 1]⟩ : Shape).Idx → EReal) (H : (⟨2, ![8192, 64]⟩ : Shape).Idx → EReal) (W1 : (⟨2, ![64, 64]⟩ : Shape).Idx → EReal)
    (hs : ∀ i : Fin 8192, s (ix2 i (0 : Fin 1)) = Cert.Spec.scale a i)
    (hxs : ∀ (i : Fin 8192) (f : Fin 64), xs (ix2 i f) = Cert.Spec.scale a i * Cert.Spec.times H W1 (ix2 i f))
    (Y : (⟨2, ![8192, 64]⟩ : Shape).Idx → EReal)
    (hY : ∀ (i : Fin 8192) (f : Fin 64), Y (ix2 i f) = max (s (ix2 i (0 : Fin 1)) * ((∑ c : Fin 8192, a (ix2 i c) * xs (ix2 c f)) + xs (ix2 i f))) 0) :
    Y = Cert.Spec.hidden H a W1 := by
  funext j
  obtain ⟨i, f, rfl⟩ : ∃ (i : Fin 8192) (f : Fin 64), j = ix2 i f := ⟨j 0, j 1, eq_ix2 j⟩
  rw [hY, Cert.Spec.hidden_ix2, Cert.Spec.layer_ix2, hs, hxs]
  congr 3
  exact Finset.sum_congr rfl fun c _ => by rw [hxs]

end Cert.DeviceValue

end
-- ==== Proof.DeviceR1Pieces.lean ====
/-
  What the body of the first aggregation pass leaves, case by case.

  At a first column tile the scratch block is cleared and then gains the tile's product; at a middle tile it gains the
  tile's product; at the last tile it gains the tile's product and the output block receives the finished rows. Each
  is one store covering its whole block, so the block holds exactly the stored value.
-/
import proofs.«169160_j37220186587698_1_alg».proof.Proof.KernelIdeal.R1Frame
import Idealize.ShloMosaic.Lib.Pipeline.Value

set_option maxRecDepth 16384

noncomputable section

namespace Cert.DeviceValue

open Cert.KernelIdeal Cert.KernelIdeal.Gen Cert.KernelIdeal.Frames
open Idealize.ShloMosaic Idealize.ShloMosaic.TcCoe Idealize.ShloMosaic.Tactic Idealize.SL.Sem

variable {F : FTy → Type} [FloatOps F]

/-- The offsets of a whole block. -/
theorem hz1 : (![0, 0] : Fin 2 → Nat) = fun _ => 0 := funext fun a => by fin_cases a <;> rfl

/-- After a first column tile the scratch block is the cleared block plus the tile's product. -/
theorem sout1_A_0_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : cond1_0 i) (hc1 : ¬cond1_1 i) (x0 : Vec F S2048x2048 .f32) (x1 : Vec F S2048x64 .f32) (x2 : Vec F S2048x64 .f32) (x3 : Vec F S2048x1 .f32) :
    sout1_A_0 c i arg2 harg2 arg3 harg3 arg4 harg4 arg5 harg5 arg6 harg6 arg7 harg7 hc0 hc1 x0 x1 x2 x3 = k1_pay2 x0 x1 k1_pay1 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S2048x64) hz1, View.readCov_unit_zero (S := S2048x64) _ hz1]
  simp only [View.readAt_eq_ld, harg2.read_unread, harg3.read_unread, View.ld_unit_zero (S := S2048x2048) hz1,
    View.ld_unit_zero (S := S2048x64) hz1]

/-- After a middle column tile the scratch block is what it was plus the tile's product. -/
theorem sout1_B_0_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : ¬cond1_1 i) (x0 : Vec F S2048x2048 .f32) (x1 : Vec F S2048x64 .f32) (x2 : Vec F S2048x64 .f32) (x3 : Vec F S2048x1 .f32) (xs0 : Vec F S2048x64 .f32) :
    sout1_B_0 c i arg2 harg2 arg3 harg3 arg4 harg4 arg5 harg5 arg6 harg6 arg7 harg7 hc0 hc1 x0 x1 x2 x3 xs0 = k1_pay2 x0 x1 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  rw [View.canon_unit_zero hz1]
  simp only [View.readAt_eq_ld, harg2.read_unread, harg3.read_unread, harg7.read_unread,
    View.ld_unit_zero (S := S2048x2048) hz1, View.ld_unit_zero (S := S2048x64) hz1]

/-- After the last column tile the scratch block is what it was plus the tile's product. -/
theorem sout1_C_0_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) :
    sout1_C_0 c i arg2 harg2 arg3 harg3 arg4 harg4 arg5 harg5 arg6 harg6 arg7 harg7 hc0 hc1 x0 x1 x2 x3 xs0 = k1_pay2 x0 x1 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hz1]
  simp only [View.readAt_eq_ld, harg2.read_unread, harg3.read_unread, harg7.read_unread,
    View.ld_unit_zero (S := S2048x2048) hz1, View.ld_unit_zero (S := S2048x64) hz1]

/-- After the last column tile the output block is the finished rows, computed from the scratch block just written. -/
theorem out1_C_4_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i) (hc1 : cond1_1 i) (x0 : Vec F S2048x2048 .f32) (x1 : Vec F S2048x64 .f32) (x2 : Vec F S2048x64 .f32) (x3 : Vec F S2048x1 .f32) (xs0 : Vec F S2048x64 .f32) :
    out1_C_4 c i arg2 harg2 arg3 harg3 arg4 harg4 arg5 harg5 arg6 harg6 arg7 harg7 hc0 hc1 x0 x1 x2 x3 xs0 = k1_pay3 (k1_pay2 x0 x1 xs0) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz1]
  simp only [View.readAt_eq_ld, harg2.read_unread, harg3.read_unread, harg4.read_unread, harg5.read_unread, harg7.read_unread,
    View.ld_unit_zero (S := S2048x2048) hz1, View.ld_unit_zero (S := S2048x64) hz1, View.ld_unit_zero (S := S2048x1) hz1]
  rw [View.readCov_unit_zero (S := S2048x64) _ hz1]

end Cert.DeviceValue

end
-- ==== Proof.DeviceR1Closed.lean ====
/-
  The first aggregation pass, point by point, in closed form.

  The 16 points are the four column tiles of each of the four block rows, in order. The scratch block after a point
  is the tile's product added to the scratch block of the point before, or to the cleared block at a first column
  tile; and at a last column tile the output block is the finished rows computed from the scratch block just written.
-/
import proofs.«169160_j37220186587698_1_alg».proof.Proof.DeviceR1Pieces

set_option maxRecDepth 16384

noncomputable section

namespace Cert.DeviceValue

open Cert.KernelIdeal Cert.KernelIdeal.Gen Cert.KernelIdeal.Frames
open Idealize.ShloMosaic Idealize.ShloMosaic.TcCoe Idealize.SL.Sem

variable {F : FTy → Type} [FloatOps F]
variable (V : (c : Dev nD) → (b : Ref sig .tc) → Buf (Elt F) ((c : Thread nD τ).loc b))

/-! ## One point -/

/-- At a first column tile the scratch block restarts from the cleared block. -/
theorem snd1_A (c : Dev nD) (t : Fin cfg1.N) (h0 : t.val % 4 = 0) (h1 : ¬t.val % 4 = 3) :
    (outsAt1 V c t.val t.isLt).2 = k1_pay2 (iblk1 V c 0 t) (iblk1 V c 1 t) k1_pay1 := by
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- At a middle column tile it continues from the point before. -/
theorem snd1_B (c : Dev nD) (t : Fin cfg1.N) (h0 : ¬t.val % 4 = 0) (h1 : ¬t.val % 4 = 3) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_B V c t h0 h1]
  dsimp only
  exact sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- At the last column tile likewise, -/
theorem snd1_C (c : Dev nD) (t : Fin cfg1.N) (h0 : ¬t.val % 4 = 0) (h1 : t.val % 4 = 3) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_C V c t h0 h1]
  dsimp only
  exact sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-- and the output block is the finished rows of the scratch block just written. -/
theorem fst1_C (c : Dev nD) (t : Fin cfg1.N) (h0 : ¬t.val % 4 = 0) (h1 : t.val % 4 = 3) :
    (outsAt1 V c t.val t.isLt).1
      = k1_pay3 (k1_pay2 (iblk1 V c 0 t) (iblk1 V c 1 t) (outsAt1 V c (t.val - 1) (Nat.lt_of_le_of_lt (Nat.sub_le _ _) t.isLt)).2) (iblk1 V c 2 t) (iblk1 V c 3 t) := by
  rw [outsAt1_C V c t h0 h1]
  dsimp only
  exact out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-! ## All points -/

/-- The scratch block after position n. -/
def acc1 (c : Dev nD) : (n : ℕ) → n < cfg1.N → Vec F S2048x64 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At a first column tile the scratch block restarts from the cleared block. -/
theorem acc1_first (c : Dev nD) (n : ℕ) (hn : n < cfg1.N) (h0 : n % 4 = 0) :
    acc1 V c n hn = k1_pay2 (iblk1 V c 0 ⟨n, hn⟩) (iblk1 V c 1 ⟨n, hn⟩) k1_pay1 := by
  cases n with
  | zero => rfl
  | succ n => exact if_pos h0

/-- At any other tile it continues from the point before. -/
theorem acc1_next (c : Dev nD) (n : ℕ) (hn : n + 1 < cfg1.N) (h0 : ¬(n + 1) % 4 = 0) :
    acc1 V c (n + 1) hn
      = k1_pay2 (iblk1 V c 0 ⟨n + 1, hn⟩) (iblk1 V c 1 ⟨n + 1, hn⟩) (acc1 V c n (Nat.lt_of_succ_lt hn)) :=
  if_neg h0

/-- The scratch block the frame's proof data carries is this one. -/
theorem outsAt1_snd (c : Dev nD) : ∀ (n : ℕ) (hn : n < cfg1.N), (outsAt1 V c n hn).2 = acc1 V c n hn
  | 0, hn => snd1_A V c ⟨0, hn⟩ (Nat.zero_mod 4) (fun h => absurd ((Nat.zero_mod 4).symm.trans h) (by decide))
  | n + 1, hn => by
    by_cases h0 : (n + 1) % 4 = 0
    · have h1 : ¬(n + 1) % 4 = 3 := by omega
      exact (snd1_A V c ⟨n + 1, hn⟩ h0 h1).trans (acc1_first V c (n + 1) hn h0).symm
    · have ih := outsAt1_snd c n (Nat.lt_of_succ_lt hn)
      refine Eq.trans ?_ (acc1_next V c n hn h0).symm
      by_cases h1 : (n + 1) % 4 = 3
      · exact (snd1_C V c ⟨n + 1, hn⟩ h0 h1).trans (congrArg (k1_pay2 (iblk1 V c 0 ⟨n + 1, hn⟩) (iblk1 V c 1 ⟨n + 1, hn⟩)) ih)
      · exact (snd1_B V c ⟨n + 1, hn⟩ h0 h1).trans (congrArg (k1_pay2 (iblk1 V c 0 ⟨n + 1, hn⟩) (iblk1 V c 1 ⟨n + 1, hn⟩)) ih)

/-- At a last column tile the output block is the finished rows of the scratch block just written. -/
theorem outsAt1_fst (c : Dev nD) (t : Fin cfg1.N) (h1 : t.val % 4 = 3) :
    (outsAt1 V c t.val t.isLt).1 = k1_pay3 (acc1 V c t.val t.isLt) (iblk1 V c 2 t) (iblk1 V c 3 t) := by
  have h0 : ¬t.val % 4 = 0 := by omega
  rw [← outsAt1_snd V c t.val t.isLt, snd1_C V c t h0 h1]
  exact fst1_C V c t h0 h1

end Cert.DeviceValue

end
-- ==== Proof.DevicePayload1.lean ====
/-
  The first aggregation pass (64 feature columns), block by block, on the extended reals.

  For a block of 2048 rows: the accumulator starts at 0; each column tile adds, to entry (r,f) of the accumulator, the
  product of row r of the 2048 by 2048 adjacency tile with column f of the matching 2048 rows of the scaled features
  (the change of format before the product is the identity on the extended reals); and at the last tile the scaled
  features of the block's own rows are added, the row's scale multiplies the sum, and negative entries become 0.
-/
import proofs.«169160_j37220186587698_1_alg».proof.Proof.Gen.KernelIdeal.Skeleton
import proofs.«169160_j37220186587698_1_alg».proof.Proof.Spec
import proofs.«169160_j37220186587698_1_alg».proof.Proof.LibAxisReductions
import proofs.«169160_j37220186587698_1_alg».proof.Proof.LibPlainProduct
import Idealize.ShloMosaic.Lib.Pipeline.Value

noncomputable section

namespace Cert.DeviceValue

open Cert.KernelIdeal Cert.KernelIdeal.Gen Idealize.ShloMosaic Idealize.ShloMosaic.ValueIdx
open scoped BigOperators

/-- The accumulator's first value: 0 at every entry. -/
theorem k1_pay1_eq (j : S2048x64.Idx) : k1_pay1 (F := Ideal) j = 0 := by
  unfold k1_pay1
  refine (congrFun (shapeCast_self _ _) j).trans ?_
  exact Ideal.ofBits_zero_f32

/-- One column tile: entry (r,f) of the accumulator gains row r of the adjacency tile times column f of the features. -/
theorem k1_pay2_eq (v3 : Vec Ideal S2048x2048 .f32) (v5 : Vec Ideal S2048x64 .f32) (v8 : Vec Ideal S2048x64 .f32)
    (r : Fin 2048) (f : Fin 64) :
    k1_pay2 (F := Ideal) v3 v5 v8 (ix2 r f) = v8 (ix2 r f) + ∑ k : Fin 2048, v3 (ix2 r k) * v5 (ix2 k f) := by
  unfold k1_pay2
  refine (congrFun (shapeCast_self _ _) _).trans ?_
  refine congrArg (v8 (ix2 r f) + ·) ?_
  refine (Cert.Lib.PlainProduct.matmul_zero_apply (d := dot_S2048x2048_S2048x64_S2048x64_1_0_0_1_n_n)
    ⟨rfl, rfl, rfl, rfl, rfl, rfl⟩ rfl rfl none _ _ r f).trans ?_
  refine Finset.sum_congr rfl fun k _ => ?_
  exact congrArg (v3 (ix2 r k) * ·) (congrFun (shapeCast_self v5 _) (ix2 k f))

/-- The last step: the row's scale times (accumulator plus the row's own scaled features), negative entries to 0. -/
theorem k1_pay3_eq (v17 : Vec Ideal S2048x64 .f32) (v18 : Vec Ideal S2048x64 .f32) (v21 : Vec Ideal S2048x1 .f32)
    (r : Fin 2048) (f : Fin 64) :
    k1_pay3 (F := Ideal) v17 v18 v21 (ix2 r f)
      = max (v21 (ix2 r (0 : Fin 1)) * (v17 (ix2 r f) + v18 (ix2 r f))) 0 := by
  unfold k1_pay3
  have hb : broadcastTo S2048x64 (shapeCast S2048x1 v21 shapeCasts_S2048x1_S2048x1) broadcasts_S2048x1_S2048x64 (ix2 r f)
      = v21 (ix2 r (0 : Fin 1)) :=
    (Cert.Lib.AxisReductions.broadcastTo_a1_ab_apply _ _ r f).trans (congrFun (shapeCast_self v21 _) _)
  have hc : shapeCast S2048x64 v18 shapeCasts_S2048x64_S2048x64 (ix2 r f) = v18 (ix2 r f) :=
    congrFun (shapeCast_self v18 _) _
  show max (broadcastTo S2048x64 (shapeCast S2048x1 v21 shapeCasts_S2048x1_S2048x1) broadcasts_S2048x1_S2048x64 (ix2 r f)
      * (v17 (ix2 r f) + shapeCast S2048x64 v18 shapeCasts_S2048x64_S2048x64 (ix2 r f))) (Ideal.ofBits .f32 0x00000000#32) = _
  rw [hb, hc, Ideal.ofBits_zero_f32]

end Cert.DeviceValue

end
-- ==== Proof.DeviceRegion1.lean ====
/-
  What the first aggregation pass leaves in its result array.

  The array is written in four blocks of 2048 rows, each at the last of its four column tiles. By then the scratch
  block holds, from 0, the four tile products added in order, which is the whole sum over the 8192 columns; the
  block's own rows of the scaled features are added, the row's scale multiplies, and negative entries become 0.
  Row r of block row i is row 2048 * i + r of the array, and the four blocks fill the array.
-/
import proofs.«169160_j37220186587698_1_alg».proof.Proof.DeviceR1Closed
import proofs.«169160_j37220186587698_1_alg».proof.Proof.DevicePayload1
import proofs.«169160_j37220186587698_1_alg».proof.Proof.DeviceSums

set_option maxRecDepth 16384

noncomputable section

namespace Cert.DeviceValue

open Cert.KernelIdeal Cert.KernelIdeal.Gen Cert.KernelIdeal.Frames
open Idealize.ShloMosaic Idealize.ShloMosaic.TcCoe Idealize.ShloMosaic.ValueIdx Idealize.SL.Sem
open Idealize.ShloMosaic.Pipeline (Dat)
open scoped BigOperators

/-! ## The result as one function of the arrays the pass reads -/

/-- The first layer's result as one function of the adjacency matrix a, the scaled features xs and the scaling
    column s: entry (i,f) is max (s_i * ((sum over c of a(i,c) * xs(c,f)) + xs(i,f)), 0). -/
def G1 (a : FVec Ideal S8192x8192 .f32) (xs : FVec Ideal S8192x64 .f32) (s : FVec Ideal S8192x1 .f32) :
    FVec Ideal S8192x64 .f32 :=
  fun j => max (s (ix2 (⟨(j 0).val, (j 0).isLt⟩ : Fin 8192) (0 : Fin 1))
    * ((∑ c : Fin 8192, a (ix2 (⟨(j 0).val, (j 0).isLt⟩ : Fin 8192) c) * xs (ix2 c (⟨(j 1).val, (j 1).isLt⟩ : Fin 64)))
      + xs (ix2 (⟨(j 0).val, (j 0).isLt⟩ : Fin 8192) (⟨(j 1).val, (j 1).isLt⟩ : Fin 64)))) 0

theorem G1_ix2 (a : FVec Ideal S8192x8192 .f32) (xs : FVec Ideal S8192x64 .f32) (s : FVec Ideal S8192x1 .f32)
    (i : Fin 8192) (f : Fin 64) :
    G1 a xs s (ix2 i f)
      = max (s (ix2 i (0 : Fin 1)) * ((∑ c : Fin 8192, a (ix2 i c) * xs (ix2 c f)) + xs (ix2 i f))) 0 := rfl

/-! ## Where each window's block sits -/

/-- The windows' block indices at point t = 4 * (block row) + (column tile), decided over the 16 points. -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

section
variable {F : FTy → Type} [FloatOps F]
variable (V : (c : Dev nD) → (b : Ref sig .tc) → Buf (Elt F) ((c : Thread nD τ).loc b))

/-- The adjacency block at point t, entry (r,k): the matrix at row 2048 * (t / 4) + r, column 2048 * (t % 4) + k. -/
theorem iblk1_0_apply (c : Dev nD) (a : FVec F S8192x8192 .f32) (ha : V c main_arg1 = a) (t : Fin cfg1.N)
    (r k : Fin 2048) (p q : Fin 8192) (hp : p.val = 2048 * (t.val / 4) + r.val) (hq : q.val = 2048 * (t.val % 4) + k.val) :
    iblk1 V c 0 t (ix2 r k) = a (ix2 p q) := by
  obtain ⟨e0, e1, -⟩ := idx_facts1 t
  subst ha
  unfold iblk1
  rw [View.read_apply]
  show V c main_arg1 _ = V c main_arg1 _
  congr 1
  funext x; apply Fin.ext
  match x with
  | ⟨0, _⟩ => show win1_0.index t (0 : Fin 2) * 2048 + 1 * r.val = p.val; omega
  | ⟨1, _⟩ => show win1_0.index t (1 : Fin 2) * 2048 + 1 * k.val = q.val; omega

/-- The scaled features' block read by the column tile, entry (k,f): the array at row 2048 * (t % 4) + k. -/
theorem iblk1_1_apply (c : Dev nD) (xs : FVec F S8192x64 .f32) (hxs : V c main_v3 = xs) (t : Fin cfg1.N)
    (k : Fin 2048) (f : Fin 64) (q : Fin 8192) (hq : q.val = 2048 * (t.val % 4) + k.val) :
    iblk1 V c 1 t (ix2 k f) = xs (ix2 q f) := by
  obtain ⟨-, -, e0, e1, -⟩ := idx_facts1 t
  subst hxs
  unfold iblk1
  rw [View.read_apply]
  show V c main_v3 _ = V c main_v3 _
  congr 1
  funext x; apply Fin.ext
  match x with
  | ⟨0, _⟩ => show win1_1.index t (0 : Fin 2) * 2048 + 1 * k.val = q.val; omega
  | ⟨1, _⟩ => show win1_1.index t (1 : Fin 2) * 64 + 1 * f.val = f.val; omega

/-- The scaled features' block read by the block row, entry (r,f): the array at row 2048 * (t / 4) + r. -/
theorem iblk1_2_apply (c : Dev nD) (xs : FVec F S8192x64 .f32) (hxs : V c main_v3 = xs) (t : Fin cfg1.N)
    (r : Fin 2048) (f : Fin 64) (p : Fin 8192) (hp : p.val = 2048 * (t.val / 4) + r.val) :
    iblk1 V c 2 t (ix2 r f) = xs (ix2 p f) := by
  obtain ⟨-, -, -, -, e0, e1, -⟩ := idx_facts1 t
  subst hxs
  unfold iblk1
  rw [View.read_apply]
  show V c main_v3 _ = V c main_v3 _
  congr 1
  funext x; apply Fin.ext
  match x with
  | ⟨0, _⟩ => show win1_2.index t (0 : Fin 2) * 2048 + 1 * r.val = p.val; omega
  | ⟨1, _⟩ => show win1_2.index t (1 : Fin 2) * 64 + 1 * f.val = f.val; omega

/-- The scaling column's block, entry (r,0): the column at row 2048 * (t / 4) + r. -/
theorem iblk1_3_apply (c : Dev nD) (s : FVec F S8192x1 .f32) (hs : V c main_v0 = s) (t : Fin cfg1.N)
    (r : Fin 2048) (p : Fin 8192) (hp : p.val = 2048 * (t.val / 4) + r.val) :
    iblk1 V c 3 t (ix2 r (0 : Fin 1)) = s (ix2 p (0 : Fin 1)) := by
  obtain ⟨-, -, -, -, -, -, e0, e1, -⟩ := idx_facts1 t
  subst hs
  unfold iblk1
  rw [View.read_apply]
  show V c main_v0 _ = V c main_v0 _
  congr 1
  funext x; apply Fin.ext
  match x with
  | ⟨0, _⟩ => show win1_3.index t (0 : Fin 2) * 2048 + 1 * r.val = p.val; omega
  | ⟨1, _⟩ => show win1_3.index t (1 : Fin 2) * 1 + 1 * 0 = 0; omega

end

/-! ## The scratch block after a block row's four tiles -/

/-- Four tile products added in order to the cleared block, entry (r,f). -/
theorem chain1 (A0 A1 A2 A3 : Vec Ideal S2048x2048 .f32) (X0 X1 X2 X3 : Vec Ideal S2048x64 .f32)
    (r : Fin 2048) (f : Fin 64) :
    k1_pay2 (F := Ideal) A3 X3 (k1_pay2 A2 X2 (k1_pay2 A1 X1 (k1_pay2 A0 X0 (k1_pay1 (F := Ideal))))) (ix2 r f)
      = (((0 + ∑ k : Fin 2048, A0 (ix2 r k) * X0 (ix2 k f)) + ∑ k : Fin 2048, A1 (ix2 r k) * X1 (ix2 k f))
          + ∑ k : Fin 2048, A2 (ix2 r k) * X2 (ix2 k f)) + ∑ k : Fin 2048, A3 (ix2 r k) * X3 (ix2 k f) := by
  rw [k1_pay2_eq, k1_pay2_eq, k1_pay2_eq, k1_pay2_eq, k1_pay1_eq]

variable (V : (c : Dev nD) → (b : Ref sig .tc) → Buf (Elt Ideal) ((c : Thread nD τ).loc b))

/-- After the last tile of a block row the scratch block holds, at (r,f), the whole sum over the 8192 columns of
    a(row, c) * xs(c, f), the row being 2048 * (block row) + r. -/
theorem acc1_apply (c : Dev nD) (a : FVec Ideal S8192x8192 .f32) (xs : FVec Ideal S8192x64 .f32)
    (ha : V c main_arg1 = a) (hxs : V c main_v3 = xs) (m : ℕ) (hm : m + 3 < cfg1.N) (h0 : m % 4 = 0)
    (r : Fin 2048) (f : Fin 64) (p : Fin 8192) (hp : p.val = 2048 * (m / 4) + r.val) :
    acc1 V c (m + 3) hm (ix2 r f) = ∑ c' : Fin 8192, a (ix2 p c') * xs (ix2 c' f) := by
  have h2 : m + 2 < cfg1.N := by omega
  have h1 : m + 1 < cfg1.N := by omega
  have hm0 : m < cfg1.N := by omega
  have e3 : acc1 V c (m + 3) hm = k1_pay2 (iblk1 V c 0 ⟨m + 3, hm⟩) (iblk1 V c 1 ⟨m + 3, hm⟩) (acc1 V c (m + 2) h2) :=
    acc1_next V c (m + 2) hm (by omega)
  have e2 : acc1 V c (m + 2) h2 = k1_pay2 (iblk1 V c 0 ⟨m + 2, h2⟩) (iblk1 V c 1 ⟨m + 2, h2⟩) (acc1 V c (m + 1) h1) :=
    acc1_next V c (m + 1) h2 (by omega)
  have e1 : acc1 V c (m + 1) h1 = k1_pay2 (iblk1 V c 0 ⟨m + 1, h1⟩) (iblk1 V c 1 ⟨m + 1, h1⟩) (acc1 V c m hm0) :=
    acc1_next V c m h1 (by omega)
  have e0 : acc1 V c m hm0 = k1_pay2 (iblk1 V c 0 ⟨m, hm0⟩) (iblk1 V c 1 ⟨m, hm0⟩) (k1_pay1 (F := Ideal)) :=
    acc1_first V c m hm0 h0
  rw [e3, e2, e1, e0]
  refine (chain1 (iblk1 V c 0 ⟨m, hm0⟩) (iblk1 V c 0 ⟨m + 1, h1⟩) (iblk1 V c 0 ⟨m + 2, h2⟩) (iblk1 V c 0 ⟨m + 3, hm⟩)
    (iblk1 V c 1 ⟨m, hm0⟩) (iblk1 V c 1 ⟨m + 1, h1⟩) (iblk1 V c 1 ⟨m + 2, h2⟩) (iblk1 V c 1 ⟨m + 3, hm⟩) r f).trans ?_
  have hA0 : ∀ k : Fin 2048, iblk1 V c 0 ⟨m, hm0⟩ (ix2 r k) = a (ix2 p (tileEntry 0 k)) := fun k =>
    iblk1_0_apply V c a ha ⟨m, hm0⟩ r k p (tileEntry 0 k) (by show p.val = 2048 * (m / 4) + r.val; omega)
      (by show 2048 * 0 + k.val = 2048 * (m % 4) + k.val; omega)
  have hA1 : ∀ k : Fin 2048, iblk1 V c 0 ⟨m + 1, h1⟩ (ix2 r k) = a (ix2 p (tileEntry 1 k)) := fun k =>
    iblk1_0_apply V c a ha ⟨m + 1, h1⟩ r k p (tileEntry 1 k) (by show p.val = 2048 * ((m + 1) / 4) + r.val; omega)
      (by show 2048 * 1 + k.val = 2048 * ((m + 1) % 4) + k.val; omega)
  have hA2 : ∀ k : Fin 2048, iblk1 V c 0 ⟨m + 2, h2⟩ (ix2 r k) = a (ix2 p (tileEntry 2 k)) := fun k =>
    iblk1_0_apply V c a ha ⟨m + 2, h2⟩ r k p (tileEntry 2 k) (by show p.val = 2048 * ((m + 2) / 4) + r.val; omega)
      (by show 2048 * 2 + k.val = 2048 * ((m + 2) % 4) + k.val; omega)
  have hA3 : ∀ k : Fin 2048, iblk1 V c 0 ⟨m + 3, hm⟩ (ix2 r k) = a (ix2 p (tileEntry 3 k)) := fun k =>
    iblk1_0_apply V c a ha ⟨m + 3, hm⟩ r k p (tileEntry 3 k) (by show p.val = 2048 * ((m + 3) / 4) + r.val; omega)
      (by show 2048 * 3 + k.val = 2048 * ((m + 3) % 4) + k.val; omega)
  have hX0 : ∀ k : Fin 2048, iblk1 V c 1 ⟨m, hm0⟩ (ix2 k f) = xs (ix2 (tileEntry 0 k) f) := fun k =>
    iblk1_1_apply V c xs hxs ⟨m, hm0⟩ k f (tileEntry 0 k) (by show 2048 * 0 + k.val = 2048 * (m % 4) + k.val; omega)
  have hX1 : ∀ k : Fin 2048, iblk1 V c 1 ⟨m + 1, h1⟩ (ix2 k f) = xs (ix2 (tileEntry 1 k) f) := fun k =>
    iblk1_1_apply V c xs hxs ⟨m + 1, h1⟩ k f (tileEntry 1 k) (by show 2048 * 1 + k.val = 2048 * ((m + 1) % 4) + k.val; omega)
  have hX2 : ∀ k : Fin 2048, iblk1 V c 1 ⟨m + 2, h2⟩ (ix2 k f) = xs (ix2 (tileEntry 2 k) f) := fun k =>
    iblk1_1_apply V c xs hxs ⟨m + 2, h2⟩ k f (tileEntry 2 k) (by show 2048 * 2 + k.val = 2048 * ((m + 2) % 4) + k.val; omega)
  have hX3 : ∀ k : Fin 2048, iblk1 V c 1 ⟨m + 3, hm⟩ (ix2 k f) = xs (ix2 (tileEntry 3 k) f) := fun k =>
    iblk1_1_apply V c xs hxs ⟨m + 3, hm⟩ k f (tileEntry 3 k) (by show 2048 * 3 + k.val = 2048 * ((m + 3) % 4) + k.val; omega)
  simp only [hA0, hA1, hA2, hA3, hX0, hX1, hX2, hX3]
  exact sum_tiles_from_zero (fun c' => a (ix2 p c') * xs (ix2 c' f))

/-! ## The output block at a block row's last tile -/

/-- The output block at a last column tile, entry (r,f): the result's entry at row 2048 * (block row) + r. -/
theorem block1_value (c : Dev nD) (a : FVec Ideal S8192x8192 .f32) (xs : FVec Ideal S8192x64 .f32)
    (s : FVec Ideal S8192x1 .f32) (ha : V c main_arg1 = a) (hxs : V c main_v3 = xs) (hs : V c main_v0 = s)
    (t : Fin cfg1.N) (h3 : t.val % 4 = 3) (r : Fin 2048) (f : Fin 64) (p : Fin 8192)
    (hp : p.val = 2048 * (t.val / 4) + r.val) :
    (outsAt1 V c t.val t.isLt).1 (ix2 r f) = G1 a xs s (ix2 p f) := by
  refine (congrFun (outsAt1_fst V c t h3) (ix2 r f)).trans ?_
  refine (k1_pay3_eq (acc1 V c t.val t.isLt) (iblk1 V c 2 t) (iblk1 V c 3 t) r f).trans ?_
  obtain ⟨n, hn⟩ := t
  obtain ⟨m, rfl⟩ : ∃ m, n = m + 3 := ⟨n - 3, by dsimp only at h3; omega⟩
  have h0 : m % 4 = 0 := by dsimp only at h3; omega
  rw [acc1_apply V c a xs ha hxs m hn h0 r f p (by dsimp only at hp; omega),
    iblk1_2_apply V c xs hxs ⟨m + 3, hn⟩ r f p hp, iblk1_3_apply V c s hs ⟨m + 3, hn⟩ r p hp]
  rfl

/-! ## From the blocks to the array -/

/-- What a writing point writes back is its block of the result. -/
theorem flushed1_eq (c : Dev nD) (t : Fin cfg1.N) (hf : (cfg1.win 4).flush t = true) :
    (dat1 V c).flushed 4 t
      = ((cfg1.win 4).blk t).view.read (Elt Ideal) (G1 (V c main_arg1) (V c main_v3) (V c main_v0)) := by
  have h3 : t.val % 4 = 3 := (flush1_4 t).mp hf
  have hN : t.val < 16 := lt_of_lt_of_eq t.isLt (show cfg1.N = 16 from N_1)
  obtain ⟨-, -, -, -, -, -, -, -, e0, e1⟩ := idx_facts1 t
  show (cfg1.win 4).cut (grid1.coords t) ((dat1 V c).after 4 t) = _
  rw [after1_4]
  funext y
  obtain ⟨r, f, rfl⟩ : ∃ (r : Fin 2048) (f : Fin 64), y = ix2 r f := ⟨y 0, y 1, eq_ix2 y⟩
  have hr := r.isLt
  have hemb : ((cfg1.win 4).blk t).view.emb (ix2 r f)
      = ix2 (⟨2048 * (t.val / 4) + r.val, by omega⟩ : Fin 8192) f := by
    funext x; apply Fin.ext
    match x with
    | ⟨0, _⟩ => show win1_4.index t (0 : Fin 2) * 2048 + 1 * r.val = 2048 * (t.val / 4) + r.val; omega
    | ⟨1, _⟩ => show win1_4.index t (1 : Fin 2) * 64 + 1 * f.val = f.val; omega
  show (outsAt1 V c t.val t.isLt).1 (ix2 r f)
    = G1 (V c main_arg1) (V c main_v3) (V c main_v0) (((cfg1.win 4).blk t).view.emb (ix2 r f))
  rw [hemb]
  exact block1_value V c _ _ _ rfl rfl rfl t h3 r f _ rfl

/-- An index of the array is in point t's block iff each coordinate is in the block's range on its axis. -/
theorem mem_blk1 (t : Fin cfg1.N) (i : S8192x64.Idx) :
    i ∈ ((cfg1.win 4).blk t).view.set
      ↔ ∀ x : Fin 2, win1_4.index t x * S2048x64.size x ≤ (i x).val
          ∧ (i x).val < win1_4.index t x * S2048x64.size x + S2048x64.size x := by
  show i ∈ ((View.whole main_v4).slice (win1_4.rect t)).set ↔ _
  rw [View.set_slice_whole, Rect.mem_set_unit]
  exact Iff.rfl

/-- Every index of the array is in the block of its block row's last point. -/
theorem cover1 (i : S8192x64.Idx) :
    ∃ t : Fin cfg1.N, (cfg1.win 4).flush t = true ∧ i ∈ ((cfg1.win 4).blk t).view.set := by
  have hi0 : (i 0).val < 8192 := (i 0).isLt
  have hi1 : (i 1).val < 64 := (i 1).isLt
  have hN : cfg1.N = 16 := N_1
  let t : Fin cfg1.N := ⟨4 * ((i 0).val / 2048) + 3, by omega⟩
  have ht : t.val = 4 * ((i 0).val / 2048) + 3 := rfl
  obtain ⟨-, -, -, -, -, -, -, -, e0, e1⟩ := idx_facts1 t
  refine ⟨t, (flush1_4 t).mpr (by omega), ?_⟩
  rw [mem_blk1]
  intro x
  match x with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * 64 ≤ (i 1).val ∧ (i 1).val < win1_4.index t (1 : Fin 2) * 64 + 64
    omega

/-- The result array after the pass. -/
theorem final1 (c : Dev nD) :
    (dat1 V c).arrAt 4 cfg1.N = G1 (V c main_arg1) (V c main_v3) (V c main_v0) :=
  (dat1 V c).arrAt_eq_of_cover 4 (G1 (V c main_arg1) (V c main_v3) (V c main_v0)) (flushed1_eq V c) cover1

end Cert.DeviceValue

end
-- ==== Proof.DeviceR2Pieces.lean ====
/-
  What the body of the second aggregation pass leaves, case by case.

  At a first column tile the scratch block is cleared and then gains the tile's product; at a middle tile it gains the
  tile's product; at the last tile it gains the tile's product and the output block receives the finished rows. Each
  is one store covering its whole block, so the block holds exactly the stored value.
-/
import proofs.«169160_j37220186587698_1_alg».proof.Proof.KernelIdeal.R2Frame
import Idealize.ShloMosaic.Lib.Pipeline.Value

set_option maxRecDepth 16384

noncomputable section

namespace Cert.DeviceValue

open Cert.KernelIdeal Cert.KernelIdeal.Gen Cert.KernelIdeal.Frames
open Idealize.ShloMosaic Idealize.ShloMosaic.TcCoe Idealize.ShloMosaic.Tactic Idealize.SL.Sem

variable {F : FTy → Type} [FloatOps F]

/-- The offsets of a whole block. -/
theorem hz2 : (![0, 0] : Fin 2 → Nat) = fun _ => 0 := funext fun a => by fin_cases a <;> rfl

/-- After a first column tile the scratch block is the cleared block plus the tile's product. -/
theorem sout2_A_0_eq (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : cond2_0 i) (hc1 : ¬cond2_1 i) (x0 : Vec F S2048x2048 .f32) (x1 : Vec F S2048x16 .f32) (x2 : Vec F S2048x16 .f32) (x3 : Vec F S2048x1 .f32) :
    sout2_A_0 c i arg2 harg2 arg3 harg3 arg4 harg4 arg5 harg5 arg6 harg6 arg7 harg7 hc0 hc1 x0 x1 x2 x3 = k2_pay2 x0 x1 k2_pay1 := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S2048x16) hz2, View.readCov_unit_zero (S := S2048x16) _ hz2]
  simp only [View.readAt_eq_ld, harg2.read_unread, harg3.read_unread, View.ld_unit_zero (S := S2048x2048) hz2,
    View.ld_unit_zero (S := S2048x16) hz2]

/-- After a middle column tile the scratch block is what it was plus the tile's product. -/
theorem sout2_B_0_eq (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : ¬cond2_1 i) (x0 : Vec F S2048x2048 .f32) (x1 : Vec F S2048x16 .f32) (x2 : Vec F S2048x16 .f32) (x3 : Vec F S2048x1 .f32) (xs0 : Vec F S2048x16 .f32) :
    sout2_B_0 c i arg2 harg2 arg3 harg3 arg4 harg4 arg5 harg5 arg6 harg6 arg7 harg7 hc0 hc1 x0 x1 x2 x3 xs0 = k2_pay2 x0 x1 xs0 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  rw [View.canon_unit_zero hz2]
  simp only [View.readAt_eq_ld, harg2.read_unread, harg3.read_unread, harg7.read_unread,
    View.ld_unit_zero (S := S2048x2048) hz2, View.ld_unit_zero (S := S2048x16) hz2]

/-- After the last column tile the scratch block is what it was plus the tile's product. -/
theorem sout2_C_0_eq (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) :
    sout2_C_0 c i arg2 harg2 arg3 harg3 arg4 harg4 arg5 harg5 arg6 harg6 arg7 harg7 hc0 hc1 x0 x1 x2 x3 xs0 = k2_pay2 x0 x1 xs0 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg7.read_unread,
    View.ld_unit_zero (S := S2048x2048) hz2, View.ld_unit_zero (S := S2048x16) hz2]

/-- After the last column tile the output block is the finished rows, computed from the scratch block just written. -/
theorem out2_C_4_eq (c : Dev nD) (i : grid2.Coords) (arg2 : Memref sig .tc .vmem S2048x2048 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S2048x16 .f32) (harg6 : arg6.IsWhole) (arg7 : Memref sig .tc .vmem S2048x16 .f32) (harg7 : arg7.IsWhole) (hc0 : ¬cond2_0 i) (hc1 : cond2_1 i) (x0 : Vec F S2048x2048 .f32) (x1 : Vec F S2048x16 .f32) (x2 : Vec F S2048x16 .f32) (x3 : Vec F S2048x1 .f32) (xs0 : Vec F S2048x16 .f32) :
    out2_C_4 c i arg2 harg2 arg3 harg3 arg4 harg4 arg5 harg5 arg6 harg6 arg7 harg7 hc0 hc1 x0 x1 x2 x3 xs0 = k2_pay3 (k2_pay2 x0 x1 xs0) x2 x3 := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg7.read_unread,
    View.ld_unit_zero (S := S2048x2048) hz2, View.ld_unit_zero (S := S2048x16) hz2, View.ld_unit_zero (S := S2048x1) hz2]
  rw [View.readCov_unit_zero (S := S2048x16) _ hz2]

end Cert.DeviceValue

end
-- ==== Proof.DeviceR2Closed.lean ====
/-
  The second aggregation pass, point by point, in closed form.

  The 16 points are the four column tiles of each of the four block rows, in order. The scratch block after a point
  is the tile's product added to the scratch block of the point before, or to the cleared block at a first column
  tile; and at a last column tile the output block is the finished rows computed from the scratch block just written.
-/
import proofs.«169160_j37220186587698_1_alg».proof.Proof.DeviceR2Pieces

set_option maxRecDepth 16384

noncomputable section

namespace Cert.DeviceValue

open Cert.KernelIdeal Cert.KernelIdeal.Gen Cert.KernelIdeal.Frames
open Idealize.ShloMosaic Idealize.ShloMosaic.TcCoe Idealize.SL.Sem

variable {F : FTy → Type} [FloatOps F]
variable (V : (c : Dev nD) → (b : Ref sig .tc) → Buf (Elt F) ((c : Thread nD τ).loc b))

/-! ## One point -/

/-- At a first column tile the scratch block restarts from the cleared block. -/
theorem snd2_A (c : Dev nD) (t : Fin cfg2.N) (h0 : t.val % 4 = 0) (h1 : ¬t.val % 4 = 3) :
    (outsAt2 V c t.val t.isLt).2 = k2_pay2 (iblk2 V c 0 t) (iblk2 V c 1 t) k2_pay1 := by
  rw [outsAt2_A V c t h0 h1]
  dsimp only
  exact sout2_A_0_eq c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)

/-- At a middle column tile it continues from the point before. -/
theorem snd2_B (c : Dev nD) (t : Fin cfg2.N) (h0 : ¬t.val % 4 = 0) (h1 : ¬t.val % 4 = 3) :
    (outsAt2 V c t.val t.isLt).2 = k2_pay2 (iblk2 V c 0 t) (iblk2 V c 1 t) (outsAt2 V c (t.val - 1) (Nat.lt_of_le_of_lt (Nat.sub_le _ _) t.isLt)).2 := by
  rw [outsAt2_B V c t h0 h1]
  dsimp only
  exact sout2_B_0_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2

/-- At the last column tile likewise, -/
theorem snd2_C (c : Dev nD) (t : Fin cfg2.N) (h0 : ¬t.val % 4 = 0) (h1 : t.val % 4 = 3) :
    (outsAt2 V c t.val t.isLt).2 = k2_pay2 (iblk2 V c 0 t) (iblk2 V c 1 t) (outsAt2 V c (t.val - 1) (Nat.lt_of_le_of_lt (Nat.sub_le _ _) t.isLt)).2 := by
  rw [outsAt2_C V c t h0 h1]
  dsimp only
  exact sout2_C_0_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

/-- and the output block is the finished rows of the scratch block just written. -/
theorem fst2_C (c : Dev nD) (t : Fin cfg2.N) (h0 : ¬t.val % 4 = 0) (h1 : t.val % 4 = 3) :
    (outsAt2 V c t.val t.isLt).1
      = k2_pay3 (k2_pay2 (iblk2 V c 0 t) (iblk2 V c 1 t) (outsAt2 V c (t.val - 1) (Nat.lt_of_le_of_lt (Nat.sub_le _ _) t.isLt)).2) (iblk2 V c 2 t) (iblk2 V c 3 t) := by
  rw [outsAt2_C V c t h0 h1]
  dsimp only
  exact out2_C_4_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

/-! ## All points -/

/-- The scratch block after position n. -/
def acc2 (c : Dev nD) : (n : ℕ) → n < cfg2.N → Vec F S2048x16 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (acc2 c n (Nat.lt_of_succ_lt hn))

/-- At a first column tile the scratch block restarts from the cleared block. -/
theorem acc2_first (c : Dev nD) (n : ℕ) (hn : n < cfg2.N) (h0 : n % 4 = 0) :
    acc2 V c n hn = k2_pay2 (iblk2 V c 0 ⟨n, hn⟩) (iblk2 V c 1 ⟨n, hn⟩) k2_pay1 := by
  cases n with
  | zero => rfl
  | succ n => exact if_pos h0

/-- At any other tile it continues from the point before. -/
theorem acc2_next (c : Dev nD) (n : ℕ) (hn : n + 1 < cfg2.N) (h0 : ¬(n + 1) % 4 = 0) :
    acc2 V c (n + 1) hn
      = k2_pay2 (iblk2 V c 0 ⟨n + 1, hn⟩) (iblk2 V c 1 ⟨n + 1, hn⟩) (acc2 V c n (Nat.lt_of_succ_lt hn)) :=
  if_neg h0

/-- The scratch block the frame's proof data carries is this one. -/
theorem outsAt2_snd (c : Dev nD) : ∀ (n : ℕ) (hn : n < cfg2.N), (outsAt2 V c n hn).2 = acc2 V c n hn
  | 0, hn => snd2_A V c ⟨0, hn⟩ (Nat.zero_mod 4) (fun h => absurd ((Nat.zero_mod 4).symm.trans h) (by decide))
  | n + 1, hn => by
    by_cases h0 : (n + 1) % 4 = 0
    · have h1 : ¬(n + 1) % 4 = 3 := by omega
      exact (snd2_A V c ⟨n + 1, hn⟩ h0 h1).trans (acc2_first V c (n + 1) hn h0).symm
    · have ih := outsAt2_snd c n (Nat.lt_of_succ_lt hn)
      refine Eq.trans ?_ (acc2_next V c n hn h0).symm
      by_cases h1 : (n + 1) % 4 = 3
      · exact (snd2_C V c ⟨n + 1, hn⟩ h0 h1).trans (congrArg (k2_pay2 (iblk2 V c 0 ⟨n + 1, hn⟩) (iblk2 V c 1 ⟨n + 1, hn⟩)) ih)
      · exact (snd2_B V c ⟨n + 1, hn⟩ h0 h1).trans (congrArg (k2_pay2 (iblk2 V c 0 ⟨n + 1, hn⟩) (iblk2 V c 1 ⟨n + 1, hn⟩)) ih)

/-- At a last column tile the output block is the finished rows of the scratch block just written. -/
theorem outsAt2_fst (c : Dev nD) (t : Fin cfg2.N) (h1 : t.val % 4 = 3) :
    (outsAt2 V c t.val t.isLt).1 = k2_pay3 (acc2 V c t.val t.isLt) (iblk2 V c 2 t) (iblk2 V c 3 t) := by
  have h0 : ¬t.val % 4 = 0 := by omega
  rw [← outsAt2_snd V c t.val t.isLt, snd2_C V c t h0 h1]
  exact fst2_C V c t h0 h1

end Cert.DeviceValue

end
-- ==== Proof.LibLastAxisMax.lean ====
/-
  The maximum along the last axis of a matrix, read at a row, on the extended reals: the device's lane maximum and the
  host's reduction by a maximum are both the running maximum, from the starting value, of the row's entries.
  Stated for any extents.
-/
import Idealize.ShloMosaic.Lib.ValueIdx
import Idealize.ShloMosaic.Lib.Pipeline.Value
import Idealize.ShloMosaic.PureOps.Ideal.Laws

namespace Cert.Lib.LastAxisMax

open Idealize.ShloMosaic Idealize.ShloMosaic.ValueIdx

/-- Over row i of a matrix reduced along its columns, putting column k back gives the index (i, k). -/
theorem lift_row {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- The device's maximum along the columns of a matrix, at row i: the running maximum, from the accumulator's value, of
    the entries (i, k). -/
theorem max_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (i : Fin m) :
    multiReduction .maximumf [1] ⟨1, ![m]⟩ src acc h hφ hacc (ix1 i)
      = (Finset.univ : Finset (Fin n)).fold max (Ideal.ofBits .f32 acc) (fun k => src (ix2 i k)) := by
  refine (Ideal.multiReduction_maximumf_single src acc h hφ hacc (ix1 i)).trans ?_
  exact congrArg (fun f => Finset.fold max (Ideal.ofBits .f32 acc) f (Finset.univ : Finset (Fin n)))
    (funext fun k => congrArg src (lift_row h i k))

/-- The host's reduction by a maximum along the columns of a matrix, at row i: the running maximum, from the initial
    value, of the entries (i, k). -/
theorem hostMax_cols_apply {m n : ℕ} {u : Shape} (x : FVec Ideal ⟨2, ![m, n]⟩ .f32) (init : u.Idx → Ideal .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (i : Fin m) :
    Host.reduce FloatOps.maximumf x init h' hu (ix1 i)
      = (Finset.univ : Finset (Fin n)).fold max (init (Shape.Idx.first hu)) (fun k => x (ix2 i k)) := by
  refine (Host.reduce_eq_fold_single FloatOps.maximumf x init h' h hu (ix1 i)).trans ?_
  exact congrArg (fun f => Finset.fold max (init (Shape.Idx.first hu)) f (Finset.univ : Finset (Fin n)))
    (funext fun k => congrArg x (lift_row h i k))

end Cert.Lib.LastAxisMax
-- ==== Proof.DevicePayload2.lean ====
/-
  The second aggregation pass (16 class columns), block by block, on the extended reals.

  For a block of 2048 rows: the accumulator starts at 0; each column tile adds, to entry (r,f) of the accumulator, the
  product of row r of the 2048 by 2048 adjacency tile with column f of the matching 2048 rows of the scaled features
  (the change of format before the product is the identity on the extended reals); and at the last tile the scaled
  features of the block's own rows are added and the row's scale multiplies the sum, which gives the row's 16 class
  scores; the row's maximum (the running maximum from minus infinity) is subtracted, the exponential taken, and each
  exponential divided by the sum of the row's 16.
-/
import proofs.«169160_j37220186587698_1_alg».proof.Proof.Gen.KernelIdeal.Skeleton
import proofs.«169160_j37220186587698_1_alg».proof.Proof.Spec
import proofs.«169160_j37220186587698_1_alg».proof.Proof.LibAxisReductions
import proofs.«169160_j37220186587698_1_alg».proof.Proof.LibColumnCast
import proofs.«169160_j37220186587698_1_alg».proof.Proof.LibLastAxisMax
import proofs.«169160_j37220186587698_1_alg».proof.Proof.LibPlainProduct
import Idealize.ShloMosaic.Lib.Pipeline.Value

noncomputable section

namespace Cert.DeviceValue

open Cert.KernelIdeal Cert.KernelIdeal.Gen Idealize.ShloMosaic Idealize.ShloMosaic.ValueIdx
open scoped BigOperators

/-! ## The accumulation -/

/-- The accumulator's first value: 0 at every entry. -/
theorem k2_pay1_eq (j : S2048x16.Idx) : k2_pay1 (F := Ideal) j = 0 := by
  unfold k2_pay1
  refine (congrFun (shapeCast_self _ _) j).trans ?_
  exact Ideal.ofBits_zero_f32

/-- One column tile: entry (r,f) of the accumulator gains row r of the adjacency tile times column f of the features. -/
theorem k2_pay2_eq (v3 : Vec Ideal S2048x2048 .f32) (v5 : Vec Ideal S2048x16 .f32) (v8 : Vec Ideal S2048x16 .f32)
    (r : Fin 2048) (f : Fin 16) :
    k2_pay2 (F := Ideal) v3 v5 v8 (ix2 r f) = v8 (ix2 r f) + ∑ k : Fin 2048, v3 (ix2 r k) * v5 (ix2 k f) := by
  unfold k2_pay2
  refine (congrFun (shapeCast_self _ _) _).trans ?_
  refine congrArg (v8 (ix2 r f) + ·) ?_
  refine (Cert.Lib.PlainProduct.matmul_zero_apply (d := dot_S2048x2048_S2048x16_S2048x16_1_0_0_1_n_n)
    ⟨rfl, rfl, rfl, rfl, rfl, rfl⟩ rfl rfl none _ _ r f).trans ?_
  refine Finset.sum_congr rfl fun k _ => ?_
  exact congrArg (v3 (ix2 r k) * ·) (congrFun (shapeCast_self v5 _) (ix2 k f))

/-! ## The class scores of a block -/

/-- The block's class scores as the vector operations spell them. -/
def scaledSum (v17 : Vec Ideal S2048x16 .f32) (v18 : Vec Ideal S2048x16 .f32) (v21 : Vec Ideal S2048x1 .f32) :
    FVec Ideal S2048x16 .f32 :=
  mulf (broadcastTo S2048x16 (shapeCast S2048x1 v21 shapeCasts_S2048x1_S2048x1) broadcasts_S2048x1_S2048x16)
    (addf v17 (shapeCast S2048x16 v18 shapeCasts_S2048x16_S2048x16))

/-- Score (r,f): the row's scale times (accumulator plus the row's own scaled features). -/
def blockScore (v17 : Vec Ideal S2048x16 .f32) (v18 : Vec Ideal S2048x16 .f32) (v21 : Vec Ideal S2048x1 .f32)
    (r : Fin 2048) (f : Fin 16) : EReal :=
  v21 (ix2 r (0 : Fin 1)) * (v17 (ix2 r f) + v18 (ix2 r f))

/-- The maximum of row r's 16 scores, from minus infinity. -/
def blockMax (v17 : Vec Ideal S2048x16 .f32) (v18 : Vec Ideal S2048x16 .f32) (v21 : Vec Ideal S2048x1 .f32)
    (r : Fin 2048) : EReal :=
  (Finset.univ : Finset (Fin 16)).fold max ⊥ (fun k => blockScore v17 v18 v21 r k)

theorem scaledSum_apply (v17 : Vec Ideal S2048x16 .f32) (v18 : Vec Ideal S2048x16 .f32) (v21 : Vec Ideal S2048x1 .f32)
    (r : Fin 2048) (f : Fin 16) : scaledSum v17 v18 v21 (ix2 r f) = blockScore v17 v18 v21 r f := by
  have hb : broadcastTo S2048x16 (shapeCast S2048x1 v21 shapeCasts_S2048x1_S2048x1) broadcasts_S2048x1_S2048x16 (ix2 r f)
      = v21 (ix2 r (0 : Fin 1)) :=
    (Cert.Lib.AxisReductions.broadcastTo_a1_ab_apply _ _ r f).trans (congrFun (shapeCast_self v21 _) _)
  have hc : shapeCast S2048x16 v18 shapeCasts_S2048x16_S2048x16 (ix2 r f) = v18 (ix2 r f) :=
    congrFun (shapeCast_self v18 _) _
  show broadcastTo S2048x16 (shapeCast S2048x1 v21 shapeCasts_S2048x1_S2048x1) broadcasts_S2048x1_S2048x16 (ix2 r f)
      * (v17 (ix2 r f) + shapeCast S2048x16 v18 shapeCasts_S2048x16_S2048x16 (ix2 r f)) = _
  rw [hb, hc]; rfl

/-! ## Row maxima and row sums held as columns spread over the 16 lanes -/

/-- The lane maximum of each row, as a column spread back over the 16 columns. -/
def rowMaxCol (Z : FVec Ideal S2048x16 .f32) : FVec Ideal S2048x16 .f32 :=
  broadcastTo S2048x16
    (shapeCast S2048x1 (multiReduction (F := Ideal) .maximumf [1] S2048 Z 0xFF800000#32 reduces_S2048x16_S2048 (.inl rfl) rfl)
      shapeCasts_S2048_S2048x1) broadcasts_S2048x1_S2048x16

theorem rowMaxCol_apply (Z : FVec Ideal S2048x16 .f32) (r : Fin 2048) (f : Fin 16) :
    rowMaxCol Z (ix2 r f) = (Finset.univ : Finset (Fin 16)).fold max ⊥ (fun k => Z (ix2 r k)) := by
  unfold rowMaxCol
  refine (Cert.Lib.AxisReductions.broadcastTo_a1_ab_apply _ _ r f).trans ?_
  refine (Cert.Lib.ColumnCast.shapeCast_a_a1_apply _ _ r 0).trans ?_
  refine (Cert.Lib.LastAxisMax.max_cols_apply Z _ _ _ _ r).trans ?_
  rw [Cert.Spec.ofBits_negInf]

/-- The lane sum of each row, as a column spread back over the 16 columns. -/
def rowSumCol (E : FVec Ideal S2048x16 .f32) : FVec Ideal S2048x16 .f32 :=
  broadcastTo S2048x16
    (shapeCast S2048x1 (multiReduction (F := Ideal) .add [1] S2048 E 0x00000000#32 reduces_S2048x16_S2048 (.inl rfl) rfl)
      shapeCasts_S2048_S2048x1) broadcasts_S2048x1_S2048x16

theorem rowSumCol_apply (E : FVec Ideal S2048x16 .f32) (r : Fin 2048) (f : Fin 16) :
    rowSumCol E (ix2 r f) = ∑ k : Fin 16, E (ix2 r k) := by
  unfold rowSumCol
  refine (Cert.Lib.AxisReductions.broadcastTo_a1_ab_apply _ _ r f).trans ?_
  refine (Cert.Lib.ColumnCast.shapeCast_a_a1_apply _ _ r 0).trans ?_
  exact Cert.Lib.AxisReductions.sum_cols_apply E _ _ _ _ r

/-! ## The softmax of a block -/

/-- The softmax of a block of scores, entry (r,f). -/
theorem softmaxBlock_apply (Z : FVec Ideal S2048x16 .f32) (r : Fin 2048) (f : Fin 16) :
    divf (exp (subf Z (rowMaxCol Z))) (rowSumCol (exp (subf Z (rowMaxCol Z)))) (ix2 r f)
      = Ideal.div (Ideal.exp (Z (ix2 r f) - (Finset.univ : Finset (Fin 16)).fold max ⊥ (fun k => Z (ix2 r k))))
          (∑ k : Fin 16, Ideal.exp (Z (ix2 r k) - (Finset.univ : Finset (Fin 16)).fold max ⊥ (fun k => Z (ix2 r k)))) := by
  have hE : ∀ k : Fin 16, exp (subf Z (rowMaxCol Z)) (ix2 r k)
      = Ideal.exp (Z (ix2 r k) - (Finset.univ : Finset (Fin 16)).fold max ⊥ (fun k => Z (ix2 r k))) := fun k => by
    show Ideal.exp (Z (ix2 r k) - rowMaxCol Z (ix2 r k)) = _
    rw [rowMaxCol_apply]
  show Ideal.div (exp (subf Z (rowMaxCol Z)) (ix2 r f)) (rowSumCol (exp (subf Z (rowMaxCol Z))) (ix2 r f)) = _
  rw [rowSumCol_apply, hE f]
  exact congrArg (Ideal.div _) (Finset.sum_congr rfl fun k _ => hE k)

/-- The last step's value is the softmax of the block's scores. -/
theorem k2_pay3_unfold (v17 : Vec Ideal S2048x16 .f32) (v18 : Vec Ideal S2048x16 .f32) (v21 : Vec Ideal S2048x1 .f32) :
    k2_pay3 (F := Ideal) v17 v18 v21
      = divf (exp (subf (scaledSum v17 v18 v21) (rowMaxCol (scaledSum v17 v18 v21))))
          (rowSumCol (exp (subf (scaledSum v17 v18 v21) (rowMaxCol (scaledSum v17 v18 v21))))) := rfl

/-- The last step, entry (r,f): exp (score - row maximum) over the sum of the row's 16 such exponentials. -/
theorem k2_pay3_eq (v17 : Vec Ideal S2048x16 .f32) (v18 : Vec Ideal S2048x16 .f32) (v21 : Vec Ideal S2048x1 .f32)
    (r : Fin 2048) (f : Fin 16) :
    k2_pay3 (F := Ideal) v17 v18 v21 (ix2 r f)
      = Ideal.div (Ideal.exp (blockScore v17 v18 v21 r f - blockMax v17 v18 v21 r))
          (∑ k : Fin 16, Ideal.exp (blockScore v17 v18 v21 r k - blockMax v17 v18 v21 r)) := by
  rw [k2_pay3_unfold, softmaxBlock_apply]
  simp only [scaledSum_apply]
  rfl

end Cert.DeviceValue

end
-- ==== Proof.DeviceRegion2.lean ====
/-
  What the second aggregation pass leaves in its result array.

  The array is written in four blocks of 2048 rows, each at the last of its four column tiles. By then the scratch
  block holds, from 0, the four tile products added in order, which is the whole sum over the 8192 columns; the
  block's own rows of the scaled features are added, the row's scale multiplies, and the softmax over the 16 classes is taken.
  Row r of block row i is row 2048 * i + r of the array, and the four blocks fill the array.
-/
import proofs.«169160_j37220186587698_1_alg».proof.Proof.DeviceR2Closed
import proofs.«169160_j37220186587698_1_alg».proof.Proof.DevicePayload2
import proofs.«169160_j37220186587698_1_alg».proof.Proof.DeviceSums

set_option maxRecDepth 16384

noncomputable section

namespace Cert.DeviceValue

open Cert.KernelIdeal Cert.KernelIdeal.Gen Cert.KernelIdeal.Frames
open Idealize.ShloMosaic Idealize.ShloMosaic.TcCoe Idealize.ShloMosaic.ValueIdx Idealize.SL.Sem
open Idealize.ShloMosaic.Pipeline (Dat)
open scoped BigOperators

/-! ## The result as one function of the arrays the pass reads -/

/-- The class scores before the softmax as one function of the adjacency matrix a, the scaled features xs and the
    scaling column s: entry (i,f) is s_i * ((sum over c of a(i,c) * xs(c,f)) + xs(i,f)). -/
def Z2 (a : FVec Ideal S8192x8192 .f32) (xs : FVec Ideal S8192x16 .f32) (s : FVec Ideal S8192x1 .f32) :
    FVec Ideal S8192x16 .f32 :=
  fun j => s (ix2 (⟨(j 0).val, (j 0).isLt⟩ : Fin 8192) (0 : Fin 1))
    * ((∑ c : Fin 8192, a (ix2 (⟨(j 0).val, (j 0).isLt⟩ : Fin 8192) c) * xs (ix2 c (⟨(j 1).val, (j 1).isLt⟩ : Fin 16)))
      + xs (ix2 (⟨(j 0).val, (j 0).isLt⟩ : Fin 8192) (⟨(j 1).val, (j 1).isLt⟩ : Fin 16)))

theorem Z2_ix2 (a : FVec Ideal S8192x8192 .f32) (xs : FVec Ideal S8192x16 .f32) (s : FVec Ideal S8192x1 .f32)
    (i : Fin 8192) (f : Fin 16) :
    Z2 a xs s (ix2 i f) = s (ix2 i (0 : Fin 1)) * ((∑ c : Fin 8192, a (ix2 i c) * xs (ix2 c f)) + xs (ix2 i f)) := rfl

/-- The second layer's result: the softmax over the 16 classes of those scores. -/
def G2 (a : FVec Ideal S8192x8192 .f32) (xs : FVec Ideal S8192x16 .f32) (s : FVec Ideal S8192x1 .f32) :
    FVec Ideal S8192x16 .f32 :=
  Cert.Spec.softmax (Z2 a xs s)

theorem G2_ix2 (a : FVec Ideal S8192x8192 .f32) (xs : FVec Ideal S8192x16 .f32) (s : FVec Ideal S8192x1 .f32)
    (i : Fin 8192) (f : Fin 16) :
    G2 a xs s (ix2 i f)
      = Ideal.div (Ideal.exp (Z2 a xs s (ix2 i f) - Cert.Spec.rowMax (Z2 a xs s) i))
          (∑ k : Fin 16, Ideal.exp (Z2 a xs s (ix2 i k) - Cert.Spec.rowMax (Z2 a xs s) i)) := rfl

/-! ## Where each window's block sits -/

/-- The windows' block indices at point t = 4 * (block row) + (column tile), decided over the 16 points. -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ win2_4.index t (0 : Fin 2) = t.val / 4 ∧ win2_4.index t (1 : Fin 2) = 0 :=
  (by decide +kernel : ∀ t : Fin grid2.N, _)

section
variable {F : FTy → Type} [FloatOps F]
variable (V : (c : Dev nD) → (b : Ref sig .tc) → Buf (Elt F) ((c : Thread nD τ).loc b))

/-- The adjacency block at point t, entry (r,k): the matrix at row 2048 * (t / 4) + r, column 2048 * (t % 4) + k. -/
theorem iblk2_0_apply (c : Dev nD) (a : FVec F S8192x8192 .f32) (ha : V c main_arg1 = a) (t : Fin cfg2.N)
    (r k : Fin 2048) (p q : Fin 8192) (hp : p.val = 2048 * (t.val / 4) + r.val) (hq : q.val = 2048 * (t.val % 4) + k.val) :
    iblk2 V c 0 t (ix2 r k) = a (ix2 p q) := by
  obtain ⟨e0, e1, -⟩ := idx_facts2 t
  subst ha
  unfold iblk2
  rw [View.read_apply]
  show V c main_arg1 _ = V c main_arg1 _
  congr 1
  funext x; apply Fin.ext
  match x with
  | ⟨0, _⟩ => show win2_0.index t (0 : Fin 2) * 2048 + 1 * r.val = p.val; omega
  | ⟨1, _⟩ => show win2_0.index t (1 : Fin 2) * 2048 + 1 * k.val = q.val; omega

/-- The scaled features' block read by the column tile, entry (k,f): the array at row 2048 * (t % 4) + k. -/
theorem iblk2_1_apply (c : Dev nD) (xs : FVec F S8192x16 .f32) (hxs : V c main_v7 = xs) (t : Fin cfg2.N)
    (k : Fin 2048) (f : Fin 16) (q : Fin 8192) (hq : q.val = 2048 * (t.val % 4) + k.val) :
    iblk2 V c 1 t (ix2 k f) = xs (ix2 q f) := by
  obtain ⟨-, -, e0, e1, -⟩ := idx_facts2 t
  subst hxs
  unfold iblk2
  rw [View.read_apply]
  show V c main_v7 _ = V c main_v7 _
  congr 1
  funext x; apply Fin.ext
  match x with
  | ⟨0, _⟩ => show win2_1.index t (0 : Fin 2) * 2048 + 1 * k.val = q.val; omega
  | ⟨1, _⟩ => show win2_1.index t (1 : Fin 2) * 16 + 1 * f.val = f.val; omega

/-- The scaled features' block read by the block row, entry (r,f): the array at row 2048 * (t / 4) + r. -/
theorem iblk2_2_apply (c : Dev nD) (xs : FVec F S8192x16 .f32) (hxs : V c main_v7 = xs) (t : Fin cfg2.N)
    (r : Fin 2048) (f : Fin 16) (p : Fin 8192) (hp : p.val = 2048 * (t.val / 4) + r.val) :
    iblk2 V c 2 t (ix2 r f) = xs (ix2 p f) := by
  obtain ⟨-, -, -, -, e0, e1, -⟩ := idx_facts2 t
  subst hxs
  unfold iblk2
  rw [View.read_apply]
  show V c main_v7 _ = V c main_v7 _
  congr 1
  funext x; apply Fin.ext
  match x with
  | ⟨0, _⟩ => show win2_2.index t (0 : Fin 2) * 2048 + 1 * r.val = p.val; omega
  | ⟨1, _⟩ => show win2_2.index t (1 : Fin 2) * 16 + 1 * f.val = f.val; omega

/-- The scaling column's block, entry (r,0): the column at row 2048 * (t / 4) + r. -/
theorem iblk2_3_apply (c : Dev nD) (s : FVec F S8192x1 .f32) (hs : V c main_v0 = s) (t : Fin cfg2.N)
    (r : Fin 2048) (p : Fin 8192) (hp : p.val = 2048 * (t.val / 4) + r.val) :
    iblk2 V c 3 t (ix2 r (0 : Fin 1)) = s (ix2 p (0 : Fin 1)) := by
  obtain ⟨-, -, -, -, -, -, e0, e1, -⟩ := idx_facts2 t
  subst hs
  unfold iblk2
  rw [View.read_apply]
  show V c main_v0 _ = V c main_v0 _
  congr 1
  funext x; apply Fin.ext
  match x with
  | ⟨0, _⟩ => show win2_3.index t (0 : Fin 2) * 2048 + 1 * r.val = p.val; omega
  | ⟨1, _⟩ => show win2_3.index t (1 : Fin 2) * 1 + 1 * 0 = 0; omega

end

/-! ## The scratch block after a block row's four tiles -/

/-- Four tile products added in order to the cleared block, entry (r,f). -/
theorem chain2 (A0 A1 A2 A3 : Vec Ideal S2048x2048 .f32) (X0 X1 X2 X3 : Vec Ideal S2048x16 .f32)
    (r : Fin 2048) (f : Fin 16) :
    k2_pay2 (F := Ideal) A3 X3 (k2_pay2 A2 X2 (k2_pay2 A1 X1 (k2_pay2 A0 X0 (k2_pay1 (F := Ideal))))) (ix2 r f)
      = (((0 + ∑ k : Fin 2048, A0 (ix2 r k) * X0 (ix2 k f)) + ∑ k : Fin 2048, A1 (ix2 r k) * X1 (ix2 k f))
          + ∑ k : Fin 2048, A2 (ix2 r k) * X2 (ix2 k f)) + ∑ k : Fin 2048, A3 (ix2 r k) * X3 (ix2 k f) := by
  rw [k2_pay2_eq, k2_pay2_eq, k2_pay2_eq, k2_pay2_eq, k2_pay1_eq]

variable (V : (c : Dev nD) → (b : Ref sig .tc) → Buf (Elt Ideal) ((c : Thread nD τ).loc b))

/-- After the last tile of a block row the scratch block holds, at (r,f), the whole sum over the 8192 columns of
    a(row, c) * xs(c, f), the row being 2048 * (block row) + r. -/
theorem acc2_apply (c : Dev nD) (a : FVec Ideal S8192x8192 .f32) (xs : FVec Ideal S8192x16 .f32)
    (ha : V c main_arg1 = a) (hxs : V c main_v7 = xs) (m : ℕ) (hm : m + 3 < cfg2.N) (h0 : m % 4 = 0)
    (r : Fin 2048) (f : Fin 16) (p : Fin 8192) (hp : p.val = 2048 * (m / 4) + r.val) :
    acc2 V c (m + 3) hm (ix2 r f) = ∑ c' : Fin 8192, a (ix2 p c') * xs (ix2 c' f) := by
  have h2 : m + 2 < cfg2.N := by omega
  have h1 : m + 1 < cfg2.N := by omega
  have hm0 : m < cfg2.N := by omega
  have e3 : acc2 V c (m + 3) hm = k2_pay2 (iblk2 V c 0 ⟨m + 3, hm⟩) (iblk2 V c 1 ⟨m + 3, hm⟩) (acc2 V c (m + 2) h2) :=
    acc2_next V c (m + 2) hm (by omega)
  have e2 : acc2 V c (m + 2) h2 = k2_pay2 (iblk2 V c 0 ⟨m + 2, h2⟩) (iblk2 V c 1 ⟨m + 2, h2⟩) (acc2 V c (m + 1) h1) :=
    acc2_next V c (m + 1) h2 (by omega)
  have e1 : acc2 V c (m + 1) h1 = k2_pay2 (iblk2 V c 0 ⟨m + 1, h1⟩) (iblk2 V c 1 ⟨m + 1, h1⟩) (acc2 V c m hm0) :=
    acc2_next V c m h1 (by omega)
  have e0 : acc2 V c m hm0 = k2_pay2 (iblk2 V c 0 ⟨m, hm0⟩) (iblk2 V c 1 ⟨m, hm0⟩) (k2_pay1 (F := Ideal)) :=
    acc2_first V c m hm0 h0
  rw [e3, e2, e1, e0]
  refine (chain2 (iblk2 V c 0 ⟨m, hm0⟩) (iblk2 V c 0 ⟨m + 1, h1⟩) (iblk2 V c 0 ⟨m + 2, h2⟩) (iblk2 V c 0 ⟨m + 3, hm⟩)
    (iblk2 V c 1 ⟨m, hm0⟩) (iblk2 V c 1 ⟨m + 1, h1⟩) (iblk2 V c 1 ⟨m + 2, h2⟩) (iblk2 V c 1 ⟨m + 3, hm⟩) r f).trans ?_
  have hA0 : ∀ k : Fin 2048, iblk2 V c 0 ⟨m, hm0⟩ (ix2 r k) = a (ix2 p (tileEntry 0 k)) := fun k =>
    iblk2_0_apply V c a ha ⟨m, hm0⟩ r k p (tileEntry 0 k) (by show p.val = 2048 * (m / 4) + r.val; omega)
      (by show 2048 * 0 + k.val = 2048 * (m % 4) + k.val; omega)
  have hA1 : ∀ k : Fin 2048, iblk2 V c 0 ⟨m + 1, h1⟩ (ix2 r k) = a (ix2 p (tileEntry 1 k)) := fun k =>
    iblk2_0_apply V c a ha ⟨m + 1, h1⟩ r k p (tileEntry 1 k) (by show p.val = 2048 * ((m + 1) / 4) + r.val; omega)
      (by show 2048 * 1 + k.val = 2048 * ((m + 1) % 4) + k.val; omega)
  have hA2 : ∀ k : Fin 2048, iblk2 V c 0 ⟨m + 2, h2⟩ (ix2 r k) = a (ix2 p (tileEntry 2 k)) := fun k =>
    iblk2_0_apply V c a ha ⟨m + 2, h2⟩ r k p (tileEntry 2 k) (by show p.val = 2048 * ((m + 2) / 4) + r.val; omega)
      (by show 2048 * 2 + k.val = 2048 * ((m + 2) % 4) + k.val; omega)
  have hA3 : ∀ k : Fin 2048, iblk2 V c 0 ⟨m + 3, hm⟩ (ix2 r k) = a (ix2 p (tileEntry 3 k)) := fun k =>
    iblk2_0_apply V c a ha ⟨m + 3, hm⟩ r k p (tileEntry 3 k) (by show p.val = 2048 * ((m + 3) / 4) + r.val; omega)
      (by show 2048 * 3 + k.val = 2048 * ((m + 3) % 4) + k.val; omega)
  have hX0 : ∀ k : Fin 2048, iblk2 V c 1 ⟨m, hm0⟩ (ix2 k f) = xs (ix2 (tileEntry 0 k) f) := fun k =>
    iblk2_1_apply V c xs hxs ⟨m, hm0⟩ k f (tileEntry 0 k) (by show 2048 * 0 + k.val = 2048 * (m % 4) + k.val; omega)
  have hX1 : ∀ k : Fin 2048, iblk2 V c 1 ⟨m + 1, h1⟩ (ix2 k f) = xs (ix2 (tileEntry 1 k) f) := fun k =>
    iblk2_1_apply V c xs hxs ⟨m + 1, h1⟩ k f (tileEntry 1 k) (by show 2048 * 1 + k.val = 2048 * ((m + 1) % 4) + k.val; omega)
  have hX2 : ∀ k : Fin 2048, iblk2 V c 1 ⟨m + 2, h2⟩ (ix2 k f) = xs (ix2 (tileEntry 2 k) f) := fun k =>
    iblk2_1_apply V c xs hxs ⟨m + 2, h2⟩ k f (tileEntry 2 k) (by show 2048 * 2 + k.val = 2048 * ((m + 2) % 4) + k.val; omega)
  have hX3 : ∀ k : Fin 2048, iblk2 V c 1 ⟨m + 3, hm⟩ (ix2 k f) = xs (ix2 (tileEntry 3 k) f) := fun k =>
    iblk2_1_apply V c xs hxs ⟨m + 3, hm⟩ k f (tileEntry 3 k) (by show 2048 * 3 + k.val = 2048 * ((m + 3) % 4) + k.val; omega)
  simp only [hA0, hA1, hA2, hA3, hX0, hX1, hX2, hX3]
  exact sum_tiles_from_zero (fun c' => a (ix2 p c') * xs (ix2 c' f))

/-! ## The output block at a block row's last tile -/

/-- The block's scores at a last column tile, entry (r,f): the scores' entry at row 2048 * (block row) + r. -/
theorem score2_value (c : Dev nD) (a : FVec Ideal S8192x8192 .f32) (xs : FVec Ideal S8192x16 .f32)
    (s : FVec Ideal S8192x1 .f32) (ha : V c main_arg1 = a) (hxs : V c main_v7 = xs) (hs : V c main_v0 = s)
    (m : ℕ) (hn : m + 3 < cfg2.N) (h0 : m % 4 = 0) (r : Fin 2048) (f : Fin 16) (p : Fin 8192)
    (hp : p.val = 2048 * (m / 4) + r.val) :
    blockScore (acc2 V c (m + 3) hn) (iblk2 V c 2 ⟨m + 3, hn⟩) (iblk2 V c 3 ⟨m + 3, hn⟩) r f = Z2 a xs s (ix2 p f) := by
  unfold blockScore
  rw [acc2_apply V c a xs ha hxs m hn h0 r f p hp,
    iblk2_2_apply V c xs hxs ⟨m + 3, hn⟩ r f p (by show p.val = 2048 * ((m + 3) / 4) + r.val; omega),
    iblk2_3_apply V c s hs ⟨m + 3, hn⟩ r p (by show p.val = 2048 * ((m + 3) / 4) + r.val; omega)]
  rfl

/-- The output block at a last column tile, entry (r,f): the result's entry at row 2048 * (block row) + r. -/
theorem block2_value (c : Dev nD) (a : FVec Ideal S8192x8192 .f32) (xs : FVec Ideal S8192x16 .f32)
    (s : FVec Ideal S8192x1 .f32) (ha : V c main_arg1 = a) (hxs : V c main_v7 = xs) (hs : V c main_v0 = s)
    (t : Fin cfg2.N) (h3 : t.val % 4 = 3) (r : Fin 2048) (f : Fin 16) (p : Fin 8192)
    (hp : p.val = 2048 * (t.val / 4) + r.val) :
    (outsAt2 V c t.val t.isLt).1 (ix2 r f) = G2 a xs s (ix2 p f) := by
  refine (congrFun (outsAt2_fst V c t h3) (ix2 r f)).trans ?_
  refine (k2_pay3_eq (acc2 V c t.val t.isLt) (iblk2 V c 2 t) (iblk2 V c 3 t) r f).trans ?_
  obtain ⟨n, hn⟩ := t
  obtain ⟨m, rfl⟩ : ∃ m, n = m + 3 := ⟨n - 3, by dsimp only at h3; omega⟩
  have h0 : m % 4 = 0 := by dsimp only at h3; omega
  have hp' : p.val = 2048 * (m / 4) + r.val := by dsimp only at hp; omega
  have hsc : ∀ k : Fin 16, blockScore (acc2 V c (m + 3) hn) (iblk2 V c 2 ⟨m + 3, hn⟩) (iblk2 V c 3 ⟨m + 3, hn⟩) r k
      = Z2 a xs s (ix2 p k) := fun k => score2_value V c a xs s ha hxs hs m hn h0 r k p hp'
  rw [G2_ix2]
  unfold blockMax Cert.Spec.rowMax
  simp only [hsc]

/-! ## From the blocks to the array -/

/-- What a writing point writes back is its block of the result. -/
theorem flushed2_eq (c : Dev nD) (t : Fin cfg2.N) (hf : (cfg2.win 4).flush t = true) :
    (dat2 V c).flushed 4 t
      = ((cfg2.win 4).blk t).view.read (Elt Ideal) (G2 (V c main_arg1) (V c main_v7) (V c main_v0)) := by
  have h3 : t.val % 4 = 3 := (flush2_4 t).mp hf
  have hN : t.val < 16 := lt_of_lt_of_eq t.isLt (show cfg2.N = 16 from N_2)
  obtain ⟨-, -, -, -, -, -, -, -, e0, e1⟩ := idx_facts2 t
  show (cfg2.win 4).cut (grid2.coords t) ((dat2 V c).after 4 t) = _
  rw [after2_4]
  funext y
  obtain ⟨r, f, rfl⟩ : ∃ (r : Fin 2048) (f : Fin 16), y = ix2 r f := ⟨y 0, y 1, eq_ix2 y⟩
  have hr := r.isLt
  have hemb : ((cfg2.win 4).blk t).view.emb (ix2 r f)
      = ix2 (⟨2048 * (t.val / 4) + r.val, by omega⟩ : Fin 8192) f := by
    funext x; apply Fin.ext
    match x with
    | ⟨0, _⟩ => show win2_4.index t (0 : Fin 2) * 2048 + 1 * r.val = 2048 * (t.val / 4) + r.val; omega
    | ⟨1, _⟩ => show win2_4.index t (1 : Fin 2) * 16 + 1 * f.val = f.val; omega
  show (outsAt2 V c t.val t.isLt).1 (ix2 r f)
    = G2 (V c main_arg1) (V c main_v7) (V c main_v0) (((cfg2.win 4).blk t).view.emb (ix2 r f))
  rw [hemb]
  exact block2_value V c _ _ _ rfl rfl rfl t h3 r f _ rfl

/-- An index of the array is in point t's block iff each coordinate is in the block's range on its axis. -/
theorem mem_blk2 (t : Fin cfg2.N) (i : S8192x16.Idx) :
    i ∈ ((cfg2.win 4).blk t).view.set
      ↔ ∀ x : Fin 2, win2_4.index t x * S2048x16.size x ≤ (i x).val
          ∧ (i x).val < win2_4.index t x * S2048x16.size x + S2048x16.size x := by
  show i ∈ ((View.whole main_v8).slice (win2_4.rect t)).set ↔ _
  rw [View.set_slice_whole, Rect.mem_set_unit]
  exact Iff.rfl

/-- Every index of the array is in the block of its block row's last point. -/
theorem cover2 (i : S8192x16.Idx) :
    ∃ t : Fin cfg2.N, (cfg2.win 4).flush t = true ∧ i ∈ ((cfg2.win 4).blk t).view.set := by
  have hi0 : (i 0).val < 8192 := (i 0).isLt
  have hi1 : (i 1).val < 16 := (i 1).isLt
  have hN : cfg2.N = 16 := N_2
  let t : Fin cfg2.N := ⟨4 * ((i 0).val / 2048) + 3, by omega⟩
  have ht : t.val = 4 * ((i 0).val / 2048) + 3 := rfl
  obtain ⟨-, -, -, -, -, -, -, -, e0, e1⟩ := idx_facts2 t
  refine ⟨t, (flush2_4 t).mpr (by omega), ?_⟩
  rw [mem_blk2]
  intro x
  match x with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 16 ≤ (i 1).val ∧ (i 1).val < win2_4.index t (1 : Fin 2) * 16 + 16
    omega

/-- The result array after the pass. -/
theorem final2 (c : Dev nD) :
    (dat2 V c).arrAt 4 cfg2.N = G2 (V c main_arg1) (V c main_v7) (V c main_v0) :=
  (dat2 V c).arrAt_eq_of_cover 4 (G2 (V c main_arg1) (V c main_v7) (V c main_v0)) (flushed2_eq V c) cover2

end Cert.DeviceValue

end
-- ==== Proof.KernelIsSpec.lean ====
/-
  The idealized kernel's result array is the specification's output.

  Region 1's output is the rectified aggregation of the scaled first-layer features: with the scaling column and the
  scaled features substituted it is the specification's hidden layer. The second host stretch forms the scaled
  second-layer features from it, and region 2's output, the row-wise softmax of their aggregation, is the
  specification's output.
-/
import proofs.«169160_j37220186587698_1_alg».proof.Proof.BoundaryValues
import proofs.«169160_j37220186587698_1_alg».proof.Proof.JoinSpec
import proofs.«169160_j37220186587698_1_alg».proof.Proof.DeviceRegion1
import proofs.«169160_j37220186587698_1_alg».proof.Proof.DeviceRegion2

noncomputable section

open Idealize.ShloMosaic Idealize.ShloMosaic.TcCoe Idealize.SL.Sem Idealize.ShloMosaic.ValueIdx
open scoped BigOperators

namespace Cert.DeviceValue

open Cert.KernelIdeal Cert.KernelIdeal.Gen Cert.KernelIdeal.Frames

variable (m : (ℓ : Loc nD τ sig) → Buf (Elt Ideal) ℓ) (c : Dev nD)

theorem G0_ix2 (a : S8192x8192.Idx → EReal) (i : Fin 8192) : G0 a (ix2 i (0 : Fin 1)) = Cert.Spec.scale a i := rfl

/-! ## After region 1 -/

/-- The hidden layer. -/
theorem W3_v4 : W3 m c (Proc.devRef .tc main_v4) = Cert.Spec.hidden (argH m c) (argAdj m c) (argW1 m c) := by
  refine (W3_out m c).trans ?_
  have ha : E2 m c main_arg1 = argAdj m c := W2_arg1 m c
  have hs0 : E2 m c main_v0 = G0 (argAdj m c) := W2_v0 m c
  rw [final1 (E2 m) c, ha, hs0]
  exact hidden_of (argAdj m c) (E2 m c main_v3) (G0 (argAdj m c)) (argH m c) (argW1 m c) (fun i => rfl)
    (fun i f => W2_v3_apply m c i f) _ (fun i f => G1_ix2 _ _ _ i f)

theorem W3_v0 : W3 m c (Proc.devRef .tc main_v0) = G0 (argAdj m c) := (hne1 m c main_v0 (by decide)).trans (W2_v0 m c)
theorem W3_arg1 : W3 m c (Proc.devRef .tc main_arg1) = argAdj m c := (hne1 m c main_arg1 (by decide)).trans (W2_arg1 m c)
theorem W3_arg3 : W3 m c (Proc.devRef .tc main_arg3) = argW2 m c := (hne1 m c main_arg3 (by decide)).trans (W2_arg3 m c)

/-! ## After the second host stretch -/

theorem W4_v0 : W4 m c (Proc.devRef .tc main_v0) = G0 (argAdj m c) := (hostOps2_v0 (W3 m c)).trans (W3_v0 m c)
theorem W4_arg1 : W4 m c (Proc.devRef .tc main_arg1) = argAdj m c := (hostOps2_arg1 (W3 m c)).trans (W3_arg1 m c)

/-- The scaled second-layer features. -/
theorem W4_v7_apply (i : Fin 8192) (f : Fin 16) :
    (W4 m c (Proc.devRef .tc main_v7) : FVec Ideal S8192x16 .f32) (ix2 i f)
      = Cert.Spec.scale (argAdj m c) i * Cert.Spec.times (Cert.Spec.hidden (argH m c) (argAdj m c) (argW1 m c)) (argW2 m c) (ix2 i f) :=
  (hostOps2_v7_apply_times (W3 m c) _ _ _ (W3_v0 m c) (W3_v4 m c) (W3_arg3 m c) i f).trans rfl

/-! ## After region 2 -/

/-- The result array of the idealized kernel is the specification's output of the four argument arrays. -/
theorem kernel_result :
    (dat2 (E4 m) c).arrAt 4 cfg2.N = Cert.Spec.out (argH m c) (argAdj m c) (argW1 m c) (argW2 m c) := by
  have ha : E4 m c main_arg1 = argAdj m c := W4_arg1 m c
  have hs0 : E4 m c main_v0 = G0 (argAdj m c) := W4_v0 m c
  rw [final2 (E4 m) c, ha, hs0]
  unfold G2 Cert.Spec.out Cert.Spec.logits
  exact congrArg Cert.Spec.softmax
    (layer_of (argAdj m c) (E4 m c main_v7) (G0 (argAdj m c))
      (Cert.Spec.times (Cert.Spec.hidden (argH m c) (argAdj m c) (argW1 m c)) (argW2 m c)) (fun i => rfl)
      (fun i f => W4_v7_apply m c i f) _ (fun i f => Z2_ix2 _ _ _ i f))

end Cert.DeviceValue

end
-- ==== Proof.LibCoeSum.lean ====
/-
  A finite sum of reals, coerced into the extended reals, is the sum of the coercions.
-/
import Mathlib.Data.EReal.Basic
import Mathlib.Algebra.BigOperators.Group.Finset.Basic

namespace Cert.Lib.CoeSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Lib.CoeSum
-- ==== Proof.RefAlgebra.lean ====
/-
  The algebra between the two arrangements of one propagation step, on the extended reals.

  The reference forms the normalised matrix, whose (i,c) entry is ((adj(i,c) + [i = c]) * d_i) * d_c, and multiplies
  it with a feature matrix; the other arrangement never forms it and computes
  d_i * ((sum over c of adj(i,c) * (d_c * x_c)) + d_i * x_i). The two agree by distributivity, which on the extended
  reals holds where every quantity is a real number; so the law is proved over the reals and carried across the
  coercion. The degree needs no such care: adding the identity matrix to a row and summing is summing and adding 1,
  in any commutative monoid.
-/
import proofs.«169160_j37220186587698_1_alg».proof.Proof.Spec
import proofs.«169160_j37220186587698_1_alg».proof.Proof.LibCoeSum

noncomputable section

namespace Cert.RefSpec

open Idealize.ShloMosaic Idealize.ShloMosaic.ValueIdx
open scoped BigOperators

/-! ## The identity matrix and the degree -/

/-- The (i,c) entry of the identity matrix. -/
def eye {N : ℕ} (i c : Fin N) : EReal := if i = c then 1 else 0

theorem eye_coe {N : ℕ} (i c : Fin N) : eye i c = ((if i = c then (1 : ℝ) else 0 : ℝ) : EReal) := by
  unfold eye; split_ifs <;> simp

/-- Summing a row with the identity's row added, from 0, is the row's sum plus 1. -/
theorem deg_eq {N : ℕ} (a : Fin N → EReal) (i : Fin N) : 0 + ∑ k, (a k + eye i k) = (∑ k, a k) + 1 := by
  rw [zero_add, Finset.sum_add_distrib]
  congr 1
  simp only [eye, Finset.sum_ite_eq, Finset.mem_univ, if_true]

/-! ## Real numbers stay real -/

/-- Of a real number, the guarded reciprocal square root is a real number. -/
theorem rsqrtPos_coe (r : ℝ) : ∃ r' : ℝ, Spec.rsqrtPos (r : EReal) = (r' : EReal) := by
  by_cases h : (0 : EReal) < (r : EReal)
  · rw [Spec.rsqrtPos_of_pos h]
    have hr : 0 < r := by exact_mod_cast h
    refine ⟨(Real.sqrt r)⁻¹, ?_⟩
    rw [Ideal.rsqrt_coe, if_neg (not_lt.2 hr.le), if_neg hr.ne']
  · exact ⟨0, by rw [Spec.rsqrtPos_of_not_pos h, EReal.coe_zero]⟩

/-- Of a real adjacency matrix, every entry of the scaling vector is real. -/
theorem scale_real (adj : (⟨2, ![8192, 8192]⟩ : Shape).Idx → EReal) (hadj : ∀ idx, ∃ r : ℝ, adj idx = (r : EReal))
    (i : Fin 8192) : ∃ r : ℝ, Spec.scale adj i = (r : EReal) := by
  choose a ha using hadj
  unfold Spec.scale
  simp only [ha]
  rw [← Cert.Lib.CoeSum.coe_sum, ← EReal.coe_one, ← EReal.coe_add]
  exact rsqrtPos_coe _

/-- A product of two real matrices with inner extent 64 is real. -/
theorem timesAt_real {n : ℕ} (X : (⟨2, ![8192, 64]⟩ : Shape).Idx → EReal) (W : (⟨2, ![64, n]⟩ : Shape).Idx → EReal)
    (hX : ∀ idx, ∃ r : ℝ, X idx = (r : EReal)) (hW : ∀ idx, ∃ r : ℝ, W idx = (r : EReal)) (i : Fin 8192) (f : Fin n) :
    ∃ r : ℝ, Spec.timesAt X W i f = (r : EReal) := by
  choose x hx using hX
  choose w hw using hW
  refine ⟨∑ k : Fin 64, x (ix2 i k) * w (ix2 k f), ?_⟩
  simp only [Spec.timesAt, hx, hw, ← EReal.coe_mul, ← Cert.Lib.CoeSum.coe_sum]

/-! ## The law -/

/-- Over the reals: the normalised matrix times a column is the rearranged sum. -/
theorem step_real {N : ℕ} (a d x : Fin N → ℝ) (i : Fin N) :
    ∑ c, ((a c + (if i = c then (1 : ℝ) else 0)) * d i) * d c * x c
      = d i * ((∑ c, a c * (d c * x c)) + d i * x i) := by
  simp only [add_mul, Finset.sum_add_distrib, ite_mul, one_mul, zero_mul, Finset.sum_ite_eq, Finset.mem_univ, if_true]
  rw [mul_add, Finset.mul_sum]
  congr 1
  · exact Finset.sum_congr rfl fun c _ => by ring
  · ring

/-- The same on the extended reals, for coercions of reals. -/
theorem step_coe {N : ℕ} (a d x : Fin N → ℝ) (i : Fin N) :
    ∑ c, (((a c : EReal) + eye i c) * (d i : EReal)) * (d c : EReal) * (x c : EReal)
      = (d i : EReal) * ((∑ c, (a c : EReal) * ((d c : EReal) * (x c : EReal))) + (d i : EReal) * (x i : EReal)) := by
  simp only [eye_coe, ← EReal.coe_add, ← EReal.coe_mul, ← Cert.Lib.CoeSum.coe_sum]
  exact congrArg _ (step_real a d x i)

/-- One propagation step, the reference's arrangement against the specification's: for a real adjacency matrix and a
    real feature matrix, the row of the normalised matrix times the column is the specification's entry, which is a
    real number. -/
theorem step_eq_layerAt {n : ℕ} (adj : (⟨2, ![8192, 8192]⟩ : Shape).Idx → EReal)
    (X : (⟨2, ![8192, n]⟩ : Shape).Idx → EReal) (hadj : ∀ idx, ∃ r : ℝ, adj idx = (r : EReal))
    (hX : ∀ idx, ∃ r : ℝ, X idx = (r : EReal)) (i : Fin 8192) (f : Fin n) :
    (∑ c : Fin 8192, (((adj (ix2 i c) + eye i c) * Spec.scale adj i) * Spec.scale adj c) * X (ix2 c f)
        = Spec.layerAt adj (Spec.scale adj) X i f)
      ∧ ∃ r : ℝ, Spec.layerAt adj (Spec.scale adj) X i f = (r : EReal) := by
  choose d hd using scale_real adj hadj
  choose a ha using hadj
  choose x hx using hX
  constructor
  · simp only [Spec.layerAt, ha, hx, hd]
    exact step_coe (fun c => a (ix2 i c)) d (fun c => x (ix2 c f)) i
  · refine ⟨d i * ((∑ c, a (ix2 i c) * (d c * x (ix2 c f))) + d i * x (ix2 i f)), ?_⟩
    simp only [Spec.layerAt, ha, hx, hd, ← EReal.coe_add, ← EReal.coe_mul, ← Cert.Lib.CoeSum.coe_sum]

/-- The maximum of a real number and 0 is a real number. -/
theorem max_zero_real {x : EReal} (h : ∃ r : ℝ, x = (r : EReal)) : ∃ r : ℝ, max x 0 = (r : EReal) := by
  obtain ⟨r, rfl⟩ := h
  exact ⟨max r 0, by rw [EReal.coe_strictMono.monotone.map_max, EReal.coe_zero]⟩

end Cert.RefSpec

end
-- ==== Proof.RefNorm.lean ====
/-
  The reference's normalised adjacency matrix, read entry by entry.

  The reference adds the identity matrix to adj, sums each row for the degree, takes the guarded reciprocal square
  root d of the degree, and scales row i by d_i and column c by d_c. Read at an index: the identity's entry is 1 on
  the diagonal and 0 off it, the degree is the row sum plus 1, d is the specification's scaling vector, and the
  normalised entry is ((adj(i,c) + [i = c]) * d_i) * d_c.
-/
import proofs.«169160_j37220186587698_1_alg».proof.Proof.RefModules
import proofs.«169160_j37220186587698_1_alg».proof.Proof.Spec
import proofs.«169160_j37220186587698_1_alg».proof.Proof.RefAlgebra

noncomputable section

namespace Cert.RefSpec

open Cert.ReferenceIdeal Cert.ReferenceIdeal.Gen Cert.ReferenceIdeal.Read Idealize.ShloMosaic Idealize.ShloMosaic.ValueIdx
open scoped BigOperators

/-! ## The identity matrix -/

/-- Row number i compared with column number c, as 32-bit words, converted to a float: 1 where i = c, else 0. Both
    numbers are below 8192, so the words are equal only where the numbers are. -/
theorem eye_word (i c : Fin 8192) :
    FloatOps.uitofp (F := Ideal) .f32
      (IntOp.cmpi .eq (IntOp.addi (BitVec.ofNat 32 i.val) 0#32) (BitVec.ofNat 32 c.val)) = eye i c := by
  have hadd : IntOp.addi (BitVec.ofNat 32 i.val) 0#32 = BitVec.ofNat 32 i.val := by
    show BitVec.ofNat 32 i.val + 0#32 = _
    exact BitVec.add_zero _
  rw [hadd]
  by_cases h : i = c
  · subst h
    have e : IntOp.cmpi .eq (BitVec.ofNat 32 i.val) (BitVec.ofNat 32 i.val) = 1#1 := IntOp.cmpi_eq.2 rfl
    rw [e]; unfold eye; rw [if_pos rfl]
    show (((1#1 : BitVec 1).toNat : ℝ) : EReal) = 1
    simp
  · have hne : BitVec.ofNat 32 i.val ≠ BitVec.ofNat 32 c.val := by
      intro e
      have e' := congrArg BitVec.toNat e
      have hi := i.isLt
      have hc := c.isLt
      rw [BitVec.toNat_ofNat, BitVec.toNat_ofNat, Nat.mod_eq_of_lt (by omega), Nat.mod_eq_of_lt (by omega)] at e'
      exact h (Fin.ext e')
    have e : IntOp.cmpi .eq (BitVec.ofNat 32 i.val) (BitVec.ofNat 32 c.val) = 0#1 :=
      eq_zero_of_ne_one (fun e => hne (IntOp.cmpi_eq.1 e))
    rw [e]; unfold eye; rw [if_neg h]
    show (((0#1 : BitVec 1).toNat : ℝ) : EReal) = 0
    simp

/-- The converted comparison of the two iotas, at (i,c). -/
theorem v5_at (i c : Fin 8192) : val_main_v5 (F := Ideal) (ix2 i c) = eye i c := by
  rw [val_main_v5_apply, val_main_v4_apply, val_main_v3_apply, val_main_v0_apply, val_main_v1_apply, val_main_v2_apply,
    val_main_c_apply]
  exact eye_word i c

/-- adj with the identity added, at (i,c). -/
theorem v6_at (adj : FVec Ideal S8192x8192 .f32) (i c : Fin 8192) :
    val_main_v6 (F := Ideal) adj (ix2 i c) = adj (ix2 i c) + eye i c := by
  rw [val_main_v6_apply, v5_at]; rfl

/-! ## The degree and the scaling vector -/

theorem idx7 (i k : Fin 8192) : idx_main_v7 (ix1 i) k = ix2 i k :=
  funext fun a => Fin.ext (by match a with | ⟨0, _⟩ => rfl | ⟨1, _⟩ => rfl)

/-- The degree of node i: the sum of row i of adj, plus 1. -/
theorem deg_at (adj : FVec Ideal S8192x8192 .f32) (i : Fin 8192) :
    val_main_v7 (F := Ideal) adj (ix1 i) = (∑ c : Fin 8192, adj (ix2 i c)) + 1 := by
  rw [val_main_v7_apply, val_main_cst_apply]
  simp only [idx7, v6_at, Ideal.ofBits_def, Ideal.ofBits_zero_f32]
  exact deg_eq (fun k => adj (ix2 i k)) i

/-- The reference's d_i is the specification's s_i. -/
theorem v11_at (adj : FVec Ideal S8192x8192 .f32) (i : Fin 8192) :
    val_main_v11 (F := Ideal) adj (ix1 i) = Spec.scale adj i := by
  rw [val_main_v11_apply, val_main_v9_apply, val_main_v10_apply, val_main_v8_apply, val_main_cst_0_apply,
    val_main_call0_v1_apply, val_main_call0_v0_apply, val_main_cst_1_apply, deg_at]
  exact Spec.rsqrtPos_host _

/-! ## The normalised matrix -/

/-- The normalised entry at (i,c). -/
theorem v17_at (adj : FVec Ideal S8192x8192 .f32) (i c : Fin 8192) :
    val_main_v17 (F := Ideal) adj (ix2 i c)
      = ((adj (ix2 i c) + eye i c) * Spec.scale adj i) * Spec.scale adj c := by
  have e1 : idx_main_v12 (idx_main_v13 (ix2 i c)) = ix1 i :=
    funext fun a => Fin.ext (by match a with | ⟨0, _⟩ => rfl)
  have e2 : idx_main_v15 (idx_main_v16 (ix2 i c)) = ix1 c :=
    funext fun a => Fin.ext (by match a with | ⟨0, _⟩ => rfl)
  rw [val_main_v17_apply, val_main_v14_apply, val_main_v16_apply, val_main_v15_apply, val_main_v13_apply,
    val_main_v12_apply, v6_at, e1, e2, v11_at, v11_at]
  rfl

end Cert.RefSpec

end
-- ==== Proof.RefLayers.lean ====
/-
  The reference's two layers are the specification's.

  Each layer multiplies the normalised matrix with a feature matrix: entry (i,f) is the sum over c of
  ((adj(i,c) + [i = c]) * d_i) * d_c * X(c,f). Where adj and X are real this is the specification's arrangement
  d_i * ((sum over c of adj(i,c) * (d_c * X(c,f))) + d_i * X(i,f)), and the result is real again, so the second layer
  may use the law as the first did: the products with the weights, and the maximum with 0, keep real matrices real.
-/
import proofs.«169160_j37220186587698_1_alg».proof.Proof.RefNorm

noncomputable section

namespace Cert.RefSpec

open Cert.ReferenceIdeal Cert.ReferenceIdeal.Gen Cert.ReferenceIdeal.Read Idealize.ShloMosaic Idealize.ShloMosaic.ValueIdx
open scoped BigOperators

/-! ## Real matrices stay real -/

theorem times_real {n : ℕ} (X : (⟨2, ![8192, 64]⟩ : Shape).Idx → EReal) (W : (⟨2, ![64, n]⟩ : Shape).Idx → EReal)
    (hX : ∀ idx, ∃ r : ℝ, X idx = (r : EReal)) (hW : ∀ idx, ∃ r : ℝ, W idx = (r : EReal)) :
    ∀ idx, ∃ r : ℝ, Spec.times X W idx = (r : EReal) :=
  fun _ => timesAt_real X W hX hW _ _

theorem hidden_real (H : FVec Ideal S8192x64 .f32) (adj : FVec Ideal S8192x8192 .f32) (W1 : FVec Ideal S64x64 .f32)
    (hH : ∀ idx, ∃ r : ℝ, H idx = (r : EReal)) (hadj : ∀ idx, ∃ r : ℝ, adj idx = (r : EReal))
    (hW1 : ∀ idx, ∃ r : ℝ, W1 idx = (r : EReal)) : ∀ idx, ∃ r : ℝ, Spec.hidden H adj W1 idx = (r : EReal) :=
  fun _ => max_zero_real (step_eq_layerAt adj (Spec.times H W1) hadj (times_real H W1 hH hW1) _ _).2

/-! ## The first layer -/

/-- H W1, the host's product read as the sum over the inner index. -/
theorem v18_eq (H : FVec Ideal S8192x64 .f32) (W1 : FVec Ideal S64x64 .f32) :
    val_main_v18 (F := Ideal) H W1 = Spec.times H W1 := by
  funext j
  obtain ⟨i, f, rfl⟩ : ∃ (i : Fin 8192) (f : Fin 64), j = ix2 i f := ⟨j 0, j 1, eq_ix2 j⟩
  rw [val_main_v18_apply, Spec.times_ix2]
  refine Finset.sum_congr rfl fun k _ => ?_
  have el : lidx_main_v18 (ix2 i f) k = ix2 i k :=
    funext fun a => Fin.ext (by match a with | ⟨0, _⟩ => rfl | ⟨1, _⟩ => rfl)
  have er : ridx_main_v18 (ix2 i f) k = ix2 k f :=
    funext fun a => Fin.ext (by match a with | ⟨0, _⟩ => rfl | ⟨1, _⟩ => rfl)
  rw [el, er]

/-- The normalised matrix times H W1, at (i,f). -/
theorem v19_at (H : FVec Ideal S8192x64 .f32) (adj : FVec Ideal S8192x8192 .f32) (W1 : FVec Ideal S64x64 .f32)
    (i : Fin 8192) (f : Fin 64) :
    val_main_v19 (F := Ideal) H adj W1 (ix2 i f)
      = ∑ c : Fin 8192, (((adj (ix2 i c) + eye i c) * Spec.scale adj i) * Spec.scale adj c) * Spec.times H W1 (ix2 c f) := by
  rw [val_main_v19_apply, v18_eq]
  refine Finset.sum_congr rfl fun c _ => ?_
  have el : lidx_main_v19 (ix2 i f) c = ix2 i c :=
    funext fun a => Fin.ext (by match a with | ⟨0, _⟩ => rfl | ⟨1, _⟩ => rfl)
  have er : ridx_main_v19 (ix2 i f) c = ix2 c f :=
    funext fun a => Fin.ext (by match a with | ⟨0, _⟩ => rfl | ⟨1, _⟩ => rfl)
  rw [el, er, v17_at]

/-- The reference's hidden features are the specification's. -/
theorem v20_eq (H : FVec Ideal S8192x64 .f32) (adj : FVec Ideal S8192x8192 .f32) (W1 : FVec Ideal S64x64 .f32)
    (hH : ∀ idx, ∃ r : ℝ, H idx = (r : EReal)) (hadj : ∀ idx, ∃ r : ℝ, adj idx = (r : EReal))
    (hW1 : ∀ idx, ∃ r : ℝ, W1 idx = (r : EReal)) :
    val_main_v20 (F := Ideal) H adj W1 = Spec.hidden H adj W1 := by
  funext j
  obtain ⟨i, f, rfl⟩ : ∃ (i : Fin 8192) (f : Fin 64), j = ix2 i f := ⟨j 0, j 1, eq_ix2 j⟩
  rw [val_main_v20_apply, val_main_call1_v0_apply, val_main_call1_cst_apply, v19_at,
    (step_eq_layerAt adj (Spec.times H W1) hadj (times_real H W1 hH hW1) i f).1]
  exact Spec.relu_word _

/-! ## The second layer -/

/-- (hidden features) W2. -/
theorem v21_eq (H : FVec Ideal S8192x64 .f32) (adj : FVec Ideal S8192x8192 .f32) (W1 : FVec Ideal S64x64 .f32)
    (W2 : FVec Ideal S64x16 .f32)
    (hH : ∀ idx, ∃ r : ℝ, H idx = (r : EReal)) (hadj : ∀ idx, ∃ r : ℝ, adj idx = (r : EReal))
    (hW1 : ∀ idx, ∃ r : ℝ, W1 idx = (r : EReal)) :
    val_main_v21 (F := Ideal) H adj W1 W2 = Spec.times (Spec.hidden H adj W1) W2 := by
  funext j
  obtain ⟨i, f, rfl⟩ : ∃ (i : Fin 8192) (f : Fin 16), j = ix2 i f := ⟨j 0, j 1, eq_ix2 j⟩
  rw [val_main_v21_apply, v20_eq H adj W1 hH hadj hW1, Spec.times_ix2]
  refine Finset.sum_congr rfl fun k _ => ?_
  have el : lidx_main_v21 (ix2 i f) k = ix2 i k :=
    funext fun a => Fin.ext (by match a with | ⟨0, _⟩ => rfl | ⟨1, _⟩ => rfl)
  have er : ridx_main_v21 (ix2 i f) k = ix2 k f :=
    funext fun a => Fin.ext (by match a with | ⟨0, _⟩ => rfl | ⟨1, _⟩ => rfl)
  rw [el, er]

/-- The reference's class scores are the specification's. -/
theorem v22_eq (H : FVec Ideal S8192x64 .f32) (adj : FVec Ideal S8192x8192 .f32) (W1 : FVec Ideal S64x64 .f32)
    (W2 : FVec Ideal S64x16 .f32)
    (hH : ∀ idx, ∃ r : ℝ, H idx = (r : EReal)) (hadj : ∀ idx, ∃ r : ℝ, adj idx = (r : EReal))
    (hW1 : ∀ idx, ∃ r : ℝ, W1 idx = (r : EReal)) (hW2 : ∀ idx, ∃ r : ℝ, W2 idx = (r : EReal)) :
    val_main_v22 (F := Ideal) H adj W1 W2 = Spec.logits H adj W1 W2 := by
  funext j
  obtain ⟨i, f, rfl⟩ : ∃ (i : Fin 8192) (f : Fin 16), j = ix2 i f := ⟨j 0, j 1, eq_ix2 j⟩
  rw [val_main_v22_apply, v21_eq H adj W1 W2 hH hadj hW1]
  have hstep := (step_eq_layerAt adj (Spec.times (Spec.hidden H adj W1) W2) hadj
    (times_real (Spec.hidden H adj W1) W2 (hidden_real H adj W1 hH hadj hW1) hW2) i f).1
  refine Eq.trans (Finset.sum_congr rfl fun c _ => ?_) hstep
  have el : lidx_main_v22 (ix2 i f) c = ix2 i c :=
    funext fun a => Fin.ext (by match a with | ⟨0, _⟩ => rfl | ⟨1, _⟩ => rfl)
  have er : ridx_main_v22 (ix2 i f) c = ix2 c f :=
    funext fun a => Fin.ext (by match a with | ⟨0, _⟩ => rfl | ⟨1, _⟩ => rfl)
  rw [el, er, v17_at]

end Cert.RefSpec

end
-- ==== Proof.RefIsSpec.lean ====
/-
  The reference computes the specification.

  After the two layers the reference takes, per row, the running maximum of the 16 class scores from minus infinity
  (and once more the maximum of that with minus infinity, which changes nothing), subtracts it, exponentiates, sums
  the row from 0 and divides: the specification's softmax of the class scores. The class scores are the
  specification's where the four arguments are real matrices.
-/
import proofs.«169160_j37220186587698_1_alg».proof.Proof.RefLayers
import proofs.«169160_j37220186587698_1_alg».proof.Proof.LibLastAxisMax

noncomputable section

namespace Cert.RefSpec

open Cert.ReferenceIdeal Cert.ReferenceIdeal.Gen Cert.ReferenceIdeal.Read Idealize.ShloMosaic Idealize.ShloMosaic.ValueIdx
open scoped BigOperators

section
variable (H : FVec Ideal S8192x64 .f32) (adj : FVec Ideal S8192x8192 .f32) (W1 : FVec Ideal S64x64 .f32)
  (W2 : FVec Ideal S64x16 .f32)

/-- The host's reduction by a maximum, at row i: the specification's row maximum of the class scores. -/
theorem v23_at (i : Fin 8192) :
    val_main_v23 (F := Ideal) H adj W1 W2 (ix1 i) = Spec.rowMax (val_main_v22 (F := Ideal) H adj W1 W2) i := by
  unfold val_main_v23
  rw [Cert.Lib.LastAxisMax.hostMax_cols_apply (val_main_v22 (F := Ideal) H adj W1 W2) (val_main_cst_2 (F := Ideal))
    reducesTo_S8192x16_S8192_d1 (by decide) h_S_ i, val_main_cst_2_apply, Ideal.ofBits_def, Spec.ofBits_negInf]
  rfl

/-- The maximum of minus infinity and the row maximum is the row maximum. -/
theorem v25_at (i : Fin 8192) :
    val_main_v25 (F := Ideal) H adj W1 W2 (ix1 i) = Spec.rowMax (val_main_v22 (F := Ideal) H adj W1 W2) i := by
  rw [val_main_v25_apply, val_main_v24_apply, val_main_cst_3_apply, v23_at, Ideal.ofBits_def, Spec.ofBits_negInf]
  exact max_eq_right bot_le

/-- The exponential of the shifted score, at (i,f). -/
theorem v29_at (i : Fin 8192) (f : Fin 16) :
    val_main_v29 (F := Ideal) H adj W1 W2 (ix2 i f)
      = Ideal.exp (val_main_v22 (F := Ideal) H adj W1 W2 (ix2 i f)
          - Spec.rowMax (val_main_v22 (F := Ideal) H adj W1 W2) i) := by
  have e : idx_main_v26 (idx_main_v27 (ix2 i f)) = ix1 i :=
    funext fun a => Fin.ext (by match a with | ⟨0, _⟩ => rfl)
  rw [val_main_v29_apply, val_main_v28_apply, val_main_v27_apply, val_main_v26_apply, e, v25_at]
  rfl

theorem idx30 (i : Fin 8192) (k : Fin 16) : idx_main_v30 (ix1 i) k = ix2 i k :=
  funext fun a => Fin.ext (by match a with | ⟨0, _⟩ => rfl | ⟨1, _⟩ => rfl)

/-- The sum of row i of the exponentials. -/
theorem v30_at (i : Fin 8192) :
    val_main_v30 (F := Ideal) H adj W1 W2 (ix1 i)
      = ∑ k : Fin 16, Ideal.exp (val_main_v22 (F := Ideal) H adj W1 W2 (ix2 i k)
          - Spec.rowMax (val_main_v22 (F := Ideal) H adj W1 W2) i) := by
  rw [val_main_v30_apply, val_main_cst_4_apply]
  simp only [idx30, v29_at, Ideal.ofBits_def, Ideal.ofBits_zero_f32, zero_add]

/-- The reference's result is the specification's softmax of the reference's class scores. -/
theorem v33_eq :
    val_main_v33 (F := Ideal) H adj W1 W2 = Spec.softmax (val_main_v22 (F := Ideal) H adj W1 W2) := by
  funext j
  obtain ⟨i, f, rfl⟩ : ∃ (i : Fin 8192) (f : Fin 16), j = ix2 i f := ⟨j 0, j 1, eq_ix2 j⟩
  have e : idx_main_v31 (idx_main_v32 (ix2 i f)) = ix1 i :=
    funext fun a => Fin.ext (by match a with | ⟨0, _⟩ => rfl)
  rw [val_main_v33_apply, val_main_v32_apply, val_main_v31_apply, e, v29_at, v30_at]
  rfl

end

/-- For real argument matrices, the reference run's result is the specification's result of the same matrices. -/
theorem reference_eq_spec (H : FVec Ideal S8192x64 .f32) (adj : FVec Ideal S8192x8192 .f32)
    (W1 : FVec Ideal S64x64 .f32) (W2 : FVec Ideal S64x16 .f32)
    (hH : ∀ idx, ∃ r : ℝ, H idx = (r : EReal)) (hadj : ∀ idx, ∃ r : ℝ, adj idx = (r : EReal))
    (hW1 : ∀ idx, ∃ r : ℝ, W1 idx = (r : EReal)) (hW2 : ∀ idx, ∃ r : ℝ, W2 idx = (r : EReal)) :
    val_main_v33 (F := Ideal) H adj W1 W2 = Spec.out H adj W1 W2 := by
  rw [v33_eq, v22_eq H adj W1 W2 hH hadj hW1 hW2]
  rfl

end Cert.RefSpec

end
-- ==== Proof.LibFiniteEntries.lean ====
/-
  One conjunct of a finiteness precondition read back. The test `jnp.all(jnp.abs(x) < inf)` of a float array x prints
  as a reduction by `and`, down to a single truth value, of the comparison of |x| with a splat of the word of +inf.
  On the extended reals |x| is max x (-x), the word 0x7F800000 is +inf, and max x (-x) < +inf says x is neither
  infinity: a real number. So where the test's value is 1, every entry of x is the coercion of a real. Any shape, any
  reduced axes, any scalar shape for the splat.
-/
import Idealize.ShloMosaic.PureOps.Ideal
import Idealize.ShloMosaic.PureOps.Ideal.Laws
import Idealize.ShloMosaic.Lib.ReduceAll

noncomputable section

namespace Cert.Lib.FiniteEntries

open Idealize.ShloMosaic

/-- An extended real whose absolute value compares below +inf is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- The word of +inf in binary32 denotes the top element. -/
theorem ofBits_inf : Ideal.ofBits .f32 0x7F800000#32 = ⊤ := by simp [Ideal.ofBits, Ideal.ieee]

/-- Where `all(|x| < inf)` is 1, every entry of x is real. -/
theorem real_of_all {s z t u : Shape} {axes : List (Fin s.rank)} [Subsingleton t.Idx] (x : FVec Ideal s .f32)
    (dims : Fin z.rank → Fin s.rank) (hb : z.BroadcastsInDim s dims) (init : u.Idx → BitVec 1) (h : s.ReducesTo axes t)
    (hu : 0 < u.numel) (j : t.Idx)
    (e : Host.reduce IntOp.andi
      (cmpf (F := Ideal) .olt (Host.absf x) (broadcastInDim s dims hb (constant (F := Ideal) z .f32 0x7F800000#32))) init h hu j = 1#1)
    (i : s.Idx) : ∃ r : ℝ, x i = (r : EReal) := by
  have hi := Host.reduce_andi_all _ init h hu j e i
  refine real_of_abs_lt_top (x i) ?_
  rw [← ofBits_inf]
  exact hi

end Cert.Lib.FiniteEntries

end
-- ==== Proof.FiniteInputs.lean ====
/-
  From the precondition to the fact the algebra needs: every entry of the four argument arrays is a real number.

  The precondition is the conjunction, over the four arrays, of the test that every |x| compares below +inf. On the
  extended reals that test holds of an entry exactly when the entry is neither infinity, that is, when it is the
  coercion of a real.
-/
import proofs.«169160_j37220186587698_1_alg».proof.Defs
import proofs.«169160_j37220186587698_1_alg».proof.Proof.LibFiniteEntries
import Idealize.ShloMosaic.Lib.ValueIdx
import Idealize.ShloMosaic.Lib.Affine

noncomputable section

namespace Cert.FiniteInputs

open Idealize.ShloMosaic Idealize.SL.Sem

/-- The shape with no axes has one index. -/
instance : Subsingleton Cert.Pre_finite_inputs.S_.Idx := ⟨fun a b => funext fun d => d.elim0⟩

/-- Where the finiteness test of four arrays is 1, every entry of each is the coercion of a real. -/
theorem real_of_fn [Cert.Pre_finite_inputs.Facts]
    (a0 : FVec Ideal Cert.Pre_finite_inputs.S8192x64 .f32) (a1 : FVec Ideal Cert.Pre_finite_inputs.S8192x8192 .f32)
    (a2 : FVec Ideal Cert.Pre_finite_inputs.S64x64 .f32) (a3 : FVec Ideal Cert.Pre_finite_inputs.S64x16 .f32)
    (h : Cert.Pre_finite_inputs.fn (F := Ideal) a0 a1 a2 a3 = fun _ => 1#1) :
    (∀ idx, ∃ r : ℝ, a0 idx = (r : EReal)) ∧ (∀ idx, ∃ r : ℝ, a1 idx = (r : EReal))
      ∧ (∀ idx, ∃ r : ℝ, a2 idx = (r : EReal)) ∧ (∀ idx, ∃ r : ℝ, a3 idx = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨Cert.Lib.FiniteEntries.real_of_all a0 _ _ _ _ _ _ h0', Cert.Lib.FiniteEntries.real_of_all a1 _ _ _ _ _ _ h1,
    Cert.Lib.FiniteEntries.real_of_all a2 _ _ _ _ _ _ h2, Cert.Lib.FiniteEntries.real_of_all a3 _ _ _ _ _ _ h3⟩

/-- Under the precondition, on every device, every entry of each of the four argument arrays is a real. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ idx, ∃ r : ℝ, m ((c.tc : Thread Cert.KernelIdeal.nD Cert.KernelIdeal.τ).loc Cert.KernelIdeal.main_arg0) idx = (r : EReal))
      ∧ (∀ idx, ∃ r : ℝ, m ((c.tc : Thread Cert.KernelIdeal.nD Cert.KernelIdeal.τ).loc Cert.KernelIdeal.main_arg1) idx = (r : EReal))
      ∧ (∀ idx, ∃ r : ℝ, m ((c.tc : Thread Cert.KernelIdeal.nD Cert.KernelIdeal.τ).loc Cert.KernelIdeal.main_arg2) idx = (r : EReal))
      ∧ (∀ idx, ∃ r : ℝ, m ((c.tc : Thread Cert.KernelIdeal.nD Cert.KernelIdeal.τ).loc Cert.KernelIdeal.main_arg3) idx = (r : EReal)) :=
  real_of_fn _ _ _ _ (h c)

end Cert.FiniteInputs

end
-- ==== Proof.lean ====
/-
  The certificate of a two-layer graph convolution on 8192 nodes: the kernel computes
  softmax(A (relu(A (H W1)) W2)) with A = D^(-1/2) (adj + I) D^(-1/2) without ever forming A, as
  s_i (Σ_c adj(i,c) (s_c X(c,f)) + s_i X(i,f)) with s the reciprocal square root of the degrees, in three regions
  that each sweep the adjacency matrix once in 2048 × 2048 blocks, accumulating over the column blocks.

  Frames: each region's body is run once per control case (first, middle, last column block); an invariant carries
  the accumulator from point to point; the three regions and the two host stretches between them are chained.
  Equivalence at the ideal instance: the kernel's result array is the specification Spec.out of the four argument
  arrays, for any extended-real inputs; the reference's result is the same function when every input entry is a real
  number, which the precondition says: there the normalized adjacency can be distributed over the sum.
-/
import proofs.«169160_j37220186587698_1_alg».proof.Defs
import proofs.«169160_j37220186587698_1_alg».proof.Proof.Gen.Kernel
import proofs.«169160_j37220186587698_1_alg».proof.Proof.Gen.KernelIdeal
import proofs.«169160_j37220186587698_1_alg».proof.Proof.Gen.ReferenceIdeal
import proofs.«169160_j37220186587698_1_alg».proof.Proof.Gen.Pre_finite_inputs
import proofs.«169160_j37220186587698_1_alg».proof.Proof.ClaimsFrames
import proofs.«169160_j37220186587698_1_alg».proof.Proof.KernelIsSpec
import proofs.«169160_j37220186587698_1_alg».proof.Proof.RefIsSpec
import proofs.«169160_j37220186587698_1_alg».proof.Proof.FiniteInputs
import Idealize.ShloMosaic.Adequacy
import Idealize.ShloMosaic.Init

noncomputable section

namespace Cert.Proof

open Idealize.ShloMosaic Idealize.ShloMosaic.TcCoe Idealize.SL.Sem

/-- At the ideal instance both programs end with the specification's output of the argument arrays: the kernel for
    any inputs, the reference for the real-valued inputs the precondition grants. -/
theorem algebraic : Cert.algebraic_KernelIdeal_ReferenceIdeal := by
  intro m ρ m' ρ' hpre hagree
  refine ⟨fun c => Cert.Spec.out (Cert.DeviceValue.argH m c) (Cert.DeviceValue.argAdj m c) (Cert.DeviceValue.argW1 m c) (Cert.DeviceValue.argW2 m c), ?_, ?_⟩
  · exact (θ_run Cert.KernelIdeal.defs _ _).mono
      (fun _ h c => ⟨(h c).1.trans (Cert.DeviceValue.kernel_result m c), (h c).2⟩)
      (Cert.KernelIdeal.Frames.run_all (F := Ideal) m ρ)
  · refine (θ_run Cert.ReferenceIdeal.defs _ _).mono (fun _ h c => ⟨?_, (h c).2⟩)
      (Cert.ReferenceIdeal.Value.run (F := Ideal) m' ρ')
    obtain ⟨h0, h1, h2, h3⟩ := Cert.FiniteInputs.real_of_pre m hpre c
    rw [(h c).1, Cert.ReferenceIdeal.Read.val_main_v33_eq, (hagree c).1, (hagree c).2.1, (hagree c).2.2.1, (hagree c).2.2.2]
    exact Cert.RefSpec.reference_eq_spec _ _ _ _ h0 h1 h2 h3

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_referenceIdeal,
    Cert.Proof.Claims.preserves, algebraic⟩

end Cert.Proof

end
